-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1228800 : Shape := ⟨1, ![1228800]⟩
abbrev S122880x10 : Shape := ⟨2, ![122880, 10]⟩
abbrev S12288x10 : Shape := ⟨2, ![12288, 10]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S256x1 .f32) (main_arg15 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg14
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S256x256 .f32) (main_arg11 : FVec F S256 .f32) (main_arg12 : FVec F S256x256 .f32) (main_arg13 : FVec F S256 .f32) (main_arg14 : FVec F S256x1 .f32) (main_arg15 : FVec F S1 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_v48 main_v49 main_v50

def fn_part1 {F : FTy → Type} [FloatOps F] (main_arg7 : FVec F S256x256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S1000000x128 .f32) (main_arg1 : IVec S1228800 32) (main_arg2 : IVec S122880x10 32) (main_arg3 : IVec S12288x10 32) (main_arg4 : FVec F S128x256 .f32) (main_arg5 : FVec F S128x256 .f32) (main_arg6 : FVec F S256 .f32) (main_arg7 : FVec F S256x256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x1 .f32) (main_arg15 : FVec F S1 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg5
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_arg13 main_arg14 main_arg15 main_v13 main_v16
-- ==== Kernel.lean ====
abbrev S1000000x128 : Shape := ⟨2, ![1000000, 128]⟩
abbrev S1228800 : Shape := ⟨1, ![1228800]⟩
abbrev S122880x10 : Shape := ⟨2, ![122880, 10]⟩
abbrev S12288x10 : Shape := ⟨2, ![12288, 10]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S122880 : Shape := ⟨1, ![122880]⟩
abbrev S_ : Shape := ⟨0, ![]⟩
abbrev S122880x10x1 : Shape := ⟨3, ![122880, 10, 1]⟩
abbrev S122880x1 : Shape := ⟨2, ![122880, 1]⟩
abbrev S122880x128 : Shape := ⟨2, ![122880, 128]⟩
abbrev S122880x10x128 : Shape := ⟨3, ![122880, 10, 128]⟩
abbrev S122880x256 : Shape := ⟨2, ![122880, 256]⟩
abbrev S1024x128 : Shape := ⟨2, ![1024, 128]⟩
abbrev S1024x10x128 : Shape := ⟨3, ![1024, 10, 128]⟩
abbrev S1024x256 : Shape := ⟨2, ![1024, 256]⟩
abbrev S1024x1x128 : Shape := ⟨3, ![1024, 1, 128]⟩
abbrev S1x256 : Shape := ⟨2, ![1, 256]⟩
abbrev S12288x256 : Shape := ⟨2, ![12288, 256]⟩
abbrev S12288x10x1 : Shape := ⟨3, ![12288, 10, 1]⟩
abbrev S12288x10x256 : Shape := ⟨3, ![12288, 10, 256]⟩
abbrev S256x10x256 : Shape := ⟨3, ![256, 10, 256]⟩
abbrev S256x1x256 : Shape := ⟨3, ![256, 1, 256]⟩
abbrev S8192x1 : Shape := ⟨2, ![8192, 1]⟩
abbrev S4096x256 : Shape := ⟨2, ![4096, 256]⟩
abbrev S4096x1 : Shape := ⟨2, ![4096, 1]⟩
abbrev S1x1 : Shape := ⟨2, ![1, 1]⟩

abbrev nBuf : Space → Nat
  | .hbm => 59
  | .vmem => 29
  | .smem => 0
  | _ => 0

abbrev bufTy : (tb : Table) → Fin (tcTables nBuf tb) → BufTy
  | .hbm, ⟨0, _⟩ => ⟨S1000000x128, .f32⟩
  | .hbm, ⟨1, _⟩ => ⟨S1228800, .i32⟩
  | .hbm, ⟨2, _⟩ => ⟨S122880x10, .i32⟩
  | .hbm, ⟨3, _⟩ => ⟨S12288x10, .i32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S122880, .i32⟩
  | .hbm, ⟨17, _⟩ => ⟨S_, .i32⟩
  | .hbm, ⟨18, _⟩ => ⟨S122880x10, .i32⟩
  | .hbm, ⟨19, _⟩ => ⟨S122880x10, .i1⟩
  | .hbm, ⟨20, _⟩ => ⟨S_, .i32⟩
  | .hbm, ⟨21, _⟩ => ⟨S122880x10, .i32⟩
  | .hbm, ⟨22, _⟩ => ⟨S122880x10, .i32⟩
  | .hbm, ⟨23, _⟩ => ⟨S122880x10, .i32⟩
  | .hbm, ⟨24, _⟩ => ⟨S122880x10x1, .i32⟩
  | .hbm, ⟨25, _⟩ => ⟨S122880x10, .i32⟩
  | .hbm, ⟨26, _⟩ => ⟨S_, .i32⟩
  | .hbm, ⟨27, _⟩ => ⟨S122880, .i32⟩
  | .hbm, ⟨28, _⟩ => ⟨S122880, .i1⟩
  | .hbm, ⟨29, _⟩ => ⟨S_, .i32⟩
  | .hbm, ⟨30, _⟩ => ⟨S122880, .i32⟩
  | .hbm, ⟨31, _⟩ => ⟨S122880, .i32⟩
  | .hbm, ⟨32, _⟩ => ⟨S122880, .i32⟩
  | .hbm, ⟨33, _⟩ => ⟨S122880x1, .i32⟩
  | .hbm, ⟨34, _⟩ => ⟨S122880x128, .f32⟩
  | .hbm, ⟨35, _⟩ => ⟨S122880x128, .bf16⟩
  | .hbm, ⟨36, _⟩ => ⟨S_, .i32⟩
  | .hbm, ⟨37, _⟩ => ⟨S122880x10, .i32⟩
  | .hbm, ⟨38, _⟩ => ⟨S122880x10, .i1⟩
  | .hbm, ⟨39, _⟩ => ⟨S_, .i32⟩
  | .hbm, ⟨40, _⟩ => ⟨S122880x10, .i32⟩
  | .hbm, ⟨41, _⟩ => ⟨S122880x10, .i32⟩
  | .hbm, ⟨42, _⟩ => ⟨S122880x10, .i32⟩
  | .hbm, ⟨43, _⟩ => ⟨S122880x10x1, .i32⟩
  | .hbm, ⟨44, _⟩ => ⟨S122880x10x128, .f32⟩
  | .hbm, ⟨45, _⟩ => ⟨S122880x10x128, .bf16⟩
  | .hbm, ⟨46, _⟩ => ⟨S122880x256, .f32⟩
  | .hbm, ⟨47, _⟩ => ⟨S12288x256, .f32⟩
  | .hbm, ⟨48, _⟩ => ⟨S_, .i32⟩
  | .hbm, ⟨49, _⟩ => ⟨S12288x10, .i32⟩
  | .hbm, ⟨50, _⟩ => ⟨S12288x10, .i1⟩
  | .hbm, ⟨51, _⟩ => ⟨S_, .i32⟩
  | .hbm, ⟨52, _⟩ => ⟨S12288x10, .i32⟩
  | .hbm, ⟨53, _⟩ => ⟨S12288x10, .i32⟩
  | .hbm, ⟨54, _⟩ => ⟨S12288x10, .i32⟩
  | .hbm, ⟨55, _⟩ => ⟨S12288x10x1, .i32⟩
  | .hbm, ⟨56, _⟩ => ⟨S12288x10x256, .f32⟩
  | .hbm, ⟨57, _⟩ => ⟨S12288x256, .f32⟩
  | .hbm, ⟨58, _⟩ => ⟨S8192x1, .f32⟩
  | .local _ .vmem, ⟨0, _⟩ => ⟨S1024x128, .bf16⟩
  | .local _ .vmem, ⟨1, _⟩ => ⟨S1024x128, .bf16⟩
  | .local _ .vmem, ⟨2, _⟩ => ⟨S1024x10x128, .bf16⟩
  | .local _ .vmem, ⟨3, _⟩ => ⟨S1024x10x128, .bf16⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S1024x256, .f32⟩
  | .local _ .vmem, ⟨8, _⟩ => ⟨S1024x256, .f32⟩
  | .local _ .vmem, ⟨9, _⟩ => ⟨S256x256, .f32⟩
  | .local _ .vmem, ⟨10, _⟩ => ⟨S256x256, .f32⟩
  | .local _ .vmem, ⟨11, _⟩ => ⟨S256x10x256, .f32⟩
  | .local _ .vmem, ⟨12, _⟩ => ⟨S256x10x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S256x256, .f32⟩
  | .local _ .vmem, ⟨17, _⟩ => ⟨S256x256, .f32⟩
  | .local _ .vmem, ⟨18, _⟩ => ⟨S4096x256, .f32⟩
  | .local _ .vmem, ⟨19, _⟩ => ⟨S4096x256, .f32⟩
  | .local _ .vmem, ⟨20, _⟩ => ⟨S4096x256, .f32⟩
  | .local _ .vmem, ⟨21, _⟩ => ⟨S256x256, .f32⟩
  | .local _ .vmem, ⟨22, _⟩ => ⟨S256, .f32⟩
  | .local _ .vmem, ⟨23, _⟩ => ⟨S256x256, .f32⟩
  | .local _ .vmem, ⟨24, _⟩ => ⟨S256, .f32⟩
  | .local _ .vmem, ⟨25, _⟩ => ⟨S256x1, .f32⟩
  | .local _ .vmem, ⟨26, _⟩ => ⟨S1, .f32⟩
  | .local _ .vmem, ⟨27, _⟩ => ⟨S4096x1, .f32⟩
  | .local _ .vmem, ⟨28, _⟩ => ⟨S4096x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg8_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem8_1 : DmaSem sig := 28

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x10x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x10x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4096x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S1228800_S122880_0 : S1228800.Slices ![0] S122880
  bcast_S_S122880x10 : S_.BroadcastsInDim S122880x10 (![] : Fin 0 → Fin S122880x10.rank)
  bcast_S122880x10_S122880x10x1_0_1 : S122880x10.BroadcastsInDim S122880x10x1 (![0, 1] : Fin 2 → Fin S122880x10x1.rank)
  bcast_S_S122880 : S_.BroadcastsInDim S122880 (![] : Fin 0 → Fin S122880.rank)
  bcast_S122880_S122880x1_0 : S122880.BroadcastsInDim S122880x1 (![0] : Fin 1 → Fin S122880x1.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x10x128_S1024x1x128_0_0_0 : ∀ a, (![0, 0, 0] : Fin 3 → Nat) a + S1024x1x128.size a ≤ S1024x10x128.size a
  h_S1024x1x128 : 0 < S1024x1x128.numel
  shapeCasts_S1024x1x128_S1024x128 : S1024x1x128.ShapeCasts S1024x128
  inb_S1024x10x128_S1024x1x128_0_1_0 : ∀ a, (![0, 1, 0] : Fin 3 → Nat) a + S1024x1x128.size a ≤ S1024x10x128.size a
  inb_S1024x10x128_S1024x1x128_0_2_0 : ∀ a, (![0, 2, 0] : Fin 3 → Nat) a + S1024x1x128.size a ≤ S1024x10x128.size a
  inb_S1024x10x128_S1024x1x128_0_3_0 : ∀ a, (![0, 3, 0] : Fin 3 → Nat) a + S1024x1x128.size a ≤ S1024x10x128.size a
  inb_S1024x10x128_S1024x1x128_0_4_0 : ∀ a, (![0, 4, 0] : Fin 3 → Nat) a + S1024x1x128.size a ≤ S1024x10x128.size a
  inb_S1024x10x128_S1024x1x128_0_5_0 : ∀ a, (![0, 5, 0] : Fin 3 → Nat) a + S1024x1x128.size a ≤ S1024x10x128.size a
  inb_S1024x10x128_S1024x1x128_0_6_0 : ∀ a, (![0, 6, 0] : Fin 3 → Nat) a + S1024x1x128.size a ≤ S1024x10x128.size a
  inb_S1024x10x128_S1024x1x128_0_7_0 : ∀ a, (![0, 7, 0] : Fin 3 → Nat) a + S1024x1x128.size a ≤ S1024x10x128.size a
  inb_S1024x10x128_S1024x1x128_0_8_0 : ∀ a, (![0, 8, 0] : Fin 3 → Nat) a + S1024x1x128.size a ≤ S1024x10x128.size a
  inb_S1024x10x128_S1024x1x128_0_9_0 : ∀ a, (![0, 9, 0] : Fin 3 → Nat) a + S1024x1x128.size a ≤ S1024x10x128.size a
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  slices_S122880x256_S12288x256_0_0 : S122880x256.Slices ![0, 0] S12288x256
  bcast_S_S12288x10 : S_.BroadcastsInDim S12288x10 (![] : Fin 0 → Fin S12288x10.rank)
  bcast_S12288x10_S12288x10x1_0_1 : S12288x10.BroadcastsInDim S12288x10x1 (![0, 1] : Fin 2 → Fin S12288x10x1.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x10x256_S256x1x256_0_0_0 : ∀ a, (![0, 0, 0] : Fin 3 → Nat) a + S256x1x256.size a ≤ S256x10x256.size a
  h_S256x1x256 : 0 < S256x1x256.numel
  shapeCasts_S256x1x256_S256x256 : S256x1x256.ShapeCasts S256x256
  inb_S256x10x256_S256x1x256_0_1_0 : ∀ a, (![0, 1, 0] : Fin 3 → Nat) a + S256x1x256.size a ≤ S256x10x256.size a
  inb_S256x10x256_S256x1x256_0_2_0 : ∀ a, (![0, 2, 0] : Fin 3 → Nat) a + S256x1x256.size a ≤ S256x10x256.size a
  inb_S256x10x256_S256x1x256_0_3_0 : ∀ a, (![0, 3, 0] : Fin 3 → Nat) a + S256x1x256.size a ≤ S256x10x256.size a
  inb_S256x10x256_S256x1x256_0_4_0 : ∀ a, (![0, 4, 0] : Fin 3 → Nat) a + S256x1x256.size a ≤ S256x10x256.size a
  inb_S256x10x256_S256x1x256_0_5_0 : ∀ a, (![0, 5, 0] : Fin 3 → Nat) a + S256x1x256.size a ≤ S256x10x256.size a
  inb_S256x10x256_S256x1x256_0_6_0 : ∀ a, (![0, 6, 0] : Fin 3 → Nat) a + S256x1x256.size a ≤ S256x10x256.size a
  inb_S256x10x256_S256x1x256_0_7_0 : ∀ a, (![0, 7, 0] : Fin 3 → Nat) a + S256x1x256.size a ≤ S256x10x256.size a
  inb_S256x10x256_S256x1x256_0_8_0 : ∀ a, (![0, 8, 0] : Fin 3 → Nat) a + S256x1x256.size a ≤ S256x10x256.size a
  inb_S256x10x256_S256x1x256_0_9_0 : ∀ a, (![0, 9, 0] : Fin 3 → Nat) a + S256x1x256.size a ≤ S256x10x256.size a
  broadcasts_S1x256_S256x256 : S1x256.Broadcasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S4096x256 : S1x256.Broadcasts S4096x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  gather_S1228800_S122880x10x1_S122880x10_n_0_n_n_0_2_1_wf : GatherDims.WF S1228800 S122880x10x1 S122880x10 [] [0] [] [0] [] 2 ![1]
  gather_S1000000x128_S122880x1_S122880x128_1_0_n_n_0_1_1128_wf : GatherDims.WF S1000000x128 S122880x1 S122880x128 [1] [0] [] [0] [] 1 ![1, 128]
  gather_S1000000x128_S122880x10x1_S122880x10x128_2_0_n_n_0_2_1128_wf : GatherDims.WF S1000000x128 S122880x10x1 S122880x10x128 [2] [0] [] [0] [] 2 ![1, 128]
  dot_S1024x128_S128x256_S1024x256_1_0_0_1_n_n_wf : DotDims.WF S1024x128 S128x256 S1024x256 [1] [0] [0] [1] [] []
  gather_S122880x256_S12288x10x1_S12288x10x256_2_0_n_n_0_2_1256_wf : GatherDims.WF S122880x256 S12288x10x1 S12288x10x256 [2] [0] [] [0] [] 2 ![1, 256]
  dot_S256x256_S256x256_S256x256_1_0_0_1_n_n_wf : DotDims.WF S256x256 S256x256 S256x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S122880x128.size a
  hwx0_0 : ∀ i : grid0.Coords, EltTy.bits .bf16 = 32 ∨ (Rect.block (s := S122880x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10x128.size a ≤ S122880x10x128.size a
  hwx0_1 : ∀ i : grid0.Coords, EltTy.bits .bf16 = 32 ∨ (Rect.block (s := S122880x10x128) S1024x10x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S122880x256.size a
  hwx0_5 : ∀ i : grid0.Coords, EltTy.bits .f32 = 32 ∨ (Rect.block (s := S122880x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S12288x256.size a
  hwx1_0 : ∀ i : grid1.Coords, EltTy.bits .f32 = 32 ∨ (Rect.block (s := S12288x256) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x10x256.size a ≤ S12288x10x256.size a
  hwx1_1 : ∀ i : grid1.Coords, EltTy.bits .f32 = 32 ∨ (Rect.block (s := S12288x10x256) S256x10x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S12288x256.size a
  hwx1_5 : ∀ i : grid1.Coords, EltTy.bits .f32 = 32 ∨ (Rect.block (s := S12288x256) S256x256.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S12288x256.size a
  hwx2_0 : ∀ i : grid2.Coords, EltTy.bits .f32 = 32 ∨ (Rect.block (s := S12288x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S12288x256.size a
  hwx2_1 : ∀ i : grid2.Coords, EltTy.bits .f32 = 32 ∨ (Rect.block (s := S12288x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x1.size a ≤ S256x1.size a
  hwx2_6 : ∀ i : grid2.Coords, EltTy.bits .f32 = 32 ∨ (Rect.block (s := S256x1) S256x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1.size a ≤ S1.size a
  hwx2_7 : ∀ i : grid2.Coords, EltTy.bits .f32 = 32 ∨ (Rect.block (s := S1) S1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4096x1.size a ≤ S8192x1.size a
  hwx2_8 : ∀ i : grid2.Coords, EltTy.bits .f32 = 32 ∨ (Rect.block (s := S8192x1) S4096x1.size (cc2_transform_8 i) (hinb2_8 i)).WholeWords (EltTy.packing .f32)

variable [Facts₀]

def gather_S1228800_S122880x10x1_S122880x10_n_0_n_n_0_2_1 : GatherDims S1228800 S122880x10x1 S122880x10 where
  offsetDims := []
  collapsedSliceDims := [0]
  operandBatchingDims := []
  startIndicesBatchingDims := []
  startIndexMap := [0]
  indexVectorDim := 2
  sliceSizes := ![1]
  wf := gather_S1228800_S122880x10x1_S122880x10_n_0_n_n_0_2_1_wf
def gather_S1000000x128_S122880x1_S122880x128_1_0_n_n_0_1_1128 : GatherDims S1000000x128 S122880x1 S122880x128 where
  offsetDims := [1]
  collapsedSliceDims := [0]
  operandBatchingDims := []
  startIndicesBatchingDims := []
  startIndexMap := [0]
  indexVectorDim := 1
  sliceSizes := ![1, 128]
  wf := gather_S1000000x128_S122880x1_S122880x128_1_0_n_n_0_1_1128_wf
def gather_S1000000x128_S122880x10x1_S122880x10x128_2_0_n_n_0_2_1128 : GatherDims S1000000x128 S122880x10x1 S122880x10x128 where
  offsetDims := [2]
  collapsedSliceDims := [0]
  operandBatchingDims := []
  startIndicesBatchingDims := []
  startIndexMap := [0]
  indexVectorDim := 2
  sliceSizes := ![1, 128]
  wf := gather_S1000000x128_S122880x10x1_S122880x10x128_2_0_n_n_0_2_1128_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def gather_S122880x256_S12288x10x1_S12288x10x256_2_0_n_n_0_2_1256 : GatherDims S122880x256 S12288x10x1 S12288x10x256 where
  offsetDims := [2]
  collapsedSliceDims := [0]
  operandBatchingDims := []
  startIndicesBatchingDims := []
  startIndexMap := [0]
  indexVectorDim := 2
  sliceSizes := ![1, 256]
  wf := gather_S122880x256_S12288x10x1_S12288x10x256_2_0_n_n_0_2_1256_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v15) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x10x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S256x10x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S4096x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S256x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v34) S4096x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1000000x128 : Shape := ⟨2, ![1000000, 128]⟩
abbrev S1228800 : Shape := ⟨1, ![1228800]⟩
abbrev S122880x10 : Shape := ⟨2, ![122880, 10]⟩
abbrev S12288x10 : Shape := ⟨2, ![12288, 10]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S1228800x1 : Shape := ⟨2, ![1228800, 1]⟩
abbrev S1228800x128 : Shape := ⟨2, ![1228800, 128]⟩
abbrev S122880x128 : Shape := ⟨2, ![122880, 128]⟩
abbrev S122880x10x1 : Shape := ⟨3, ![122880, 10, 1]⟩
abbrev S122880x10x128 : Shape := ⟨3, ![122880, 10, 128]⟩
abbrev S122880x256 : Shape := ⟨2, ![122880, 256]⟩
abbrev S1x256 : Shape := ⟨2, ![1, 256]⟩
abbrev S12288x256 : Shape := ⟨2, ![12288, 256]⟩
abbrev S12288x10x1 : Shape := ⟨3, ![12288, 10, 1]⟩
abbrev S12288x10x256 : Shape := ⟨3, ![12288, 10, 256]⟩
abbrev S4096x256 : Shape := ⟨2, ![4096, 256]⟩
abbrev S8192x256 : Shape := ⟨2, ![8192, 256]⟩
abbrev S8192x1 : Shape := ⟨2, ![8192, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1228800, .i32⟩
  | .hbm, ⟨2, _⟩ => ⟨S122880x10, .i32⟩
  | .hbm, ⟨3, _⟩ => ⟨S12288x10, .i32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S_, .i32⟩
  | .hbm, ⟨17, _⟩ => ⟨S1228800, .i32⟩
  | .hbm, ⟨18, _⟩ => ⟨S1228800, .i1⟩
  | .hbm, ⟨19, _⟩ => ⟨S_, .i32⟩
  | .hbm, ⟨20, _⟩ => ⟨S1228800, .i32⟩
  | .hbm, ⟨21, _⟩ => ⟨S1228800, .i32⟩
  | .hbm, ⟨22, _⟩ => ⟨S1228800, .i32⟩
  | .hbm, ⟨23, _⟩ => ⟨S1228800x1, .i32⟩
  | .hbm, ⟨24, _⟩ => ⟨S1228800x128, .f32⟩
  | .hbm, ⟨25, _⟩ => ⟨S122880x128, .f32⟩
  | .hbm, ⟨26, _⟩ => ⟨S_, .i32⟩
  | .hbm, ⟨27, _⟩ => ⟨S122880x10, .i32⟩
  | .hbm, ⟨28, _⟩ => ⟨S122880x10, .i1⟩
  | .hbm, ⟨29, _⟩ => ⟨S_, .i32⟩
  | .hbm, ⟨30, _⟩ => ⟨S122880x10, .i32⟩
  | .hbm, ⟨31, _⟩ => ⟨S122880x10, .i32⟩
  | .hbm, ⟨32, _⟩ => ⟨S122880x10, .i32⟩
  | .hbm, ⟨33, _⟩ => ⟨S122880x10x1, .i32⟩
  | .hbm, ⟨34, _⟩ => ⟨S122880x10x128, .f32⟩
  | .hbm, ⟨35, _⟩ => ⟨S_, .f32⟩
  | .hbm, ⟨36, _⟩ => ⟨S122880x128, .f32⟩
  | .hbm, ⟨37, _⟩ => ⟨S_, .f32⟩
  | .hbm, ⟨38, _⟩ => ⟨S122880x128, .f32⟩
  | .hbm, ⟨39, _⟩ => ⟨S122880x128, .f32⟩
  | .hbm, ⟨40, _⟩ => ⟨S122880x256, .f32⟩
  | .hbm, ⟨41, _⟩ => ⟨S122880x256, .f32⟩
  | .hbm, ⟨42, _⟩ => ⟨S122880x256, .f32⟩
  | .hbm, ⟨43, _⟩ => ⟨S1x256, .f32⟩
  | .hbm, ⟨44, _⟩ => ⟨S122880x256, .f32⟩
  | .hbm, ⟨45, _⟩ => ⟨S122880x256, .f32⟩
  | .hbm, ⟨46, _⟩ => ⟨S_, .f32⟩
  | .hbm, ⟨47, _⟩ => ⟨S122880x256, .f32⟩
  | .hbm, ⟨48, _⟩ => ⟨S122880x256, .f32⟩
  | .hbm, ⟨49, _⟩ => ⟨S12288x256, .f32⟩
  | .hbm, ⟨50, _⟩ => ⟨S_, .i32⟩
  | .hbm, ⟨51, _⟩ => ⟨S12288x10, .i32⟩
  | .hbm, ⟨52, _⟩ => ⟨S12288x10, .i1⟩
  | .hbm, ⟨53, _⟩ => ⟨S_, .i32⟩
  | .hbm, ⟨54, _⟩ => ⟨S12288x10, .i32⟩
  | .hbm, ⟨55, _⟩ => ⟨S12288x10, .i32⟩
  | .hbm, ⟨56, _⟩ => ⟨S12288x10, .i32⟩
  | .hbm, ⟨57, _⟩ => ⟨S12288x10x1, .i32⟩
  | .hbm, ⟨58, _⟩ => ⟨S12288x10x256, .f32⟩
  | .hbm, ⟨59, _⟩ => ⟨S_, .f32⟩
  | .hbm, ⟨60, _⟩ => ⟨S12288x256, .f32⟩
  | .hbm, ⟨61, _⟩ => ⟨S_, .f32⟩
  | .hbm, ⟨62, _⟩ => ⟨S12288x256, .f32⟩
  | .hbm, ⟨63, _⟩ => ⟨S12288x256, .f32⟩
  | .hbm, ⟨64, _⟩ => ⟨S12288x256, .f32⟩
  | .hbm, ⟨65, _⟩ => ⟨S12288x256, .f32⟩
  | .hbm, ⟨66, _⟩ => ⟨S12288x256, .f32⟩
  | .hbm, ⟨67, _⟩ => ⟨S1x256, .f32⟩
  | .hbm, ⟨68, _⟩ => ⟨S12288x256, .f32⟩
  | .hbm, ⟨69, _⟩ => ⟨S12288x256, .f32⟩
  | .hbm, ⟨70, _⟩ => ⟨S4096x256, .f32⟩
  | .hbm, ⟨71, _⟩ => ⟨S4096x256, .f32⟩
  | .hbm, ⟨72, _⟩ => ⟨S4096x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S1x256, .f32⟩
  | .hbm, ⟨78, _⟩ => ⟨S8192x256, .f32⟩
  | .hbm, ⟨79, _⟩ => ⟨S8192x256, .f32⟩
  | .hbm, ⟨80, _⟩ => ⟨S_, .f32⟩
  | .hbm, ⟨81, _⟩ => ⟨S8192x256, .f32⟩
  | .hbm, ⟨82, _⟩ => ⟨S8192x256, .f32⟩
  | .hbm, ⟨83, _⟩ => ⟨S8192x256, .f32⟩
  | .hbm, ⟨84, _⟩ => ⟨S1x256, .f32⟩
  | .hbm, ⟨85, _⟩ => ⟨S8192x256, .f32⟩
  | .hbm, ⟨86, _⟩ => ⟨S8192x256, .f32⟩
  | .hbm, ⟨87, _⟩ => ⟨S_, .f32⟩
  | .hbm, ⟨88, _⟩ => ⟨S8192x256, .f32⟩
  | .hbm, ⟨89, _⟩ => ⟨S8192x256, .f32⟩
  | .hbm, ⟨90, _⟩ => ⟨S8192x1, .f32⟩
  | .hbm, ⟨91, _⟩ => ⟨S1x1, .f32⟩
  | .hbm, ⟨92, _⟩ => ⟨S8192x1, .f32⟩
  | .hbm, ⟨93, _⟩ => ⟨S8192x1, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call0_cst : Ref sig .tc := ⟨.hbm, 46, rfl⟩
abbrev main_call0_v0 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call1_cst : Ref sig .tc := ⟨.hbm, 80, rfl⟩
abbrev main_call1_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_cst : Ref sig .tc := ⟨.hbm, 87, rfl⟩
abbrev main_call2_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]

class Facts₀ : Prop where
  bcast_S_S1228800 : S_.BroadcastsInDim S1228800 (![] : Fin 0 → Fin S1228800.rank)
  bcast_S1228800_S1228800x1_0 : S1228800.BroadcastsInDim S1228800x1 (![0] : Fin 1 → Fin S1228800x1.rank)
  slices_S1228800x128_S122880x128_0_0 : S1228800x128.Slices ![0, 0] S122880x128
  bcast_S_S122880x10 : S_.BroadcastsInDim S122880x10 (![] : Fin 0 → Fin S122880x10.rank)
  bcast_S122880x10_S122880x10x1_0_1 : S122880x10.BroadcastsInDim S122880x10x1 (![0, 1] : Fin 2 → Fin S122880x10x1.rank)
  reducesTo_S122880x10x128_S122880x128_d1 : S122880x10x128.ReducesTo [1] S122880x128
  h_S_ : 0 < S_.numel
  bcast_S_S122880x128 : S_.BroadcastsInDim S122880x128 (![] : Fin 0 → Fin S122880x128.rank)
  bcast_S256_S1x256_1 : S256.BroadcastsInDim S1x256 (![1] : Fin 1 → Fin S1x256.rank)
  bcast_S1x256_S122880x256_0_1 : S1x256.BroadcastsInDim S122880x256 (![0, 1] : Fin 2 → Fin S122880x256.rank)
  bcast_S_S122880x256 : S_.BroadcastsInDim S122880x256 (![] : Fin 0 → Fin S122880x256.rank)
  slices_S122880x256_S12288x256_0_0 : S122880x256.Slices ![0, 0] S12288x256
  bcast_S_S12288x10 : S_.BroadcastsInDim S12288x10 (![] : Fin 0 → Fin S12288x10.rank)
  bcast_S12288x10_S12288x10x1_0_1 : S12288x10.BroadcastsInDim S12288x10x1 (![0, 1] : Fin 2 → Fin S12288x10x1.rank)
  reducesTo_S12288x10x256_S12288x256_d1 : S12288x10x256.ReducesTo [1] S12288x256
  bcast_S_S12288x256 : S_.BroadcastsInDim S12288x256 (![] : Fin 0 → Fin S12288x256.rank)
  bcast_S1x256_S12288x256_0_1 : S1x256.BroadcastsInDim S12288x256 (![0, 1] : Fin 2 → Fin S12288x256.rank)
  slices_S12288x256_S4096x256_0_0 : S12288x256.Slices ![0, 0] S4096x256
  slices_S12288x256_S4096x256_4096_0 : S12288x256.Slices ![4096, 0] S4096x256
  slices_S12288x256_S4096x256_8192_0 : S12288x256.Slices ![8192, 0] S4096x256
  concatenates_S4096x256_S4096x256_S8192x256_d0 : Shape.Concatenates [S4096x256, S4096x256] S8192x256 0
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  gather_S1000000x128_S1228800x1_S1228800x128_1_0_n_n_0_1_1128_wf : GatherDims.WF S1000000x128 S1228800x1 S1228800x128 [1] [0] [] [0] [] 1 ![1, 128]
  gather_S1228800x128_S122880x10x1_S122880x10x128_2_0_n_n_0_2_1128_wf : GatherDims.WF S1228800x128 S122880x10x1 S122880x10x128 [2] [0] [] [0] [] 2 ![1, 128]
  dot_S122880x128_S128x256_S122880x256_1_0_0_1_n_n_wf : DotDims.WF S122880x128 S128x256 S122880x256 [1] [0] [0] [1] [] []
  gather_S122880x256_S12288x10x1_S12288x10x256_2_0_n_n_0_2_1256_wf : GatherDims.WF S122880x256 S12288x10x1 S12288x10x256 [2] [0] [] [0] [] 2 ![1, 256]
  dot_S12288x256_S256x256_S12288x256_1_0_0_1_n_n_wf : DotDims.WF S12288x256 S256x256 S12288x256 [1] [0] [0] [1] [] []
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []

variable [Facts₀]

def gather_S1000000x128_S1228800x1_S1228800x128_1_0_n_n_0_1_1128 : GatherDims S1000000x128 S1228800x1 S1228800x128 where
  offsetDims := [1]
  collapsedSliceDims := [0]
  operandBatchingDims := []
  startIndicesBatchingDims := []
  startIndexMap := [0]
  indexVectorDim := 1
  sliceSizes := ![1, 128]
  wf := gather_S1000000x128_S1228800x1_S1228800x128_1_0_n_n_0_1_1128_wf
def gather_S1228800x128_S122880x10x1_S122880x10x128_2_0_n_n_0_2_1128 : GatherDims S1228800x128 S122880x10x1 S122880x10x128 where
  offsetDims := [2]
  collapsedSliceDims := [0]
  operandBatchingDims := []
  startIndicesBatchingDims := []
  startIndexMap := [0]
  indexVectorDim := 2
  sliceSizes := ![1, 128]
  wf := gather_S1228800x128_S122880x10x1_S122880x10x128_2_0_n_n_0_2_1128_wf
def dot_S122880x128_S128x256_S122880x256_1_0_0_1_n_n : DotDims S122880x128 S128x256 S122880x256 where
  lhsContracting := [1]
  rhsContracting := [0]
  lhsNonContracting := [0]
  rhsNonContracting := [1]
  lhsBatch := []
  rhsBatch := []
  wf := dot_S122880x128_S128x256_S122880x256_1_0_0_1_n_n_wf
def gather_S122880x256_S12288x10x1_S12288x10x256_2_0_n_n_0_2_1256 : GatherDims S122880x256 S12288x10x1 S12288x10x256 where
  offsetDims := [2]
  collapsedSliceDims := [0]
  operandBatchingDims := []
  startIndicesBatchingDims := []
  startIndexMap := [0]
  indexVectorDim := 2
  sliceSizes := ![1, 256]
  wf := gather_S122880x256_S12288x10x1_S12288x10x256_2_0_n_n_0_2_1256_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.KRegion0.lean ====
/-
  The first graph-convolution layer's region of the kernel as printed: what its staging buffers hold around the body at every grid point, the body's run, and the pipeline's obligation.
-/
import proofs.«163544_j27779848471357_2_alg».proof.Proof.Gen.Kernel.Launch
import proofs.«163544_j27779848471357_2_alg».proof.Proof.Gen.Kernel.Skeleton
import proofs.«163544_j27779848471357_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one graph-convolution layer on a block of rows

The body reads the block of destination rows, the ten neighbour slices of the block of gathered rows, the two weight
matrices and the bias, and stores one block of output rows. What follows says what each staging buffer holds before
and after the body at every grid point, runs the body, and states the obligation the pipeline asks of it. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there: where it did not, the block index has not moved since the last fetch and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there: where it did not, the block index has not moved since the last fetch and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there: where it did not, the block index has not moved since the last fetch and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not the pipeline fetched it
    there: where it did not, the block index has not moved since the last fetch and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether or not the pipeline fetched it
    there: where it did not, the block index has not moved since the last fetch and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output block after the body, as a function of the five input blocks: one store of the layer's value over
    the whole block. -/
def out0_5 (x0 : Vec F S1024x128 .bf16) (x1 : Vec F S1024x10x128 .bf16) (x2 : Vec F S128x256 .f32) (x3 : Vec F S128x256 .f32) (x4 : Vec F S256 .f32) : Vec F S1024x256 .f32 :=
  View.canon [⟨Rect.unit (s := S1024x256) ![0, 0] S1024x256.size inb_S1024x256_S1024x256_0_0, k0_pay1 (k0_pay2 (View.ld x0 (Rect.unit (s := S1024x128) ![0, 0] S1024x128.size inb_S1024x128_S1024x128_0_0))) (k0_pay3 (View.ld x1 (Rect.unit (s := S1024x10x128) ![0, 0, 0] S1024x1x128.size inb_S1024x10x128_S1024x1x128_0_0_0)) (View.ld x1 (Rect.unit (s := S1024x10x128) ![0, 1, 0] S1024x1x128.size inb_S1024x10x128_S1024x1x128_0_1_0)) (View.ld x1 (Rect.unit (s := S1024x10x128) ![0, 2, 0] S1024x1x128.size inb_S1024x10x128_S1024x1x128_0_2_0)) (View.ld x1 (Rect.unit (s := S1024x10x128) ![0, 3, 0] S1024x1x128.size inb_S1024x10x128_S1024x1x128_0_3_0)) (View.ld x1 (Rect.unit (s := S1024x10x128) ![0, 4, 0] S1024x1x128.size inb_S1024x10x128_S1024x1x128_0_4_0)) (View.ld x1 (Rect.unit (s := S1024x10x128) ![0, 5, 0] S1024x1x128.size inb_S1024x10x128_S1024x1x128_0_5_0)) (View.ld x1 (Rect.unit (s := S1024x10x128) ![0, 6, 0] S1024x1x128.size inb_S1024x10x128_S1024x1x128_0_6_0))) (View.ld x1 (Rect.unit (s := S1024x10x128) ![0, 7, 0] S1024x1x128.size inb_S1024x10x128_S1024x1x128_0_7_0)) (View.ld x1 (Rect.unit (s := S1024x10x128) ![0, 8, 0] S1024x1x128.size inb_S1024x10x128_S1024x1x128_0_8_0)) (View.ld x1 (Rect.unit (s := S1024x10x128) ![0, 9, 0] S1024x1x128.size inb_S1024x10x128_S1024x1x128_0_9_0)) (View.ld x2 (Rect.unit (s := S128x256) ![0, 0] S128x256.size inb_S128x256_S128x256_0_0)) (View.ld x3 (Rect.unit (s := S128x256) ![0, 0] S128x256.size inb_S128x256_S128x256_0_0)) (View.ld x4 (Rect.unit (s := S256) ![0] S256.size inb_S256_S256_0))⟩]

/-- The one store covers the whole output block. -/
theorem cover0_5 (p0 : Vec F S1024x256 .f32) (y : S1024x256.Idx) :
    ∃ pc ∈ ([⟨Rect.unit (s := S1024x256) ![0, 0] S1024x256.size inb_S1024x256_S1024x256_0_0, p0⟩] : List (View.Piece (Elt F) S1024x256 .f32)), y ∈ pc.1.set :=
  View.cover_of_tiled [⟨Rect.unit (s := S1024x256) ![0, 0] S1024x256.size inb_S1024x256_S1024x256_0_0, p0⟩] S1024x256.size (by rfl) y

set_option maxHeartbeats 4000000 in
/-- The body on whole staging buffers, the inputs' at contents `x0 … x4` and the output's at anything, ends with the
    inputs' buffers as they were and the output's at `out0_5` of the inputs. -/
theorem sound_kernel0 (c : Dev nD) (E : Set ℕ) (i : grid0.Coords) (arg1 : Memref sig .tc .vmem S1024x128 .bf16) (harg1 : arg1.IsWhole) (arg2 : Memref sig .tc .vmem S1024x10x128 .bf16) (harg2 : arg2.IsWhole) (arg3 : Memref sig .tc .vmem S128x256 .f32) (harg3 : arg3.IsWhole) (arg4 : Memref sig .tc .vmem S128x256 .f32) (harg4 : arg4.IsWhole) (arg5 : Memref sig .tc .vmem S256 .f32) (harg5 : arg5.IsWhole) (arg6 : Memref sig .tc .vmem S1024x256 .f32) (harg6 : arg6.IsWhole)
    (x0 : Vec F S1024x128 .bf16) (x1 : Vec F S1024x10x128 .bf16) (x2 : Vec F S128x256 .f32) (x3 : Vec F S128x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline on core `c`: the arrays as the region finds them; after the body at point `t`
    each input's buffer at its block and the output's at `out0_5` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
/-
  The second graph-convolution layer's region of the kernel as printed: what its staging buffers hold around the body at every grid point, the body's run, and the pipeline's obligation.
-/
import proofs.«163544_j27779848471357_2_alg».proof.Proof.Gen.Kernel.Launch
import proofs.«163544_j27779848471357_2_alg».proof.Proof.Gen.Kernel.Skeleton
import proofs.«163544_j27779848471357_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one graph-convolution layer on a block of rows

The body reads the block of destination rows, the ten neighbour slices of the block of gathered rows, the two weight
matrices and the bias, and stores one block of output rows. What follows says what each staging buffer holds before
and after the body at every grid point, runs the body, and states the obligation the pipeline asks of it. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there: where it did not, the block index has not moved since the last fetch and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the pipeline fetched it
    there: where it did not, the block index has not moved since the last fetch and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the pipeline fetched it
    there: where it did not, the block index has not moved since the last fetch and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the pipeline fetched it
    there: where it did not, the block index has not moved since the last fetch and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the pipeline fetched it
    there: where it did not, the block index has not moved since the last fetch and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output block after the body, as a function of the five input blocks: one store of the layer's value over
    the whole block. -/
def out1_5 (x0 : Vec F S256x256 .f32) (x1 : Vec F S256x10x256 .f32) (x2 : Vec F S256x256 .f32) (x3 : Vec F S256x256 .f32) (x4 : Vec F S256 .f32) : Vec F S256x256 .f32 :=
  View.canon [⟨Rect.unit (s := S256x256) ![0, 0] S256x256.size inb_S256x256_S256x256_0_0, k1_pay1 (k1_pay2 (View.ld x0 (Rect.unit (s := S256x256) ![0, 0] S256x256.size inb_S256x256_S256x256_0_0))) (k1_pay3 (View.ld x1 (Rect.unit (s := S256x10x256) ![0, 0, 0] S256x1x256.size inb_S256x10x256_S256x1x256_0_0_0)) (View.ld x1 (Rect.unit (s := S256x10x256) ![0, 1, 0] S256x1x256.size inb_S256x10x256_S256x1x256_0_1_0)) (View.ld x1 (Rect.unit (s := S256x10x256) ![0, 2, 0] S256x1x256.size inb_S256x10x256_S256x1x256_0_2_0)) (View.ld x1 (Rect.unit (s := S256x10x256) ![0, 3, 0] S256x1x256.size inb_S256x10x256_S256x1x256_0_3_0)) (View.ld x1 (Rect.unit (s := S256x10x256) ![0, 4, 0] S256x1x256.size inb_S256x10x256_S256x1x256_0_4_0)) (View.ld x1 (Rect.unit (s := S256x10x256) ![0, 5, 0] S256x1x256.size inb_S256x10x256_S256x1x256_0_5_0)) (View.ld x1 (Rect.unit (s := S256x10x256) ![0, 6, 0] S256x1x256.size inb_S256x10x256_S256x1x256_0_6_0)) (View.ld x1 (Rect.unit (s := S256x10x256) ![0, 7, 0] S256x1x256.size inb_S256x10x256_S256x1x256_0_7_0))) (View.ld x1 (Rect.unit (s := S256x10x256) ![0, 8, 0] S256x1x256.size inb_S256x10x256_S256x1x256_0_8_0)) (View.ld x1 (Rect.unit (s := S256x10x256) ![0, 9, 0] S256x1x256.size inb_S256x10x256_S256x1x256_0_9_0)) (View.ld x2 (Rect.unit (s := S256x256) ![0, 0] S256x256.size inb_S256x256_S256x256_0_0)) (View.ld x3 (Rect.unit (s := S256x256) ![0, 0] S256x256.size inb_S256x256_S256x256_0_0)) (View.ld x4 (Rect.unit (s := S256) ![0] S256.size inb_S256_S256_0))⟩]

/-- The one store covers the whole output block. -/
theorem cover1_5 (p0 : Vec F S256x256 .f32) (y : S256x256.Idx) :
    ∃ pc ∈ ([⟨Rect.unit (s := S256x256) ![0, 0] S256x256.size inb_S256x256_S256x256_0_0, p0⟩] : List (View.Piece (Elt F) S256x256 .f32)), y ∈ pc.1.set :=
  View.cover_of_tiled [⟨Rect.unit (s := S256x256) ![0, 0] S256x256.size inb_S256x256_S256x256_0_0, p0⟩] S256x256.size (by rfl) y

set_option maxHeartbeats 4000000 in
/-- The body on whole staging buffers, the inputs' at contents `x0 … x4` and the output's at anything, ends with the
    inputs' buffers as they were and the output's at `out1_5` of the inputs. -/
theorem sound_kernel1 (c : Dev nD) (E : Set ℕ) (i : grid1.Coords) (arg1 : Memref sig .tc .vmem S256x256 .f32) (harg1 : arg1.IsWhole) (arg2 : Memref sig .tc .vmem S256x10x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole)
    (x0 : Vec F S256x256 .f32) (x1 : Vec F S256x10x256 .f32) (x2 : Vec F S256x256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body at point `t`
    each input's buffer at its block and the output's at `out1_5` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRegion2.lean ====
/-
  The link predictor's region of the kernel as printed: what its staging buffers hold around the body at both grid points, the body's run, and the pipeline's obligation.
-/
import proofs.«163544_j27779848471357_2_alg».proof.Proof.Gen.Kernel.Launch
import proofs.«163544_j27779848471357_2_alg».proof.Proof.Gen.Kernel.Skeleton
import proofs.«163544_j27779848471357_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the link predictor on a block of candidate pairs

The body reads the block of source rows and the block of partner rows (two windows on ONE array, at different blocks),
the three weight matrices and the three biases, and stores one block of scores. -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there: where it did not, the block index has not moved since the last fetch and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the pipeline fetched it
    there: where it did not, the block index has not moved since the last fetch and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the pipeline fetched it
    there: where it did not, the block index has not moved since the last fetch and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not the pipeline fetched it
    there: where it did not, the block index has not moved since the last fetch and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether or not the pipeline fetched it
    there: where it did not, the block index has not moved since the last fetch and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether or not the pipeline fetched it
    there: where it did not, the block index has not moved since the last fetch and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether or not the pipeline fetched it
    there: where it did not, the block index has not moved since the last fetch and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, whether or not the pipeline fetched it
    there: where it did not, the block index has not moved since the last fetch and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The output block after the body, as a function of the input blocks: one store over the whole block. -/
def out2_8 (x0 : Vec F S4096x256 .f32) (x1 : Vec F S4096x256 .f32) (x2 : Vec F S256x256 .f32) (x3 : Vec F S256 .f32) (x4 : Vec F S256x256 .f32) (x5 : Vec F S256 .f32) (x6 : Vec F S256x1 .f32) (x7 : Vec F S1 .f32) : Vec F S4096x1 .f32 :=
  View.canon [⟨Rect.unit (s := S4096x1) ![0, 0] S4096x1.size inb_S4096x1_S4096x1_0_0, k2_pay1 (View.ld x0 (Rect.unit (s := S4096x256) ![0, 0] S4096x256.size inb_S4096x256_S4096x256_0_0)) (View.ld x1 (Rect.unit (s := S4096x256) ![0, 0] S4096x256.size inb_S4096x256_S4096x256_0_0)) (View.ld x2 (Rect.unit (s := S256x256) ![0, 0] S256x256.size inb_S256x256_S256x256_0_0)) (View.ld x3 (Rect.unit (s := S256) ![0] S256.size inb_S256_S256_0)) (View.ld x4 (Rect.unit (s := S256x256) ![0, 0] S256x256.size inb_S256x256_S256x256_0_0)) (View.ld x5 (Rect.unit (s := S256) ![0] S256.size inb_S256_S256_0)) (View.ld x6 (Rect.unit (s := S256x1) ![0, 0] S256x1.size inb_S256x1_S256x1_0_0)) (View.ld x7 (Rect.unit (s := S1) ![0] S1.size inb_S1_S1_0))⟩]

/-- The one store covers the whole output block. -/
theorem cover2_8 (p0 : Vec F S4096x1 .f32) (y : S4096x1.Idx) :
    ∃ pc ∈ ([⟨Rect.unit (s := S4096x1) ![0, 0] S4096x1.size inb_S4096x1_S4096x1_0_0, p0⟩] : List (View.Piece (Elt F) S4096x1 .f32)), y ∈ pc.1.set :=
  View.cover_of_tiled [⟨Rect.unit (s := S4096x1) ![0, 0] S4096x1.size inb_S4096x1_S4096x1_0_0, p0⟩] S4096x1.size (by rfl) y

set_option maxHeartbeats 4000000 in
/-- The body on whole staging buffers, the inputs' at contents `x0 …` and the output's at anything, ends with the
    inputs' buffers as they were and the output's at `out2_8` of the inputs. -/
theorem sound_kernel2 (c : Dev nD) (E : Set ℕ) (i : grid2.Coords) (arg1 : Memref sig .tc .vmem S4096x256 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x1 .f32) (harg7 : arg7.IsWhole) (arg8 : Memref sig .tc .vmem S1 .f32) (harg8 : arg8.IsWhole) (arg9 : Memref sig .tc .vmem S4096x1 .f32) (harg9 : arg9.IsWhole)
    (x0 : Vec F S4096x256 .f32) (x1 : Vec F S4096x256 .f32) (x2 : Vec F S256x256 .f32) (x3 : Vec F S256 .f32) (x4 : Vec F S256x256 .f32) (x5 : Vec F S256 .f32) (x6 : Vec F S256x1 .f32) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__pred_kernel i arg1 harg1 arg2 harg2 arg3 harg3 arg4 harg4 arg5 harg5 arg6 harg6 arg7 harg7 arg8 harg8 arg9 harg9) K := by
  simp only [cc2__pred_kernel_eq_skeleton]; unfold cc2__pred_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-- The proof data of this pipeline on core `c`: the arrays as the region finds them; after the body at point `t`
    each input's buffer at its block and the output's at `out2_8` of the input blocks; the invariant is the scoped
    rest and the generator register, untouched; nothing owed. The array the first two windows share is held half by
    each of them; every other array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KArrays2.lean ====
/-
  The link predictor's region of the kernel as printed, continued: how the buffers behind its windows' arrays are dealt to the windows at entry and collected at exit, two windows standing on one array.
-/
import proofs.«163544_j27779848471357_2_alg».proof.Proof.Gen.Kernel.Launch
import proofs.«163544_j27779848471357_2_alg».proof.Proof.Gen.Kernel.Skeleton
import proofs.«163544_j27779848471357_2_alg».proof.Proof.Gen.Kernel.Points
import proofs.«163544_j27779848471357_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2's arrays

Nine windows stand on eight buffers: the two row-block windows read one array. At entry that array's full share is
dealt in halves to the two windows; at exit the halves are rejoined. Every other array is its window's whole. -/

section Arrays2
variable (V : (c : Dev nD) → (b : Ref sig .tc) → Buf (Elt F) ((c : Thread nD τ).loc b))

/-- The buffers behind the nine windows' arrays. -/
theorem image2_eq : (Finset.univ.image (Pipeline.arrRef spec2) : Finset (Ref sig .tc))
    = insert main_v33 (insert main_arg10 (insert main_arg11 (insert main_arg12 (insert main_arg13 (insert main_arg14 (insert main_arg15 {main_v34})))))) := by
  decide

/-- Those eight buffers, each whole at contents `V'`, one by one. -/
theorem arrBufs2_chain (c : Dev nD) (V' : (b : Ref sig .tc) → Buf (Elt F) ((c : Thread nD τ).loc b)) :
    (Pipeline.arrBufs spec2 c V' : sProp 𝕄) = iprop(
      (((c.tc : Thread nD τ).loc main_v33) ↦{fullShare} V' main_v33)
      ∗ (((c.tc : Thread nD τ).loc main_arg10) ↦{fullShare} V' main_arg10)
      ∗ (((c.tc : Thread nD τ).loc main_arg11) ↦{fullShare} V' main_arg11)
      ∗ (((c.tc : Thread nD τ).loc main_arg12) ↦{fullShare} V' main_arg12)
      ∗ (((c.tc : Thread nD τ).loc main_arg13) ↦{fullShare} V' main_arg13)
      ∗ (((c.tc : Thread nD τ).loc main_arg14) ↦{fullShare} V' main_arg14)
      ∗ (((c.tc : Thread nD τ).loc main_arg15) ↦{fullShare} V' main_arg15)
      ∗ (((c.tc : Thread nD τ).loc main_v34) ↦{fullShare} V' main_v34)) := by
  unfold Pipeline.arrBufs
  rw [image2_eq,
    bigSep_insert (by simp only [Finset.mem_insert, Finset.mem_singleton, not_or]; decide),
    bigSep_insert (by simp only [Finset.mem_insert, Finset.mem_singleton, not_or]; decide),
    bigSep_insert (by simp only [Finset.mem_insert, Finset.mem_singleton, not_or]; decide),
    bigSep_insert (by simp only [Finset.mem_insert, Finset.mem_singleton, not_or]; decide),
    bigSep_insert (by simp only [Finset.mem_insert, Finset.mem_singleton, not_or]; decide),
    bigSep_insert (by simp only [Finset.mem_insert, Finset.mem_singleton, not_or]; decide),
    bigSep_insert (by simp only [Finset.mem_singleton]; decide), bigSep_singleton]
  rfl

/-- The pipeline's arrays at contents `G`, window by window at each window's share. -/
theorem arrays2_chain (c : Dev nD) (G : (w : Fin cfg2.W) → Buf (Elt F) ((cfg2.win w).arr.view.loc (c.tc : Thread nD τ))) :
    ((dat2 V c).arrays G : sProp 𝕄) = iprop(
      (((c.tc : Thread nD τ).loc (Pipeline.arrRef spec2 0)) ↦{fullShare.left} G 0)
      ∗ (((c.tc : Thread nD τ).loc (Pipeline.arrRef spec2 1)) ↦{fullShare.right} G 1)
      ∗ (((c.tc : Thread nD τ).loc (Pipeline.arrRef spec2 2)) ↦{fullShare} G 2)
      ∗ (((c.tc : Thread nD τ).loc (Pipeline.arrRef spec2 3)) ↦{fullShare} G 3)
      ∗ (((c.tc : Thread nD τ).loc (Pipeline.arrRef spec2 4)) ↦{fullShare} G 4)
      ∗ (((c.tc : Thread nD τ).loc (Pipeline.arrRef spec2 5)) ↦{fullShare} G 5)
      ∗ (((c.tc : Thread nD τ).loc (Pipeline.arrRef spec2 6)) ↦{fullShare} G 6)
      ∗ (((c.tc : Thread nD τ).loc (Pipeline.arrRef spec2 7)) ↦{fullShare} G 7)
      ∗ (((c.tc : Thread nD τ).loc (Pipeline.arrRef spec2 8)) ↦{fullShare} G 8)) := by
  have h : ((dat2 V c).arrays G : sProp 𝕄)
      = bigSep Finset.univ fun w : Fin cfg2.W => (((c.tc : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- ENTRY: the eight buffers whole at the contents the region finds are the pipeline's arrays at entry. -/
theorem arrays_in2 (c : Dev nD) :
    (Pipeline.arrBufs spec2 c (V c) : sProp 𝕄) ⊢ (dat2 V c).arrays ((dat2 V c).arrAt · 0) := by
  rw [arrays2_chain, arrBufs2_chain]
  iintro ⟨H33, H10, H11, H12, H13, H14, H15, H34⟩
  ihave Hs := (pointsTo_share (PosShare.mem_left_op_right fullShare)).1 $$ H33
  icases Hs with ⟨Ha, Hb⟩
  isplitl [Ha]; · iexact Ha
  isplitl [Hb]; · iexact Hb
  isplitl [H10]; · iexact H10
  isplitl [H11]; · iexact H11
  isplitl [H12]; · iexact H12
  isplitl [H13]; · iexact H13
  isplitl [H14]; · iexact H14
  isplitl [H15]; · iexact H15
  iexact H34

set_option maxHeartbeats 4000000 in
/-- EXIT: the pipeline's arrays at their final contents are the eight buffers whole at any contents `V'` that has the
    output array at what the write-backs leave and every input array as the region found it. -/
theorem arrays_out2 (c : Dev nD) (V' : (b : Ref sig .tc) → Buf (Elt F) ((c : Thread nD τ).loc b))
    (h33 : V' main_v33 = V c main_v33) (h10 : V' main_arg10 = V c main_arg10) (h11 : V' main_arg11 = V c main_arg11)
    (h12 : V' main_arg12 = V c main_arg12) (h13 : V' main_arg13 = V c main_arg13) (h14 : V' main_arg14 = V c main_arg14)
    (h15 : V' main_arg15 = V c main_arg15) (h34 : V' main_v34 = (dat2 V c).arrAt 8 cfg2.N) :
    ((dat2 V c).arrays ((dat2 V c).arrAt · cfg2.N) : sProp 𝕄) ⊢ Pipeline.arrBufs spec2 c V' := by
  rw [arrays2_chain, arrBufs2_chain]
  rw [h33, h10, h11, h12, h13, h14, h15, h34]
  have e0 : (dat2 V c).arrAt 0 cfg2.N = V c main_v33 := ((dat2 V c).arrAt_in 0 rfl _).trans (A_eq2 V c 0)
  have e1 : (dat2 V c).arrAt 1 cfg2.N = V c main_v33 := ((dat2 V c).arrAt_in 1 rfl _).trans (A_eq2 V c 1)
  have e2 : (dat2 V c).arrAt 2 cfg2.N = V c main_arg10 := ((dat2 V c).arrAt_in 2 rfl _).trans (A_eq2 V c 2)
  have e3 : (dat2 V c).arrAt 3 cfg2.N = V c main_arg11 := ((dat2 V c).arrAt_in 3 rfl _).trans (A_eq2 V c 3)
  have e4 : (dat2 V c).arrAt 4 cfg2.N = V c main_arg12 := ((dat2 V c).arrAt_in 4 rfl _).trans (A_eq2 V c 4)
  have e5 : (dat2 V c).arrAt 5 cfg2.N = V c main_arg13 := ((dat2 V c).arrAt_in 5 rfl _).trans (A_eq2 V c 5)
  have e6 : (dat2 V c).arrAt 6 cfg2.N = V c main_arg14 := ((dat2 V c).arrAt_in 6 rfl _).trans (A_eq2 V c 6)
  have e7 : (dat2 V c).arrAt 7 cfg2.N = V c main_arg15 := ((dat2 V c).arrAt_in 7 rfl _).trans (A_eq2 V c 7)
  rw [e0, e1, e2, e3, e4, e5, e6, e7]
  iintro ⟨Ha, Hb, H10, H11, H12, H13, H14, H15, H34⟩
  isplitl [Ha Hb]
  · iapply (pointsTo_share (PosShare.mem_left_op_right fullShare)).2
    isplitl [Ha]; · iexact Ha
    iexact Hb
  isplitl [H10]; · iexact H10
  isplitl [H11]; · iexact H11
  isplitl [H12]; · iexact H12
  isplitl [H13]; · iexact H13
  isplitl [H14]; · iexact H14
  isplitl [H15]; · iexact H15
  iexact H34

end Arrays2

end Cert.Kernel.Hand

end
-- ==== Proof.KRun.lean ====
/-
  The run of the kernel as printed: the contents of the buffers at each boundary between host stretches and regions, the three regions as segments of the program, and the launch; read at the end, every argument array is as launched.
-/
import proofs.«163544_j27779848471357_2_alg».proof.Proof.Gen.Kernel.Launch
import proofs.«163544_j27779848471357_2_alg».proof.Proof.Gen.Kernel.Skeleton
import proofs.«163544_j27779848471357_2_alg».proof.Proof.Gen.Kernel.Points
import proofs.«163544_j27779848471357_2_alg».proof.Proof.Gen.Kernel.Regions
import proofs.«163544_j27779848471357_2_alg».proof.Proof.KRegion0
import proofs.«163544_j27779848471357_2_alg».proof.Proof.KRegion1
import proofs.«163544_j27779848471357_2_alg».proof.Proof.KArrays2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the program's segments from the launch to the return

The contents of the TensorCore's buffers at each boundary between segments are a fold through the program: a host
stretch applies its operations; a region leaves its output array at what its write-backs produce and everything else
as it was. -/

variable (m : (ℓ : Loc nD τ sig) → Buf (Elt F) ℓ) (ρ : Dev nD → PrngReg)

/-- Core `c`'s buffers at launch. -/
abbrev Wd0 : Dev nD → Valuation τ sig (Elt F) := fun c b => m (c, b)
/-- After the first host stretch (region 0's entry). -/
abbrev Wd1 : Dev nD → Valuation τ sig (Elt F) := fun c => StableHlo.after hostOps0 (Wd0 m c)
abbrev At1 : (c : Dev nD) → (b : Ref sig .tc) → Buf (Elt F) ((c : Thread nD τ).loc b) := fun c b => Wd1 m c b

/-- After region 0: its arrays at what the pipeline leaves (the inputs as entered, the output's write-backs folded),
    every other buffer as entered. -/
def Wd2 (c : Dev nD) : Valuation τ sig (Elt F) :=
  Pipeline.withArrays spec0 c (Wd1 m c) fun w => (dat0 (At1 m) c).arrAt w cfg0.N
theorem Wd2_arr (c : Dev nD) (w : Fin cfg0.W) :
    Wd2 m c (Proc.devRef .tc (Pipeline.arrRef spec0 w)) = (dat0 (At1 m) c).arrAt w cfg0.N := by
  unfold Wd2; exact Pipeline.withArrays_arr spec0 launch0.win.arr_inj c _ _ w
theorem Wd2_of_ne (c : Dev nD) (b : Ref sig .tc) (hb : ∀ w, Pipeline.arrRef spec0 w ≠ b) :
    Wd2 m c (Proc.devRef .tc b) = Wd1 m c (Proc.devRef .tc b) := by
  unfold Wd2; exact Pipeline.withArrays_of_ne spec0 c _ _ b hb
/-- The same read at the TensorCore's references. -/
abbrev At2 : (c : Dev nD) → (b : Ref sig .tc) → Buf (Elt F) ((c : Thread nD τ).loc b) := fun c b => Wd2 m c b
theorem hF0 (c : Dev nD) (w : Fin cfg0.W) : (dat0 (At1 m) c).arrAt w cfg0.N = At2 m c (Pipeline.arrRef spec0 w) :=
  (Wd2_arr m c w).symm
theorem hrest0 (c : Dev nD) : ∀ b, b ∉ Finset.univ.image (Pipeline.arrRef spec0) → At2 m c b = At1 m c b :=
  fun b hb => Wd2_of_ne m c b fun w e => hb (Finset.mem_image.mpr ⟨w, Finset.mem_univ _, e⟩)
/-- An input window's array is as the region found it. -/
theorem Wd2_in (c : Dev nD) (w : Fin cfg0.W) (hw : (cfg0.win w).isOut = false) :
    Wd2 m c (Proc.devRef .tc (Pipeline.arrRef spec0 w)) = Wd1 m c (Proc.devRef .tc (Pipeline.arrRef spec0 w)) :=
  (Wd2_arr m c w).trans (((dat0 (At1 m) c).arrAt_in w hw _).trans (A_eq0 (At1 m) c w))

/-- After the second host stretch (region 1's entry). -/
abbrev Wd3 : Dev nD → Valuation τ sig (Elt F) := fun c => StableHlo.after hostOps1 (Wd2 m c)
abbrev At3 : (c : Dev nD) → (b : Ref sig .tc) → Buf (Elt F) ((c : Thread nD τ).loc b) := fun c b => Wd3 m c b

/-- After region 1: its arrays at what the pipeline leaves (the inputs as entered, the output's write-backs folded),
    every other buffer as entered. -/
def Wd4 (c : Dev nD) : Valuation τ sig (Elt F) :=
  Pipeline.withArrays spec1 c (Wd3 m c) fun w => (dat1 (At3 m) c).arrAt w cfg1.N
theorem Wd4_arr (c : Dev nD) (w : Fin cfg1.W) :
    Wd4 m c (Proc.devRef .tc (Pipeline.arrRef spec1 w)) = (dat1 (At3 m) c).arrAt w cfg1.N := by
  unfold Wd4; exact Pipeline.withArrays_arr spec1 launch1.win.arr_inj c _ _ w
theorem Wd4_of_ne (c : Dev nD) (b : Ref sig .tc) (hb : ∀ w, Pipeline.arrRef spec1 w ≠ b) :
    Wd4 m c (Proc.devRef .tc b) = Wd3 m c (Proc.devRef .tc b) := by
  unfold Wd4; exact Pipeline.withArrays_of_ne spec1 c _ _ b hb
/-- The same read at the TensorCore's references. -/
abbrev At4 : (c : Dev nD) → (b : Ref sig .tc) → Buf (Elt F) ((c : Thread nD τ).loc b) := fun c b => Wd4 m c b
theorem hF1 (c : Dev nD) (w : Fin cfg1.W) : (dat1 (At3 m) c).arrAt w cfg1.N = At4 m c (Pipeline.arrRef spec1 w) :=
  (Wd4_arr m c w).symm
theorem hrest1 (c : Dev nD) : ∀ b, b ∉ Finset.univ.image (Pipeline.arrRef spec1) → At4 m c b = At3 m c b :=
  fun b hb => Wd4_of_ne m c b fun w e => hb (Finset.mem_image.mpr ⟨w, Finset.mem_univ _, e⟩)
/-- An input window's array is as the region found it. -/
theorem Wd4_in (c : Dev nD) (w : Fin cfg1.W) (hw : (cfg1.win w).isOut = false) :
    Wd4 m c (Proc.devRef .tc (Pipeline.arrRef spec1 w)) = Wd3 m c (Proc.devRef .tc (Pipeline.arrRef spec1 w)) :=
  (Wd4_arr m c w).trans (((dat1 (At3 m) c).arrAt_in w hw _).trans (A_eq1 (At3 m) c w))

/-- What region 2 leaves in its output array: the write-backs of its two points folded. -/
def res5 (c : Dev nD) : Buf (Elt F) ((c : Thread nD τ).loc main_v34) := (dat2 (At4 m) c).arrAt 8 cfg2.N
/-- After region 2: its output array at `res5`, every other buffer as entered. -/
def Wd5 (c : Dev nD) : Valuation τ sig (Elt F) := Function.update (Wd4 m c) main_v34 (res5 m c)
theorem Wd5_out (c : Dev nD) : Wd5 m c (Proc.devRef .tc main_v34) = res5 m c := by
  unfold Wd5; exact Function.update_self _ _ _
theorem Wd5_of_ne (c : Dev nD) (b : Ref sig .tc) (hb : b ≠ main_v34) : Wd5 m c (Proc.devRef .tc b) = Wd4 m c (Proc.devRef .tc b) := by
  unfold Wd5; exact Function.update_of_ne (StableHlo.devRef_ne_of_ne hb) _ _
abbrev At5 : (c : Dev nD) → (b : Ref sig .tc) → Buf (Elt F) ((c : Thread nD τ).loc b) := fun c b => Wd5 m c b

/-! ### No host operation writes an argument and no region's output is one: at every boundary each argument's
    buffer holds what it held at launch -/

theorem Wd1_main_arg0 (c : Dev nD) : Wd1 m c (Proc.devRef .tc main_arg0) = m ((c : Thread nD τ).loc main_arg0) :=
  StableHlo.after_of_writes_sub hostOps0 _ hostOps0_writes (show main_arg0 ∉ hostOps0_W by decide)
theorem Wd2_main_arg0 (c : Dev nD) : Wd2 m c (Proc.devRef .tc main_arg0) = m ((c : Thread nD τ).loc main_arg0) :=
  (Wd2_of_ne m c main_arg0 (by decide)).trans (Wd1_main_arg0 m c)
theorem Wd3_main_arg0 (c : Dev nD) : Wd3 m c (Proc.devRef .tc main_arg0) = m ((c : Thread nD τ).loc main_arg0) :=
  (StableHlo.after_of_writes_sub hostOps1 _ hostOps1_writes (show main_arg0 ∉ hostOps1_W by decide)).trans (Wd2_main_arg0 m c)
theorem Wd4_main_arg0 (c : Dev nD) : Wd4 m c (Proc.devRef .tc main_arg0) = m ((c : Thread nD τ).loc main_arg0) :=
  (Wd4_of_ne m c main_arg0 (by decide)).trans (Wd3_main_arg0 m c)
theorem Wd5_main_arg0 (c : Dev nD) : Wd5 m c (Proc.devRef .tc main_arg0) = m ((c : Thread nD τ).loc main_arg0) :=
  (Wd5_of_ne m c main_arg0 (by decide)).trans (Wd4_main_arg0 m c)
theorem Wd1_main_arg1 (c : Dev nD) : Wd1 m c (Proc.devRef .tc main_arg1) = m ((c : Thread nD τ).loc main_arg1) :=
  StableHlo.after_of_writes_sub hostOps0 _ hostOps0_writes (show main_arg1 ∉ hostOps0_W by decide)
theorem Wd2_main_arg1 (c : Dev nD) : Wd2 m c (Proc.devRef .tc main_arg1) = m ((c : Thread nD τ).loc main_arg1) :=
  (Wd2_of_ne m c main_arg1 (by decide)).trans (Wd1_main_arg1 m c)
theorem Wd3_main_arg1 (c : Dev nD) : Wd3 m c (Proc.devRef .tc main_arg1) = m ((c : Thread nD τ).loc main_arg1) :=
  (StableHlo.after_of_writes_sub hostOps1 _ hostOps1_writes (show main_arg1 ∉ hostOps1_W by decide)).trans (Wd2_main_arg1 m c)
theorem Wd4_main_arg1 (c : Dev nD) : Wd4 m c (Proc.devRef .tc main_arg1) = m ((c : Thread nD τ).loc main_arg1) :=
  (Wd4_of_ne m c main_arg1 (by decide)).trans (Wd3_main_arg1 m c)
theorem Wd5_main_arg1 (c : Dev nD) : Wd5 m c (Proc.devRef .tc main_arg1) = m ((c : Thread nD τ).loc main_arg1) :=
  (Wd5_of_ne m c main_arg1 (by decide)).trans (Wd4_main_arg1 m c)
theorem Wd1_main_arg2 (c : Dev nD) : Wd1 m c (Proc.devRef .tc main_arg2) = m ((c : Thread nD τ).loc main_arg2) :=
  StableHlo.after_of_writes_sub hostOps0 _ hostOps0_writes (show main_arg2 ∉ hostOps0_W by decide)
theorem Wd2_main_arg2 (c : Dev nD) : Wd2 m c (Proc.devRef .tc main_arg2) = m ((c : Thread nD τ).loc main_arg2) :=
  (Wd2_of_ne m c main_arg2 (by decide)).trans (Wd1_main_arg2 m c)
theorem Wd3_main_arg2 (c : Dev nD) : Wd3 m c (Proc.devRef .tc main_arg2) = m ((c : Thread nD τ).loc main_arg2) :=
  (StableHlo.after_of_writes_sub hostOps1 _ hostOps1_writes (show main_arg2 ∉ hostOps1_W by decide)).trans (Wd2_main_arg2 m c)
theorem Wd4_main_arg2 (c : Dev nD) : Wd4 m c (Proc.devRef .tc main_arg2) = m ((c : Thread nD τ).loc main_arg2) :=
  (Wd4_of_ne m c main_arg2 (by decide)).trans (Wd3_main_arg2 m c)
theorem Wd5_main_arg2 (c : Dev nD) : Wd5 m c (Proc.devRef .tc main_arg2) = m ((c : Thread nD τ).loc main_arg2) :=
  (Wd5_of_ne m c main_arg2 (by decide)).trans (Wd4_main_arg2 m c)
theorem Wd1_main_arg3 (c : Dev nD) : Wd1 m c (Proc.devRef .tc main_arg3) = m ((c : Thread nD τ).loc main_arg3) :=
  StableHlo.after_of_writes_sub hostOps0 _ hostOps0_writes (show main_arg3 ∉ hostOps0_W by decide)
theorem Wd2_main_arg3 (c : Dev nD) : Wd2 m c (Proc.devRef .tc main_arg3) = m ((c : Thread nD τ).loc main_arg3) :=
  (Wd2_of_ne m c main_arg3 (by decide)).trans (Wd1_main_arg3 m c)
theorem Wd3_main_arg3 (c : Dev nD) : Wd3 m c (Proc.devRef .tc main_arg3) = m ((c : Thread nD τ).loc main_arg3) :=
  (StableHlo.after_of_writes_sub hostOps1 _ hostOps1_writes (show main_arg3 ∉ hostOps1_W by decide)).trans (Wd2_main_arg3 m c)
theorem Wd4_main_arg3 (c : Dev nD) : Wd4 m c (Proc.devRef .tc main_arg3) = m ((c : Thread nD τ).loc main_arg3) :=
  (Wd4_of_ne m c main_arg3 (by decide)).trans (Wd3_main_arg3 m c)
theorem Wd5_main_arg3 (c : Dev nD) : Wd5 m c (Proc.devRef .tc main_arg3) = m ((c : Thread nD τ).loc main_arg3) :=
  (Wd5_of_ne m c main_arg3 (by decide)).trans (Wd4_main_arg3 m c)
theorem Wd1_main_arg4 (c : Dev nD) : Wd1 m c (Proc.devRef .tc main_arg4) = m ((c : Thread nD τ).loc main_arg4) :=
  StableHlo.after_of_writes_sub hostOps0 _ hostOps0_writes (show main_arg4 ∉ hostOps0_W by decide)
theorem Wd2_main_arg4 (c : Dev nD) : Wd2 m c (Proc.devRef .tc main_arg4) = m ((c : Thread nD τ).loc main_arg4) :=
  (Wd2_in m c 2 rfl).trans (Wd1_main_arg4 m c)
theorem Wd3_main_arg4 (c : Dev nD) : Wd3 m c (Proc.devRef .tc main_arg4) = m ((c : Thread nD τ).loc main_arg4) :=
  (StableHlo.after_of_writes_sub hostOps1 _ hostOps1_writes (show main_arg4 ∉ hostOps1_W by decide)).trans (Wd2_main_arg4 m c)
theorem Wd4_main_arg4 (c : Dev nD) : Wd4 m c (Proc.devRef .tc main_arg4) = m ((c : Thread nD τ).loc main_arg4) :=
  (Wd4_of_ne m c main_arg4 (by decide)).trans (Wd3_main_arg4 m c)
theorem Wd5_main_arg4 (c : Dev nD) : Wd5 m c (Proc.devRef .tc main_arg4) = m ((c : Thread nD τ).loc main_arg4) :=
  (Wd5_of_ne m c main_arg4 (by decide)).trans (Wd4_main_arg4 m c)
theorem Wd1_main_arg5 (c : Dev nD) : Wd1 m c (Proc.devRef .tc main_arg5) = m ((c : Thread nD τ).loc main_arg5) :=
  StableHlo.after_of_writes_sub hostOps0 _ hostOps0_writes (show main_arg5 ∉ hostOps0_W by decide)
theorem Wd2_main_arg5 (c : Dev nD) : Wd2 m c (Proc.devRef .tc main_arg5) = m ((c : Thread nD τ).loc main_arg5) :=
  (Wd2_in m c 3 rfl).trans (Wd1_main_arg5 m c)
theorem Wd3_main_arg5 (c : Dev nD) : Wd3 m c (Proc.devRef .tc main_arg5) = m ((c : Thread nD τ).loc main_arg5) :=
  (StableHlo.after_of_writes_sub hostOps1 _ hostOps1_writes (show main_arg5 ∉ hostOps1_W by decide)).trans (Wd2_main_arg5 m c)
theorem Wd4_main_arg5 (c : Dev nD) : Wd4 m c (Proc.devRef .tc main_arg5) = m ((c : Thread nD τ).loc main_arg5) :=
  (Wd4_of_ne m c main_arg5 (by decide)).trans (Wd3_main_arg5 m c)
theorem Wd5_main_arg5 (c : Dev nD) : Wd5 m c (Proc.devRef .tc main_arg5) = m ((c : Thread nD τ).loc main_arg5) :=
  (Wd5_of_ne m c main_arg5 (by decide)).trans (Wd4_main_arg5 m c)
theorem Wd1_main_arg6 (c : Dev nD) : Wd1 m c (Proc.devRef .tc main_arg6) = m ((c : Thread nD τ).loc main_arg6) :=
  StableHlo.after_of_writes_sub hostOps0 _ hostOps0_writes (show main_arg6 ∉ hostOps0_W by decide)
theorem Wd2_main_arg6 (c : Dev nD) : Wd2 m c (Proc.devRef .tc main_arg6) = m ((c : Thread nD τ).loc main_arg6) :=
  (Wd2_in m c 4 rfl).trans (Wd1_main_arg6 m c)
theorem Wd3_main_arg6 (c : Dev nD) : Wd3 m c (Proc.devRef .tc main_arg6) = m ((c : Thread nD τ).loc main_arg6) :=
  (StableHlo.after_of_writes_sub hostOps1 _ hostOps1_writes (show main_arg6 ∉ hostOps1_W by decide)).trans (Wd2_main_arg6 m c)
theorem Wd4_main_arg6 (c : Dev nD) : Wd4 m c (Proc.devRef .tc main_arg6) = m ((c : Thread nD τ).loc main_arg6) :=
  (Wd4_of_ne m c main_arg6 (by decide)).trans (Wd3_main_arg6 m c)
theorem Wd5_main_arg6 (c : Dev nD) : Wd5 m c (Proc.devRef .tc main_arg6) = m ((c : Thread nD τ).loc main_arg6) :=
  (Wd5_of_ne m c main_arg6 (by decide)).trans (Wd4_main_arg6 m c)
theorem Wd1_main_arg7 (c : Dev nD) : Wd1 m c (Proc.devRef .tc main_arg7) = m ((c : Thread nD τ).loc main_arg7) :=
  StableHlo.after_of_writes_sub hostOps0 _ hostOps0_writes (show main_arg7 ∉ hostOps0_W by decide)
theorem Wd2_main_arg7 (c : Dev nD) : Wd2 m c (Proc.devRef .tc main_arg7) = m ((c : Thread nD τ).loc main_arg7) :=
  (Wd2_of_ne m c main_arg7 (by decide)).trans (Wd1_main_arg7 m c)
theorem Wd3_main_arg7 (c : Dev nD) : Wd3 m c (Proc.devRef .tc main_arg7) = m ((c : Thread nD τ).loc main_arg7) :=
  (StableHlo.after_of_writes_sub hostOps1 _ hostOps1_writes (show main_arg7 ∉ hostOps1_W by decide)).trans (Wd2_main_arg7 m c)
theorem Wd4_main_arg7 (c : Dev nD) : Wd4 m c (Proc.devRef .tc main_arg7) = m ((c : Thread nD τ).loc main_arg7) :=
  (Wd4_in m c 2 rfl).trans (Wd3_main_arg7 m c)
theorem Wd5_main_arg7 (c : Dev nD) : Wd5 m c (Proc.devRef .tc main_arg7) = m ((c : Thread nD τ).loc main_arg7) :=
  (Wd5_of_ne m c main_arg7 (by decide)).trans (Wd4_main_arg7 m c)
theorem Wd1_main_arg8 (c : Dev nD) : Wd1 m c (Proc.devRef .tc main_arg8) = m ((c : Thread nD τ).loc main_arg8) :=
  StableHlo.after_of_writes_sub hostOps0 _ hostOps0_writes (show main_arg8 ∉ hostOps0_W by decide)
theorem Wd2_main_arg8 (c : Dev nD) : Wd2 m c (Proc.devRef .tc main_arg8) = m ((c : Thread nD τ).loc main_arg8) :=
  (Wd2_of_ne m c main_arg8 (by decide)).trans (Wd1_main_arg8 m c)
theorem Wd3_main_arg8 (c : Dev nD) : Wd3 m c (Proc.devRef .tc main_arg8) = m ((c : Thread nD τ).loc main_arg8) :=
  (StableHlo.after_of_writes_sub hostOps1 _ hostOps1_writes (show main_arg8 ∉ hostOps1_W by decide)).trans (Wd2_main_arg8 m c)
theorem Wd4_main_arg8 (c : Dev nD) : Wd4 m c (Proc.devRef .tc main_arg8) = m ((c : Thread nD τ).loc main_arg8) :=
  (Wd4_in m c 3 rfl).trans (Wd3_main_arg8 m c)
theorem Wd5_main_arg8 (c : Dev nD) : Wd5 m c (Proc.devRef .tc main_arg8) = m ((c : Thread nD τ).loc main_arg8) :=
  (Wd5_of_ne m c main_arg8 (by decide)).trans (Wd4_main_arg8 m c)
theorem Wd1_main_arg9 (c : Dev nD) : Wd1 m c (Proc.devRef .tc main_arg9) = m ((c : Thread nD τ).loc main_arg9) :=
  StableHlo.after_of_writes_sub hostOps0 _ hostOps0_writes (show main_arg9 ∉ hostOps0_W by decide)
theorem Wd2_main_arg9 (c : Dev nD) : Wd2 m c (Proc.devRef .tc main_arg9) = m ((c : Thread nD τ).loc main_arg9) :=
  (Wd2_of_ne m c main_arg9 (by decide)).trans (Wd1_main_arg9 m c)
theorem Wd3_main_arg9 (c : Dev nD) : Wd3 m c (Proc.devRef .tc main_arg9) = m ((c : Thread nD τ).loc main_arg9) :=
  (StableHlo.after_of_writes_sub hostOps1 _ hostOps1_writes (show main_arg9 ∉ hostOps1_W by decide)).trans (Wd2_main_arg9 m c)
theorem Wd4_main_arg9 (c : Dev nD) : Wd4 m c (Proc.devRef .tc main_arg9) = m ((c : Thread nD τ).loc main_arg9) :=
  (Wd4_in m c 4 rfl).trans (Wd3_main_arg9 m c)
theorem Wd5_main_arg9 (c : Dev nD) : Wd5 m c (Proc.devRef .tc main_arg9) = m ((c : Thread nD τ).loc main_arg9) :=
  (Wd5_of_ne m c main_arg9 (by decide)).trans (Wd4_main_arg9 m c)
theorem Wd1_main_arg10 (c : Dev nD) : Wd1 m c (Proc.devRef .tc main_arg10) = m ((c : Thread nD τ).loc main_arg10) :=
  StableHlo.after_of_writes_sub hostOps0 _ hostOps0_writes (show main_arg10 ∉ hostOps0_W by decide)
theorem Wd2_main_arg10 (c : Dev nD) : Wd2 m c (Proc.devRef .tc main_arg10) = m ((c : Thread nD τ).loc main_arg10) :=
  (Wd2_of_ne m c main_arg10 (by decide)).trans (Wd1_main_arg10 m c)
theorem Wd3_main_arg10 (c : Dev nD) : Wd3 m c (Proc.devRef .tc main_arg10) = m ((c : Thread nD τ).loc main_arg10) :=
  (StableHlo.after_of_writes_sub hostOps1 _ hostOps1_writes (show main_arg10 ∉ hostOps1_W by decide)).trans (Wd2_main_arg10 m c)
theorem Wd4_main_arg10 (c : Dev nD) : Wd4 m c (Proc.devRef .tc main_arg10) = m ((c : Thread nD τ).loc main_arg10) :=
  (Wd4_of_ne m c main_arg10 (by decide)).trans (Wd3_main_arg10 m c)
theorem Wd5_main_arg10 (c : Dev nD) : Wd5 m c (Proc.devRef .tc main_arg10) = m ((c : Thread nD τ).loc main_arg10) :=
  (Wd5_of_ne m c main_arg10 (by decide)).trans (Wd4_main_arg10 m c)
theorem Wd1_main_arg11 (c : Dev nD) : Wd1 m c (Proc.devRef .tc main_arg11) = m ((c : Thread nD τ).loc main_arg11) :=
  StableHlo.after_of_writes_sub hostOps0 _ hostOps0_writes (show main_arg11 ∉ hostOps0_W by decide)
theorem Wd2_main_arg11 (c : Dev nD) : Wd2 m c (Proc.devRef .tc main_arg11) = m ((c : Thread nD τ).loc main_arg11) :=
  (Wd2_of_ne m c main_arg11 (by decide)).trans (Wd1_main_arg11 m c)
theorem Wd3_main_arg11 (c : Dev nD) : Wd3 m c (Proc.devRef .tc main_arg11) = m ((c : Thread nD τ).loc main_arg11) :=
  (StableHlo.after_of_writes_sub hostOps1 _ hostOps1_writes (show main_arg11 ∉ hostOps1_W by decide)).trans (Wd2_main_arg11 m c)
theorem Wd4_main_arg11 (c : Dev nD) : Wd4 m c (Proc.devRef .tc main_arg11) = m ((c : Thread nD τ).loc main_arg11) :=
  (Wd4_of_ne m c main_arg11 (by decide)).trans (Wd3_main_arg11 m c)
theorem Wd5_main_arg11 (c : Dev nD) : Wd5 m c (Proc.devRef .tc main_arg11) = m ((c : Thread nD τ).loc main_arg11) :=
  (Wd5_of_ne m c main_arg11 (by decide)).trans (Wd4_main_arg11 m c)
theorem Wd1_main_arg12 (c : Dev nD) : Wd1 m c (Proc.devRef .tc main_arg12) = m ((c : Thread nD τ).loc main_arg12) :=
  StableHlo.after_of_writes_sub hostOps0 _ hostOps0_writes (show main_arg12 ∉ hostOps0_W by decide)
theorem Wd2_main_arg12 (c : Dev nD) : Wd2 m c (Proc.devRef .tc main_arg12) = m ((c : Thread nD τ).loc main_arg12) :=
  (Wd2_of_ne m c main_arg12 (by decide)).trans (Wd1_main_arg12 m c)
theorem Wd3_main_arg12 (c : Dev nD) : Wd3 m c (Proc.devRef .tc main_arg12) = m ((c : Thread nD τ).loc main_arg12) :=
  (StableHlo.after_of_writes_sub hostOps1 _ hostOps1_writes (show main_arg12 ∉ hostOps1_W by decide)).trans (Wd2_main_arg12 m c)
theorem Wd4_main_arg12 (c : Dev nD) : Wd4 m c (Proc.devRef .tc main_arg12) = m ((c : Thread nD τ).loc main_arg12) :=
  (Wd4_of_ne m c main_arg12 (by decide)).trans (Wd3_main_arg12 m c)
theorem Wd5_main_arg12 (c : Dev nD) : Wd5 m c (Proc.devRef .tc main_arg12) = m ((c : Thread nD τ).loc main_arg12) :=
  (Wd5_of_ne m c main_arg12 (by decide)).trans (Wd4_main_arg12 m c)
theorem Wd1_main_arg13 (c : Dev nD) : Wd1 m c (Proc.devRef .tc main_arg13) = m ((c : Thread nD τ).loc main_arg13) :=
  StableHlo.after_of_writes_sub hostOps0 _ hostOps0_writes (show main_arg13 ∉ hostOps0_W by decide)
theorem Wd2_main_arg13 (c : Dev nD) : Wd2 m c (Proc.devRef .tc main_arg13) = m ((c : Thread nD τ).loc main_arg13) :=
  (Wd2_of_ne m c main_arg13 (by decide)).trans (Wd1_main_arg13 m c)
theorem Wd3_main_arg13 (c : Dev nD) : Wd3 m c (Proc.devRef .tc main_arg13) = m ((c : Thread nD τ).loc main_arg13) :=
  (StableHlo.after_of_writes_sub hostOps1 _ hostOps1_writes (show main_arg13 ∉ hostOps1_W by decide)).trans (Wd2_main_arg13 m c)
theorem Wd4_main_arg13 (c : Dev nD) : Wd4 m c (Proc.devRef .tc main_arg13) = m ((c : Thread nD τ).loc main_arg13) :=
  (Wd4_of_ne m c main_arg13 (by decide)).trans (Wd3_main_arg13 m c)
theorem Wd5_main_arg13 (c : Dev nD) : Wd5 m c (Proc.devRef .tc main_arg13) = m ((c : Thread nD τ).loc main_arg13) :=
  (Wd5_of_ne m c main_arg13 (by decide)).trans (Wd4_main_arg13 m c)
theorem Wd1_main_arg14 (c : Dev nD) : Wd1 m c (Proc.devRef .tc main_arg14) = m ((c : Thread nD τ).loc main_arg14) :=
  StableHlo.after_of_writes_sub hostOps0 _ hostOps0_writes (show main_arg14 ∉ hostOps0_W by decide)
theorem Wd2_main_arg14 (c : Dev nD) : Wd2 m c (Proc.devRef .tc main_arg14) = m ((c : Thread nD τ).loc main_arg14) :=
  (Wd2_of_ne m c main_arg14 (by decide)).trans (Wd1_main_arg14 m c)
theorem Wd3_main_arg14 (c : Dev nD) : Wd3 m c (Proc.devRef .tc main_arg14) = m ((c : Thread nD τ).loc main_arg14) :=
  (StableHlo.after_of_writes_sub hostOps1 _ hostOps1_writes (show main_arg14 ∉ hostOps1_W by decide)).trans (Wd2_main_arg14 m c)
theorem Wd4_main_arg14 (c : Dev nD) : Wd4 m c (Proc.devRef .tc main_arg14) = m ((c : Thread nD τ).loc main_arg14) :=
  (Wd4_of_ne m c main_arg14 (by decide)).trans (Wd3_main_arg14 m c)
theorem Wd5_main_arg14 (c : Dev nD) : Wd5 m c (Proc.devRef .tc main_arg14) = m ((c : Thread nD τ).loc main_arg14) :=
  (Wd5_of_ne m c main_arg14 (by decide)).trans (Wd4_main_arg14 m c)
theorem Wd1_main_arg15 (c : Dev nD) : Wd1 m c (Proc.devRef .tc main_arg15) = m ((c : Thread nD τ).loc main_arg15) :=
  StableHlo.after_of_writes_sub hostOps0 _ hostOps0_writes (show main_arg15 ∉ hostOps0_W by decide)
theorem Wd2_main_arg15 (c : Dev nD) : Wd2 m c (Proc.devRef .tc main_arg15) = m ((c : Thread nD τ).loc main_arg15) :=
  (Wd2_of_ne m c main_arg15 (by decide)).trans (Wd1_main_arg15 m c)
theorem Wd3_main_arg15 (c : Dev nD) : Wd3 m c (Proc.devRef .tc main_arg15) = m ((c : Thread nD τ).loc main_arg15) :=
  (StableHlo.after_of_writes_sub hostOps1 _ hostOps1_writes (show main_arg15 ∉ hostOps1_W by decide)).trans (Wd2_main_arg15 m c)
theorem Wd4_main_arg15 (c : Dev nD) : Wd4 m c (Proc.devRef .tc main_arg15) = m ((c : Thread nD τ).loc main_arg15) :=
  (Wd4_of_ne m c main_arg15 (by decide)).trans (Wd3_main_arg15 m c)
theorem Wd5_main_arg15 (c : Dev nD) : Wd5 m c (Proc.devRef .tc main_arg15) = m ((c : Thread nD τ).loc main_arg15) :=
  (Wd5_of_ne m c main_arg15 (by decide)).trans (Wd4_main_arg15 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (At1 m) c
  | ⟨1, _⟩ => fun c => dat1 (At3 m) c
  | ⟨2, _⟩ => fun c => dat2 (At4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (Wd5 m c) ∗ ∃ r, prngReg c r)

/-! ## The regions as segments -/

set_option backward.isDefEq.respectTransparency.types false in
/-- Region 0 over the thread state: entered with every unscoped buffer at the boundary's contents, left with its
    output array at what the write-backs leave and every other buffer as entered. Its arrays are split out of the
    unscoped buffers and put back; the generator register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (At1 m) c).loose
  hwaits := Pipeline.hwaits_of_owed_zero _ _ _ _ L lv 0 fun _ _ => rfl
  pre c := iprop(StableHlo.held (c : Thread nD τ) (Pipeline.ucRefs τ sig) (Wd1 m c) ∗ R c)
  post c := iprop(StableHlo.held (c : Thread nD τ) (Pipeline.ucRefs τ sig) (Wd2 m c) ∗ R c)
  X c := iprop(∃ r, prngReg c r)
  Y c := iprop(∃ r, prngReg c r)
  Z c := Pipeline.unscopedRest (Ix := Unit) (Name := ℕ) (U := UR sig nD τ) (Lvl := ℕ) spec0 c (At1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (At1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (At1 m c) (At2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with its
    output array at what the write-backs leave and every other buffer as entered. Its arrays are split out of the
    unscoped buffers and put back; the generator register goes into the invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (At3 m) c).loose
  hwaits := Pipeline.hwaits_of_owed_zero _ _ _ _ L lv 1 fun _ _ => rfl
  pre c := iprop(StableHlo.held (c : Thread nD τ) (Pipeline.ucRefs τ sig) (Wd3 m c) ∗ R c)
  post c := iprop(StableHlo.held (c : Thread nD τ) (Pipeline.ucRefs τ sig) (Wd4 m c) ∗ R c)
  X c := iprop(∃ r, prngReg c r)
  Y c := iprop(∃ r, prngReg c r)
  Z c := Pipeline.unscopedRest (Ix := Unit) (Name := ℕ) (U := UR sig nD τ) (Lvl := ℕ) spec1 c (At3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (At3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (At3 m c) (At4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 2's arrays the last boundary's contents are the entry's. -/
theorem hrest2 (c : Dev nD) : ∀ b, b ∉ Finset.univ.image (Pipeline.arrRef spec2) → At5 m c b = At4 m c b :=
  fun b hb => Wd5_of_ne m c b fun e => hb (by rw [e]; exact Finset.mem_image.mpr ⟨8, Finset.mem_univ _, rfl⟩)

set_option backward.isDefEq.respectTransparency.types false in
/-- Region 2 over the thread state: as the other two, but its two row-block windows stand on one array, whose share is
    dealt to them in halves at entry and rejoined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (At4 m) c).loose
  hwaits := Pipeline.hwaits_of_owed_zero _ _ _ _ L lv 2 fun _ _ => rfl
  pre c := iprop(StableHlo.held (c : Thread nD τ) (Pipeline.ucRefs τ sig) (Wd4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (At4 m c)
  hentry c := by
    rw [Pipeline.ownSems0_none]
    have hsplit : (StableHlo.held (c : Thread nD τ) (Pipeline.ucRefs τ sig) (Wd4 m c) : sProp 𝕄)
        ⊢ iprop((pdats m 2 c).arrays ((pdats m 2 c).arrAt · 0) ∗ Pipeline.unscopedRest spec2 c (At4 m c)) := by
      rw [← Pipeline.unscopedBufs_held c (Wd4 m c), Pipeline.unscopedBufs_split₀ (cfgs) 2 winFacts₀2.arr_unscoped c (At4 m c)]
      exact sep_mono (arrays_in2 (At4 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (At4 m c))
        ⊢ (StableHlo.held (c : Thread nD τ) (Pipeline.ucRefs τ sig) (Wd5 m c) : sProp 𝕄) := by
      rw [← Pipeline.unscopedBufs_held c (Wd5 m c), Pipeline.unscopedBufs_split₀ (cfgs) 2 winFacts₀2.arr_unscoped c (At5 m c)]
      refine sep_mono (arrays_out2 (At4 m) c (At5 m c) (Wd5_of_ne m c _ (by decide)) (Wd5_of_ne m c _ (by decide)) (Wd5_of_ne m c _ (by decide))
        (Wd5_of_ne m c _ (by decide)) (Wd5_of_ne m c _ (by decide)) (Wd5_of_ne m c _ (by decide)) (Wd5_of_ne m c _ (by decide)) (Wd5_out m c)) (Entails.of_eq ?_)
      unfold Pipeline.unscopedRest
      exact bigSep_congr fun b hb => by rw [hrest2 m c b (Finset.mem_sdiff.mp hb).2]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m) () defs₀ 𝒱₀ L lv) :=
  [ .host (hseg hostOps0 hostOps0_sub hostOps0_fresh (Wd0 m)),
    .region (reg0 m),
    .host (hseg hostOps1 hostOps1_sub hostOps1_fresh (Wd2 m)),
    .region (reg1 m),
    .region (reg2 m) ]
/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program on the TensorCores
    terminates, nothing faulting, and every final state has each unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = Wd5 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wd0 m c)
        from Pipeline.unscopedBufs_held c (Wd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd5 m c b)
    (hfin := fun c s' => by
      iintro ⟨⟨Hh, -⟩, HSI⟩
      unfold StableHlo.held
      imodintro
      iapply (pointsTo_read_all (Pipeline.ucRefs τ sig) (fun b => (((c : Thread nD τ)).1, b)) (Wd5 m c) s')
      isplitl [Hh] <;> iassumption)
    (hQ := fun s h c b hb => h c _ (mem_uc b hb))

/-- THE FRAME: every weakly fair execution terminates, nothing faulting, with every argument array as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c main_arg0 (by decide)).trans (Wd5_main_arg0 m c),
      (h c main_arg1 (by decide)).trans (Wd5_main_arg1 m c),
      (h c main_arg2 (by decide)).trans (Wd5_main_arg2 m c),
      (h c main_arg3 (by decide)).trans (Wd5_main_arg3 m c),
      (h c main_arg4 (by decide)).trans (Wd5_main_arg4 m c),
      (h c main_arg5 (by decide)).trans (Wd5_main_arg5 m c),
      (h c main_arg6 (by decide)).trans (Wd5_main_arg6 m c),
      (h c main_arg7 (by decide)).trans (Wd5_main_arg7 m c),
      (h c main_arg8 (by decide)).trans (Wd5_main_arg8 m c),
      (h c main_arg9 (by decide)).trans (Wd5_main_arg9 m c),
      (h c main_arg10 (by decide)).trans (Wd5_main_arg10 m c),
      (h c main_arg11 (by decide)).trans (Wd5_main_arg11 m c),
      (h c main_arg12 (by decide)).trans (Wd5_main_arg12 m c),
      (h c main_arg13 (by decide)).trans (Wd5_main_arg13 m c),
      (h c main_arg14 (by decide)).trans (Wd5_main_arg14 m c),
      (h c main_arg15 (by decide)).trans (Wd5_main_arg15 m c)⟩) (run_all m ρ)

/-- The same run with the result array named: it ends holding what the last region's write-backs leave. -/
theorem value_run : θ_run defs (onTc (τ := τ) (main (F := F))) ⟨m, fun _ => 0, ρ⟩ (fun r => ∀ c : Dev nD,
      r.2.mem ((c.tc : Thread nD τ).loc main_v34) = res5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c main_v34 (by decide)).trans (Wd5_out m c),
      (h c main_arg0 (by decide)).trans (Wd5_main_arg0 m c),
      (h c main_arg1 (by decide)).trans (Wd5_main_arg1 m c),
      (h c main_arg2 (by decide)).trans (Wd5_main_arg2 m c),
      (h c main_arg3 (by decide)).trans (Wd5_main_arg3 m c),
      (h c main_arg4 (by decide)).trans (Wd5_main_arg4 m c),
      (h c main_arg5 (by decide)).trans (Wd5_main_arg5 m c),
      (h c main_arg6 (by decide)).trans (Wd5_main_arg6 m c),
      (h c main_arg7 (by decide)).trans (Wd5_main_arg7 m c),
      (h c main_arg8 (by decide)).trans (Wd5_main_arg8 m c),
      (h c main_arg9 (by decide)).trans (Wd5_main_arg9 m c),
      (h c main_arg10 (by decide)).trans (Wd5_main_arg10 m c),
      (h c main_arg11 (by decide)).trans (Wd5_main_arg11 m c),
      (h c main_arg12 (by decide)).trans (Wd5_main_arg12 m c),
      (h c main_arg13 (by decide)).trans (Wd5_main_arg13 m c),
      (h c main_arg14 (by decide)).trans (Wd5_main_arg14 m c),
      (h c main_arg15 (by decide)).trans (Wd5_main_arg15 m c)⟩) (run_all m ρ)

end Cert.Kernel.Hand

end
-- ==== Proof.KIRegion0.lean ====
/-
  The first graph-convolution layer's region of the idealized kernel: what its staging buffers hold around the body at every grid point, the body's run, and the pipeline's obligation.
-/
import proofs.«163544_j27779848471357_2_alg».proof.Proof.Gen.KernelIdeal.Launch
import proofs.«163544_j27779848471357_2_alg».proof.Proof.Gen.KernelIdeal.Skeleton
import proofs.«163544_j27779848471357_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 0: one graph-convolution layer on a block of rows

The body reads the block of destination rows, the ten neighbour slices of the block of gathered rows, the two weight
matrices and the bias, and stores one block of output rows. What follows says what each staging buffer holds before
and after the body at every grid point, runs the body, and states the obligation the pipeline asks of it. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there: where it did not, the block index has not moved since the last fetch and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there: where it did not, the block index has not moved since the last fetch and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there: where it did not, the block index has not moved since the last fetch and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not the pipeline fetched it
    there: where it did not, the block index has not moved since the last fetch and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether or not the pipeline fetched it
    there: where it did not, the block index has not moved since the last fetch and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output block after the body, as a function of the five input blocks: one store of the layer's value over
    the whole block. -/
def out0_5 (x0 : Vec F S1024x128 .bf16) (x1 : Vec F S1024x10x128 .bf16) (x2 : Vec F S128x256 .f32) (x3 : Vec F S128x256 .f32) (x4 : Vec F S256 .f32) : Vec F S1024x256 .f32 :=
  View.canon [⟨Rect.unit (s := S1024x256) ![0, 0] S1024x256.size inb_S1024x256_S1024x256_0_0, k0_pay1 (k0_pay2 (View.ld x0 (Rect.unit (s := S1024x128) ![0, 0] S1024x128.size inb_S1024x128_S1024x128_0_0))) (k0_pay3 (View.ld x1 (Rect.unit (s := S1024x10x128) ![0, 0, 0] S1024x1x128.size inb_S1024x10x128_S1024x1x128_0_0_0)) (View.ld x1 (Rect.unit (s := S1024x10x128) ![0, 1, 0] S1024x1x128.size inb_S1024x10x128_S1024x1x128_0_1_0)) (View.ld x1 (Rect.unit (s := S1024x10x128) ![0, 2, 0] S1024x1x128.size inb_S1024x10x128_S1024x1x128_0_2_0)) (View.ld x1 (Rect.unit (s := S1024x10x128) ![0, 3, 0] S1024x1x128.size inb_S1024x10x128_S1024x1x128_0_3_0)) (View.ld x1 (Rect.unit (s := S1024x10x128) ![0, 4, 0] S1024x1x128.size inb_S1024x10x128_S1024x1x128_0_4_0)) (View.ld x1 (Rect.unit (s := S1024x10x128) ![0, 5, 0] S1024x1x128.size inb_S1024x10x128_S1024x1x128_0_5_0)) (View.ld x1 (Rect.unit (s := S1024x10x128) ![0, 6, 0] S1024x1x128.size inb_S1024x10x128_S1024x1x128_0_6_0))) (View.ld x1 (Rect.unit (s := S1024x10x128) ![0, 7, 0] S1024x1x128.size inb_S1024x10x128_S1024x1x128_0_7_0)) (View.ld x1 (Rect.unit (s := S1024x10x128) ![0, 8, 0] S1024x1x128.size inb_S1024x10x128_S1024x1x128_0_8_0)) (View.ld x1 (Rect.unit (s := S1024x10x128) ![0, 9, 0] S1024x1x128.size inb_S1024x10x128_S1024x1x128_0_9_0)) (View.ld x2 (Rect.unit (s := S128x256) ![0, 0] S128x256.size inb_S128x256_S128x256_0_0)) (View.ld x3 (Rect.unit (s := S128x256) ![0, 0] S128x256.size inb_S128x256_S128x256_0_0)) (View.ld x4 (Rect.unit (s := S256) ![0] S256.size inb_S256_S256_0))⟩]

/-- The one store covers the whole output block. -/
theorem cover0_5 (p0 : Vec F S1024x256 .f32) (y : S1024x256.Idx) :
    ∃ pc ∈ ([⟨Rect.unit (s := S1024x256) ![0, 0] S1024x256.size inb_S1024x256_S1024x256_0_0, p0⟩] : List (View.Piece (Elt F) S1024x256 .f32)), y ∈ pc.1.set :=
  View.cover_of_tiled [⟨Rect.unit (s := S1024x256) ![0, 0] S1024x256.size inb_S1024x256_S1024x256_0_0, p0⟩] S1024x256.size (by rfl) y

set_option maxHeartbeats 4000000 in
/-- The body on whole staging buffers, the inputs' at contents `x0 … x4` and the output's at anything, ends with the
    inputs' buffers as they were and the output's at `out0_5` of the inputs. -/
theorem sound_kernel0 (c : Dev nD) (E : Set ℕ) (i : grid0.Coords) (arg1 : Memref sig .tc .vmem S1024x128 .bf16) (harg1 : arg1.IsWhole) (arg2 : Memref sig .tc .vmem S1024x10x128 .bf16) (harg2 : arg2.IsWhole) (arg3 : Memref sig .tc .vmem S128x256 .f32) (harg3 : arg3.IsWhole) (arg4 : Memref sig .tc .vmem S128x256 .f32) (harg4 : arg4.IsWhole) (arg5 : Memref sig .tc .vmem S256 .f32) (harg5 : arg5.IsWhole) (arg6 : Memref sig .tc .vmem S1024x256 .f32) (harg6 : arg6.IsWhole)
    (x0 : Vec F S1024x128 .bf16) (x1 : Vec F S1024x10x128 .bf16) (x2 : Vec F S128x256 .f32) (x3 : Vec F S128x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline on core `c`: the arrays as the region finds them; after the body at point `t`
    each input's buffer at its block and the output's at `out0_5` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1.lean ====
/-
  The second graph-convolution layer's region of the idealized kernel: what its staging buffers hold around the body at every grid point, the body's run, and the pipeline's obligation.
-/
import proofs.«163544_j27779848471357_2_alg».proof.Proof.Gen.KernelIdeal.Launch
import proofs.«163544_j27779848471357_2_alg».proof.Proof.Gen.KernelIdeal.Skeleton
import proofs.«163544_j27779848471357_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: one graph-convolution layer on a block of rows

The body reads the block of destination rows, the ten neighbour slices of the block of gathered rows, the two weight
matrices and the bias, and stores one block of output rows. What follows says what each staging buffer holds before
and after the body at every grid point, runs the body, and states the obligation the pipeline asks of it. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there: where it did not, the block index has not moved since the last fetch and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the pipeline fetched it
    there: where it did not, the block index has not moved since the last fetch and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the pipeline fetched it
    there: where it did not, the block index has not moved since the last fetch and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the pipeline fetched it
    there: where it did not, the block index has not moved since the last fetch and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the pipeline fetched it
    there: where it did not, the block index has not moved since the last fetch and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output block after the body, as a function of the five input blocks: one store of the layer's value over
    the whole block. -/
def out1_5 (x0 : Vec F S256x256 .f32) (x1 : Vec F S256x10x256 .f32) (x2 : Vec F S256x256 .f32) (x3 : Vec F S256x256 .f32) (x4 : Vec F S256 .f32) : Vec F S256x256 .f32 :=
  View.canon [⟨Rect.unit (s := S256x256) ![0, 0] S256x256.size inb_S256x256_S256x256_0_0, k1_pay1 (k1_pay2 (View.ld x0 (Rect.unit (s := S256x256) ![0, 0] S256x256.size inb_S256x256_S256x256_0_0))) (k1_pay3 (View.ld x1 (Rect.unit (s := S256x10x256) ![0, 0, 0] S256x1x256.size inb_S256x10x256_S256x1x256_0_0_0)) (View.ld x1 (Rect.unit (s := S256x10x256) ![0, 1, 0] S256x1x256.size inb_S256x10x256_S256x1x256_0_1_0)) (View.ld x1 (Rect.unit (s := S256x10x256) ![0, 2, 0] S256x1x256.size inb_S256x10x256_S256x1x256_0_2_0)) (View.ld x1 (Rect.unit (s := S256x10x256) ![0, 3, 0] S256x1x256.size inb_S256x10x256_S256x1x256_0_3_0)) (View.ld x1 (Rect.unit (s := S256x10x256) ![0, 4, 0] S256x1x256.size inb_S256x10x256_S256x1x256_0_4_0)) (View.ld x1 (Rect.unit (s := S256x10x256) ![0, 5, 0] S256x1x256.size inb_S256x10x256_S256x1x256_0_5_0)) (View.ld x1 (Rect.unit (s := S256x10x256) ![0, 6, 0] S256x1x256.size inb_S256x10x256_S256x1x256_0_6_0)) (View.ld x1 (Rect.unit (s := S256x10x256) ![0, 7, 0] S256x1x256.size inb_S256x10x256_S256x1x256_0_7_0))) (View.ld x1 (Rect.unit (s := S256x10x256) ![0, 8, 0] S256x1x256.size inb_S256x10x256_S256x1x256_0_8_0)) (View.ld x1 (Rect.unit (s := S256x10x256) ![0, 9, 0] S256x1x256.size inb_S256x10x256_S256x1x256_0_9_0)) (View.ld x2 (Rect.unit (s := S256x256) ![0, 0] S256x256.size inb_S256x256_S256x256_0_0)) (View.ld x3 (Rect.unit (s := S256x256) ![0, 0] S256x256.size inb_S256x256_S256x256_0_0)) (View.ld x4 (Rect.unit (s := S256) ![0] S256.size inb_S256_S256_0))⟩]

/-- The one store covers the whole output block. -/
theorem cover1_5 (p0 : Vec F S256x256 .f32) (y : S256x256.Idx) :
    ∃ pc ∈ ([⟨Rect.unit (s := S256x256) ![0, 0] S256x256.size inb_S256x256_S256x256_0_0, p0⟩] : List (View.Piece (Elt F) S256x256 .f32)), y ∈ pc.1.set :=
  View.cover_of_tiled [⟨Rect.unit (s := S256x256) ![0, 0] S256x256.size inb_S256x256_S256x256_0_0, p0⟩] S256x256.size (by rfl) y

set_option maxHeartbeats 4000000 in
/-- The body on whole staging buffers, the inputs' at contents `x0 … x4` and the output's at anything, ends with the
    inputs' buffers as they were and the output's at `out1_5` of the inputs. -/
theorem sound_kernel1 (c : Dev nD) (E : Set ℕ) (i : grid1.Coords) (arg1 : Memref sig .tc .vmem S256x256 .f32) (harg1 : arg1.IsWhole) (arg2 : Memref sig .tc .vmem S256x10x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole)
    (x0 : Vec F S256x256 .f32) (x1 : Vec F S256x10x256 .f32) (x2 : Vec F S256x256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body at point `t`
    each input's buffer at its block and the output's at `out1_5` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRegion2.lean ====
/-
  The link predictor's region of the idealized kernel: what its staging buffers hold around the body at both grid points, the body's run, and the pipeline's obligation.
-/
import proofs.«163544_j27779848471357_2_alg».proof.Proof.Gen.KernelIdeal.Launch
import proofs.«163544_j27779848471357_2_alg».proof.Proof.Gen.KernelIdeal.Skeleton
import proofs.«163544_j27779848471357_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 2: the link predictor on a block of candidate pairs

The body reads the block of source rows and the block of partner rows (two windows on ONE array, at different blocks),
the three weight matrices and the three biases, and stores one block of scores. -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there: where it did not, the block index has not moved since the last fetch and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the pipeline fetched it
    there: where it did not, the block index has not moved since the last fetch and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the pipeline fetched it
    there: where it did not, the block index has not moved since the last fetch and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not the pipeline fetched it
    there: where it did not, the block index has not moved since the last fetch and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether or not the pipeline fetched it
    there: where it did not, the block index has not moved since the last fetch and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether or not the pipeline fetched it
    there: where it did not, the block index has not moved since the last fetch and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether or not the pipeline fetched it
    there: where it did not, the block index has not moved since the last fetch and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, whether or not the pipeline fetched it
    there: where it did not, the block index has not moved since the last fetch and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The output block after the body, as a function of the input blocks: one store over the whole block. -/
def out2_8 (x0 : Vec F S4096x256 .f32) (x1 : Vec F S4096x256 .f32) (x2 : Vec F S256x256 .f32) (x3 : Vec F S256 .f32) (x4 : Vec F S256x256 .f32) (x5 : Vec F S256 .f32) (x6 : Vec F S256x1 .f32) (x7 : Vec F S1 .f32) : Vec F S4096x1 .f32 :=
  View.canon [⟨Rect.unit (s := S4096x1) ![0, 0] S4096x1.size inb_S4096x1_S4096x1_0_0, k2_pay1 (View.ld x0 (Rect.unit (s := S4096x256) ![0, 0] S4096x256.size inb_S4096x256_S4096x256_0_0)) (View.ld x1 (Rect.unit (s := S4096x256) ![0, 0] S4096x256.size inb_S4096x256_S4096x256_0_0)) (View.ld x2 (Rect.unit (s := S256x256) ![0, 0] S256x256.size inb_S256x256_S256x256_0_0)) (View.ld x3 (Rect.unit (s := S256) ![0] S256.size inb_S256_S256_0)) (View.ld x4 (Rect.unit (s := S256x256) ![0, 0] S256x256.size inb_S256x256_S256x256_0_0)) (View.ld x5 (Rect.unit (s := S256) ![0] S256.size inb_S256_S256_0)) (View.ld x6 (Rect.unit (s := S256x1) ![0, 0] S256x1.size inb_S256x1_S256x1_0_0)) (View.ld x7 (Rect.unit (s := S1) ![0] S1.size inb_S1_S1_0))⟩]

/-- The one store covers the whole output block. -/
theorem cover2_8 (p0 : Vec F S4096x1 .f32) (y : S4096x1.Idx) :
    ∃ pc ∈ ([⟨Rect.unit (s := S4096x1) ![0, 0] S4096x1.size inb_S4096x1_S4096x1_0_0, p0⟩] : List (View.Piece (Elt F) S4096x1 .f32)), y ∈ pc.1.set :=
  View.cover_of_tiled [⟨Rect.unit (s := S4096x1) ![0, 0] S4096x1.size inb_S4096x1_S4096x1_0_0, p0⟩] S4096x1.size (by rfl) y

set_option maxHeartbeats 4000000 in
/-- The body on whole staging buffers, the inputs' at contents `x0 …` and the output's at anything, ends with the
    inputs' buffers as they were and the output's at `out2_8` of the inputs. -/
theorem sound_kernel2 (c : Dev nD) (E : Set ℕ) (i : grid2.Coords) (arg1 : Memref sig .tc .vmem S4096x256 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x1 .f32) (harg7 : arg7.IsWhole) (arg8 : Memref sig .tc .vmem S1 .f32) (harg8 : arg8.IsWhole) (arg9 : Memref sig .tc .vmem S4096x1 .f32) (harg9 : arg9.IsWhole)
    (x0 : Vec F S4096x256 .f32) (x1 : Vec F S4096x256 .f32) (x2 : Vec F S256x256 .f32) (x3 : Vec F S256 .f32) (x4 : Vec F S256x256 .f32) (x5 : Vec F S256 .f32) (x6 : Vec F S256x1 .f32) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__pred_kernel i arg1 harg1 arg2 harg2 arg3 harg3 arg4 harg4 arg5 harg5 arg6 harg6 arg7 harg7 arg8 harg8 arg9 harg9) K := by
  simp only [cc2__pred_kernel_eq_skeleton]; unfold cc2__pred_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-- The proof data of this pipeline on core `c`: the arrays as the region finds them; after the body at point `t`
    each input's buffer at its block and the output's at `out2_8` of the input blocks; the invariant is the scoped
    rest and the generator register, untouched; nothing owed. The array the first two windows share is held half by
    each of them; every other array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KIArrays2.lean ====
/-
  The link predictor's region of the idealized kernel, continued: how the buffers behind its windows' arrays are dealt to the windows at entry and collected at exit, two windows standing on one array.
-/
import proofs.«163544_j27779848471357_2_alg».proof.Proof.Gen.KernelIdeal.Launch
import proofs.«163544_j27779848471357_2_alg».proof.Proof.Gen.KernelIdeal.Skeleton
import proofs.«163544_j27779848471357_2_alg».proof.Proof.Gen.KernelIdeal.Points
import proofs.«163544_j27779848471357_2_alg».proof.Proof.KIRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 2's arrays

Nine windows stand on eight buffers: the two row-block windows read one array. At entry that array's full share is
dealt in halves to the two windows; at exit the halves are rejoined. Every other array is its window's whole. -/

section Arrays2
variable (V : (c : Dev nD) → (b : Ref sig .tc) → Buf (Elt F) ((c : Thread nD τ).loc b))

/-- The buffers behind the nine windows' arrays. -/
theorem image2_eq : (Finset.univ.image (Pipeline.arrRef spec2) : Finset (Ref sig .tc))
    = insert main_v33 (insert main_arg10 (insert main_arg11 (insert main_arg12 (insert main_arg13 (insert main_arg14 (insert main_arg15 {main_v34})))))) := by
  decide

/-- Those eight buffers, each whole at contents `V'`, one by one. -/
theorem arrBufs2_chain (c : Dev nD) (V' : (b : Ref sig .tc) → Buf (Elt F) ((c : Thread nD τ).loc b)) :
    (Pipeline.arrBufs spec2 c V' : sProp 𝕄) = iprop(
      (((c.tc : Thread nD τ).loc main_v33) ↦{fullShare} V' main_v33)
      ∗ (((c.tc : Thread nD τ).loc main_arg10) ↦{fullShare} V' main_arg10)
      ∗ (((c.tc : Thread nD τ).loc main_arg11) ↦{fullShare} V' main_arg11)
      ∗ (((c.tc : Thread nD τ).loc main_arg12) ↦{fullShare} V' main_arg12)
      ∗ (((c.tc : Thread nD τ).loc main_arg13) ↦{fullShare} V' main_arg13)
      ∗ (((c.tc : Thread nD τ).loc main_arg14) ↦{fullShare} V' main_arg14)
      ∗ (((c.tc : Thread nD τ).loc main_arg15) ↦{fullShare} V' main_arg15)
      ∗ (((c.tc : Thread nD τ).loc main_v34) ↦{fullShare} V' main_v34)) := by
  unfold Pipeline.arrBufs
  rw [image2_eq,
    bigSep_insert (by simp only [Finset.mem_insert, Finset.mem_singleton, not_or]; decide),
    bigSep_insert (by simp only [Finset.mem_insert, Finset.mem_singleton, not_or]; decide),
    bigSep_insert (by simp only [Finset.mem_insert, Finset.mem_singleton, not_or]; decide),
    bigSep_insert (by simp only [Finset.mem_insert, Finset.mem_singleton, not_or]; decide),
    bigSep_insert (by simp only [Finset.mem_insert, Finset.mem_singleton, not_or]; decide),
    bigSep_insert (by simp only [Finset.mem_insert, Finset.mem_singleton, not_or]; decide),
    bigSep_insert (by simp only [Finset.mem_singleton]; decide), bigSep_singleton]
  rfl

/-- The pipeline's arrays at contents `G`, window by window at each window's share. -/
theorem arrays2_chain (c : Dev nD) (G : (w : Fin cfg2.W) → Buf (Elt F) ((cfg2.win w).arr.view.loc (c.tc : Thread nD τ))) :
    ((dat2 V c).arrays G : sProp 𝕄) = iprop(
      (((c.tc : Thread nD τ).loc (Pipeline.arrRef spec2 0)) ↦{fullShare.left} G 0)
      ∗ (((c.tc : Thread nD τ).loc (Pipeline.arrRef spec2 1)) ↦{fullShare.right} G 1)
      ∗ (((c.tc : Thread nD τ).loc (Pipeline.arrRef spec2 2)) ↦{fullShare} G 2)
      ∗ (((c.tc : Thread nD τ).loc (Pipeline.arrRef spec2 3)) ↦{fullShare} G 3)
      ∗ (((c.tc : Thread nD τ).loc (Pipeline.arrRef spec2 4)) ↦{fullShare} G 4)
      ∗ (((c.tc : Thread nD τ).loc (Pipeline.arrRef spec2 5)) ↦{fullShare} G 5)
      ∗ (((c.tc : Thread nD τ).loc (Pipeline.arrRef spec2 6)) ↦{fullShare} G 6)
      ∗ (((c.tc : Thread nD τ).loc (Pipeline.arrRef spec2 7)) ↦{fullShare} G 7)
      ∗ (((c.tc : Thread nD τ).loc (Pipeline.arrRef spec2 8)) ↦{fullShare} G 8)) := by
  have h : ((dat2 V c).arrays G : sProp 𝕄)
      = bigSep Finset.univ fun w : Fin cfg2.W => (((c.tc : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- ENTRY: the eight buffers whole at the contents the region finds are the pipeline's arrays at entry. -/
theorem arrays_in2 (c : Dev nD) :
    (Pipeline.arrBufs spec2 c (V c) : sProp 𝕄) ⊢ (dat2 V c).arrays ((dat2 V c).arrAt · 0) := by
  rw [arrays2_chain, arrBufs2_chain]
  iintro ⟨H33, H10, H11, H12, H13, H14, H15, H34⟩
  ihave Hs := (pointsTo_share (PosShare.mem_left_op_right fullShare)).1 $$ H33
  icases Hs with ⟨Ha, Hb⟩
  isplitl [Ha]; · iexact Ha
  isplitl [Hb]; · iexact Hb
  isplitl [H10]; · iexact H10
  isplitl [H11]; · iexact H11
  isplitl [H12]; · iexact H12
  isplitl [H13]; · iexact H13
  isplitl [H14]; · iexact H14
  isplitl [H15]; · iexact H15
  iexact H34

set_option maxHeartbeats 4000000 in
/-- EXIT: the pipeline's arrays at their final contents are the eight buffers whole at any contents `V'` that has the
    output array at what the write-backs leave and every input array as the region found it. -/
theorem arrays_out2 (c : Dev nD) (V' : (b : Ref sig .tc) → Buf (Elt F) ((c : Thread nD τ).loc b))
    (h33 : V' main_v33 = V c main_v33) (h10 : V' main_arg10 = V c main_arg10) (h11 : V' main_arg11 = V c main_arg11)
    (h12 : V' main_arg12 = V c main_arg12) (h13 : V' main_arg13 = V c main_arg13) (h14 : V' main_arg14 = V c main_arg14)
    (h15 : V' main_arg15 = V c main_arg15) (h34 : V' main_v34 = (dat2 V c).arrAt 8 cfg2.N) :
    ((dat2 V c).arrays ((dat2 V c).arrAt · cfg2.N) : sProp 𝕄) ⊢ Pipeline.arrBufs spec2 c V' := by
  rw [arrays2_chain, arrBufs2_chain]
  rw [h33, h10, h11, h12, h13, h14, h15, h34]
  have e0 : (dat2 V c).arrAt 0 cfg2.N = V c main_v33 := ((dat2 V c).arrAt_in 0 rfl _).trans (A_eq2 V c 0)
  have e1 : (dat2 V c).arrAt 1 cfg2.N = V c main_v33 := ((dat2 V c).arrAt_in 1 rfl _).trans (A_eq2 V c 1)
  have e2 : (dat2 V c).arrAt 2 cfg2.N = V c main_arg10 := ((dat2 V c).arrAt_in 2 rfl _).trans (A_eq2 V c 2)
  have e3 : (dat2 V c).arrAt 3 cfg2.N = V c main_arg11 := ((dat2 V c).arrAt_in 3 rfl _).trans (A_eq2 V c 3)
  have e4 : (dat2 V c).arrAt 4 cfg2.N = V c main_arg12 := ((dat2 V c).arrAt_in 4 rfl _).trans (A_eq2 V c 4)
  have e5 : (dat2 V c).arrAt 5 cfg2.N = V c main_arg13 := ((dat2 V c).arrAt_in 5 rfl _).trans (A_eq2 V c 5)
  have e6 : (dat2 V c).arrAt 6 cfg2.N = V c main_arg14 := ((dat2 V c).arrAt_in 6 rfl _).trans (A_eq2 V c 6)
  have e7 : (dat2 V c).arrAt 7 cfg2.N = V c main_arg15 := ((dat2 V c).arrAt_in 7 rfl _).trans (A_eq2 V c 7)
  rw [e0, e1, e2, e3, e4, e5, e6, e7]
  iintro ⟨Ha, Hb, H10, H11, H12, H13, H14, H15, H34⟩
  isplitl [Ha Hb]
  · iapply (pointsTo_share (PosShare.mem_left_op_right fullShare)).2
    isplitl [Ha]; · iexact Ha
    iexact Hb
  isplitl [H10]; · iexact H10
  isplitl [H11]; · iexact H11
  isplitl [H12]; · iexact H12
  isplitl [H13]; · iexact H13
  isplitl [H14]; · iexact H14
  isplitl [H15]; · iexact H15
  iexact H34

end Arrays2

end Cert.KernelIdeal.Hand

end
-- ==== Proof.KIRun.lean ====
/-
  The idealized kernel's run: the contents of the buffers at each boundary between host stretches and regions, the three regions as segments of the program, and the launch; read at the end, every argument array is as launched and the result array is what the last region's write-backs leave.
-/
import proofs.«163544_j27779848471357_2_alg».proof.Proof.Gen.KernelIdeal.Launch
import proofs.«163544_j27779848471357_2_alg».proof.Proof.Gen.KernelIdeal.Skeleton
import proofs.«163544_j27779848471357_2_alg».proof.Proof.Gen.KernelIdeal.Points
import proofs.«163544_j27779848471357_2_alg».proof.Proof.Gen.KernelIdeal.Regions
import proofs.«163544_j27779848471357_2_alg».proof.Proof.KIRegion0
import proofs.«163544_j27779848471357_2_alg».proof.Proof.KIRegion1
import proofs.«163544_j27779848471357_2_alg».proof.Proof.KIArrays2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run: the program's segments from the launch to the return

The contents of the TensorCore's buffers at each boundary between segments are a fold through the program: a host
stretch applies its operations; a region leaves its output array at what its write-backs produce and everything else
as it was. -/

variable (m : (ℓ : Loc nD τ sig) → Buf (Elt F) ℓ) (ρ : Dev nD → PrngReg)

/-- Core `c`'s buffers at launch. -/
abbrev Wd0 : Dev nD → Valuation τ sig (Elt F) := fun c b => m (c, b)
/-- After the first host stretch (region 0's entry). -/
abbrev Wd1 : Dev nD → Valuation τ sig (Elt F) := fun c => StableHlo.after hostOps0 (Wd0 m c)
abbrev At1 : (c : Dev nD) → (b : Ref sig .tc) → Buf (Elt F) ((c : Thread nD τ).loc b) := fun c b => Wd1 m c b

/-- After region 0: its arrays at what the pipeline leaves (the inputs as entered, the output's write-backs folded),
    every other buffer as entered. -/
def Wd2 (c : Dev nD) : Valuation τ sig (Elt F) :=
  Pipeline.withArrays spec0 c (Wd1 m c) fun w => (dat0 (At1 m) c).arrAt w cfg0.N
theorem Wd2_arr (c : Dev nD) (w : Fin cfg0.W) :
    Wd2 m c (Proc.devRef .tc (Pipeline.arrRef spec0 w)) = (dat0 (At1 m) c).arrAt w cfg0.N := by
  unfold Wd2; exact Pipeline.withArrays_arr spec0 launch0.win.arr_inj c _ _ w
theorem Wd2_of_ne (c : Dev nD) (b : Ref sig .tc) (hb : ∀ w, Pipeline.arrRef spec0 w ≠ b) :
    Wd2 m c (Proc.devRef .tc b) = Wd1 m c (Proc.devRef .tc b) := by
  unfold Wd2; exact Pipeline.withArrays_of_ne spec0 c _ _ b hb
/-- The same read at the TensorCore's references. -/
abbrev At2 : (c : Dev nD) → (b : Ref sig .tc) → Buf (Elt F) ((c : Thread nD τ).loc b) := fun c b => Wd2 m c b
theorem hF0 (c : Dev nD) (w : Fin cfg0.W) : (dat0 (At1 m) c).arrAt w cfg0.N = At2 m c (Pipeline.arrRef spec0 w) :=
  (Wd2_arr m c w).symm
theorem hrest0 (c : Dev nD) : ∀ b, b ∉ Finset.univ.image (Pipeline.arrRef spec0) → At2 m c b = At1 m c b :=
  fun b hb => Wd2_of_ne m c b fun w e => hb (Finset.mem_image.mpr ⟨w, Finset.mem_univ _, e⟩)
/-- An input window's array is as the region found it. -/
theorem Wd2_in (c : Dev nD) (w : Fin cfg0.W) (hw : (cfg0.win w).isOut = false) :
    Wd2 m c (Proc.devRef .tc (Pipeline.arrRef spec0 w)) = Wd1 m c (Proc.devRef .tc (Pipeline.arrRef spec0 w)) :=
  (Wd2_arr m c w).trans (((dat0 (At1 m) c).arrAt_in w hw _).trans (A_eq0 (At1 m) c w))

/-- After the second host stretch (region 1's entry). -/
abbrev Wd3 : Dev nD → Valuation τ sig (Elt F) := fun c => StableHlo.after hostOps1 (Wd2 m c)
abbrev At3 : (c : Dev nD) → (b : Ref sig .tc) → Buf (Elt F) ((c : Thread nD τ).loc b) := fun c b => Wd3 m c b

/-- After region 1: its arrays at what the pipeline leaves (the inputs as entered, the output's write-backs folded),
    every other buffer as entered. -/
def Wd4 (c : Dev nD) : Valuation τ sig (Elt F) :=
  Pipeline.withArrays spec1 c (Wd3 m c) fun w => (dat1 (At3 m) c).arrAt w cfg1.N
theorem Wd4_arr (c : Dev nD) (w : Fin cfg1.W) :
    Wd4 m c (Proc.devRef .tc (Pipeline.arrRef spec1 w)) = (dat1 (At3 m) c).arrAt w cfg1.N := by
  unfold Wd4; exact Pipeline.withArrays_arr spec1 launch1.win.arr_inj c _ _ w
theorem Wd4_of_ne (c : Dev nD) (b : Ref sig .tc) (hb : ∀ w, Pipeline.arrRef spec1 w ≠ b) :
    Wd4 m c (Proc.devRef .tc b) = Wd3 m c (Proc.devRef .tc b) := by
  unfold Wd4; exact Pipeline.withArrays_of_ne spec1 c _ _ b hb
/-- The same read at the TensorCore's references. -/
abbrev At4 : (c : Dev nD) → (b : Ref sig .tc) → Buf (Elt F) ((c : Thread nD τ).loc b) := fun c b => Wd4 m c b
theorem hF1 (c : Dev nD) (w : Fin cfg1.W) : (dat1 (At3 m) c).arrAt w cfg1.N = At4 m c (Pipeline.arrRef spec1 w) :=
  (Wd4_arr m c w).symm
theorem hrest1 (c : Dev nD) : ∀ b, b ∉ Finset.univ.image (Pipeline.arrRef spec1) → At4 m c b = At3 m c b :=
  fun b hb => Wd4_of_ne m c b fun w e => hb (Finset.mem_image.mpr ⟨w, Finset.mem_univ _, e⟩)
/-- An input window's array is as the region found it. -/
theorem Wd4_in (c : Dev nD) (w : Fin cfg1.W) (hw : (cfg1.win w).isOut = false) :
    Wd4 m c (Proc.devRef .tc (Pipeline.arrRef spec1 w)) = Wd3 m c (Proc.devRef .tc (Pipeline.arrRef spec1 w)) :=
  (Wd4_arr m c w).trans (((dat1 (At3 m) c).arrAt_in w hw _).trans (A_eq1 (At3 m) c w))

/-- What region 2 leaves in its output array: the write-backs of its two points folded. -/
def res5 (c : Dev nD) : Buf (Elt F) ((c : Thread nD τ).loc main_v34) := (dat2 (At4 m) c).arrAt 8 cfg2.N
/-- After region 2: its output array at `res5`, every other buffer as entered. -/
def Wd5 (c : Dev nD) : Valuation τ sig (Elt F) := Function.update (Wd4 m c) main_v34 (res5 m c)
theorem Wd5_out (c : Dev nD) : Wd5 m c (Proc.devRef .tc main_v34) = res5 m c := by
  unfold Wd5; exact Function.update_self _ _ _
theorem Wd5_of_ne (c : Dev nD) (b : Ref sig .tc) (hb : b ≠ main_v34) : Wd5 m c (Proc.devRef .tc b) = Wd4 m c (Proc.devRef .tc b) := by
  unfold Wd5; exact Function.update_of_ne (StableHlo.devRef_ne_of_ne hb) _ _
abbrev At5 : (c : Dev nD) → (b : Ref sig .tc) → Buf (Elt F) ((c : Thread nD τ).loc b) := fun c b => Wd5 m c b

/-! ### No host operation writes an argument and no region's output is one: at every boundary each argument's
    buffer holds what it held at launch -/

theorem Wd1_main_arg0 (c : Dev nD) : Wd1 m c (Proc.devRef .tc main_arg0) = m ((c : Thread nD τ).loc main_arg0) :=
  StableHlo.after_of_writes_sub hostOps0 _ hostOps0_writes (show main_arg0 ∉ hostOps0_W by decide)
theorem Wd2_main_arg0 (c : Dev nD) : Wd2 m c (Proc.devRef .tc main_arg0) = m ((c : Thread nD τ).loc main_arg0) :=
  (Wd2_of_ne m c main_arg0 (by decide)).trans (Wd1_main_arg0 m c)
theorem Wd3_main_arg0 (c : Dev nD) : Wd3 m c (Proc.devRef .tc main_arg0) = m ((c : Thread nD τ).loc main_arg0) :=
  (StableHlo.after_of_writes_sub hostOps1 _ hostOps1_writes (show main_arg0 ∉ hostOps1_W by decide)).trans (Wd2_main_arg0 m c)
theorem Wd4_main_arg0 (c : Dev nD) : Wd4 m c (Proc.devRef .tc main_arg0) = m ((c : Thread nD τ).loc main_arg0) :=
  (Wd4_of_ne m c main_arg0 (by decide)).trans (Wd3_main_arg0 m c)
theorem Wd5_main_arg0 (c : Dev nD) : Wd5 m c (Proc.devRef .tc main_arg0) = m ((c : Thread nD τ).loc main_arg0) :=
  (Wd5_of_ne m c main_arg0 (by decide)).trans (Wd4_main_arg0 m c)
theorem Wd1_main_arg1 (c : Dev nD) : Wd1 m c (Proc.devRef .tc main_arg1) = m ((c : Thread nD τ).loc main_arg1) :=
  StableHlo.after_of_writes_sub hostOps0 _ hostOps0_writes (show main_arg1 ∉ hostOps0_W by decide)
theorem Wd2_main_arg1 (c : Dev nD) : Wd2 m c (Proc.devRef .tc main_arg1) = m ((c : Thread nD τ).loc main_arg1) :=
  (Wd2_of_ne m c main_arg1 (by decide)).trans (Wd1_main_arg1 m c)
theorem Wd3_main_arg1 (c : Dev nD) : Wd3 m c (Proc.devRef .tc main_arg1) = m ((c : Thread nD τ).loc main_arg1) :=
  (StableHlo.after_of_writes_sub hostOps1 _ hostOps1_writes (show main_arg1 ∉ hostOps1_W by decide)).trans (Wd2_main_arg1 m c)
theorem Wd4_main_arg1 (c : Dev nD) : Wd4 m c (Proc.devRef .tc main_arg1) = m ((c : Thread nD τ).loc main_arg1) :=
  (Wd4_of_ne m c main_arg1 (by decide)).trans (Wd3_main_arg1 m c)
theorem Wd5_main_arg1 (c : Dev nD) : Wd5 m c (Proc.devRef .tc main_arg1) = m ((c : Thread nD τ).loc main_arg1) :=
  (Wd5_of_ne m c main_arg1 (by decide)).trans (Wd4_main_arg1 m c)
theorem Wd1_main_arg2 (c : Dev nD) : Wd1 m c (Proc.devRef .tc main_arg2) = m ((c : Thread nD τ).loc main_arg2) :=
  StableHlo.after_of_writes_sub hostOps0 _ hostOps0_writes (show main_arg2 ∉ hostOps0_W by decide)
theorem Wd2_main_arg2 (c : Dev nD) : Wd2 m c (Proc.devRef .tc main_arg2) = m ((c : Thread nD τ).loc main_arg2) :=
  (Wd2_of_ne m c main_arg2 (by decide)).trans (Wd1_main_arg2 m c)
theorem Wd3_main_arg2 (c : Dev nD) : Wd3 m c (Proc.devRef .tc main_arg2) = m ((c : Thread nD τ).loc main_arg2) :=
  (StableHlo.after_of_writes_sub hostOps1 _ hostOps1_writes (show main_arg2 ∉ hostOps1_W by decide)).trans (Wd2_main_arg2 m c)
theorem Wd4_main_arg2 (c : Dev nD) : Wd4 m c (Proc.devRef .tc main_arg2) = m ((c : Thread nD τ).loc main_arg2) :=
  (Wd4_of_ne m c main_arg2 (by decide)).trans (Wd3_main_arg2 m c)
theorem Wd5_main_arg2 (c : Dev nD) : Wd5 m c (Proc.devRef .tc main_arg2) = m ((c : Thread nD τ).loc main_arg2) :=
  (Wd5_of_ne m c main_arg2 (by decide)).trans (Wd4_main_arg2 m c)
theorem Wd1_main_arg3 (c : Dev nD) : Wd1 m c (Proc.devRef .tc main_arg3) = m ((c : Thread nD τ).loc main_arg3) :=
  StableHlo.after_of_writes_sub hostOps0 _ hostOps0_writes (show main_arg3 ∉ hostOps0_W by decide)
theorem Wd2_main_arg3 (c : Dev nD) : Wd2 m c (Proc.devRef .tc main_arg3) = m ((c : Thread nD τ).loc main_arg3) :=
  (Wd2_of_ne m c main_arg3 (by decide)).trans (Wd1_main_arg3 m c)
theorem Wd3_main_arg3 (c : Dev nD) : Wd3 m c (Proc.devRef .tc main_arg3) = m ((c : Thread nD τ).loc main_arg3) :=
  (StableHlo.after_of_writes_sub hostOps1 _ hostOps1_writes (show main_arg3 ∉ hostOps1_W by decide)).trans (Wd2_main_arg3 m c)
theorem Wd4_main_arg3 (c : Dev nD) : Wd4 m c (Proc.devRef .tc main_arg3) = m ((c : Thread nD τ).loc main_arg3) :=
  (Wd4_of_ne m c main_arg3 (by decide)).trans (Wd3_main_arg3 m c)
theorem Wd5_main_arg3 (c : Dev nD) : Wd5 m c (Proc.devRef .tc main_arg3) = m ((c : Thread nD τ).loc main_arg3) :=
  (Wd5_of_ne m c main_arg3 (by decide)).trans (Wd4_main_arg3 m c)
theorem Wd1_main_arg4 (c : Dev nD) : Wd1 m c (Proc.devRef .tc main_arg4) = m ((c : Thread nD τ).loc main_arg4) :=
  StableHlo.after_of_writes_sub hostOps0 _ hostOps0_writes (show main_arg4 ∉ hostOps0_W by decide)
theorem Wd2_main_arg4 (c : Dev nD) : Wd2 m c (Proc.devRef .tc main_arg4) = m ((c : Thread nD τ).loc main_arg4) :=
  (Wd2_in m c 2 rfl).trans (Wd1_main_arg4 m c)
theorem Wd3_main_arg4 (c : Dev nD) : Wd3 m c (Proc.devRef .tc main_arg4) = m ((c : Thread nD τ).loc main_arg4) :=
  (StableHlo.after_of_writes_sub hostOps1 _ hostOps1_writes (show main_arg4 ∉ hostOps1_W by decide)).trans (Wd2_main_arg4 m c)
theorem Wd4_main_arg4 (c : Dev nD) : Wd4 m c (Proc.devRef .tc main_arg4) = m ((c : Thread nD τ).loc main_arg4) :=
  (Wd4_of_ne m c main_arg4 (by decide)).trans (Wd3_main_arg4 m c)
theorem Wd5_main_arg4 (c : Dev nD) : Wd5 m c (Proc.devRef .tc main_arg4) = m ((c : Thread nD τ).loc main_arg4) :=
  (Wd5_of_ne m c main_arg4 (by decide)).trans (Wd4_main_arg4 m c)
theorem Wd1_main_arg5 (c : Dev nD) : Wd1 m c (Proc.devRef .tc main_arg5) = m ((c : Thread nD τ).loc main_arg5) :=
  StableHlo.after_of_writes_sub hostOps0 _ hostOps0_writes (show main_arg5 ∉ hostOps0_W by decide)
theorem Wd2_main_arg5 (c : Dev nD) : Wd2 m c (Proc.devRef .tc main_arg5) = m ((c : Thread nD τ).loc main_arg5) :=
  (Wd2_in m c 3 rfl).trans (Wd1_main_arg5 m c)
theorem Wd3_main_arg5 (c : Dev nD) : Wd3 m c (Proc.devRef .tc main_arg5) = m ((c : Thread nD τ).loc main_arg5) :=
  (StableHlo.after_of_writes_sub hostOps1 _ hostOps1_writes (show main_arg5 ∉ hostOps1_W by decide)).trans (Wd2_main_arg5 m c)
theorem Wd4_main_arg5 (c : Dev nD) : Wd4 m c (Proc.devRef .tc main_arg5) = m ((c : Thread nD τ).loc main_arg5) :=
  (Wd4_of_ne m c main_arg5 (by decide)).trans (Wd3_main_arg5 m c)
theorem Wd5_main_arg5 (c : Dev nD) : Wd5 m c (Proc.devRef .tc main_arg5) = m ((c : Thread nD τ).loc main_arg5) :=
  (Wd5_of_ne m c main_arg5 (by decide)).trans (Wd4_main_arg5 m c)
theorem Wd1_main_arg6 (c : Dev nD) : Wd1 m c (Proc.devRef .tc main_arg6) = m ((c : Thread nD τ).loc main_arg6) :=
  StableHlo.after_of_writes_sub hostOps0 _ hostOps0_writes (show main_arg6 ∉ hostOps0_W by decide)
theorem Wd2_main_arg6 (c : Dev nD) : Wd2 m c (Proc.devRef .tc main_arg6) = m ((c : Thread nD τ).loc main_arg6) :=
  (Wd2_in m c 4 rfl).trans (Wd1_main_arg6 m c)
theorem Wd3_main_arg6 (c : Dev nD) : Wd3 m c (Proc.devRef .tc main_arg6) = m ((c : Thread nD τ).loc main_arg6) :=
  (StableHlo.after_of_writes_sub hostOps1 _ hostOps1_writes (show main_arg6 ∉ hostOps1_W by decide)).trans (Wd2_main_arg6 m c)
theorem Wd4_main_arg6 (c : Dev nD) : Wd4 m c (Proc.devRef .tc main_arg6) = m ((c : Thread nD τ).loc main_arg6) :=
  (Wd4_of_ne m c main_arg6 (by decide)).trans (Wd3_main_arg6 m c)
theorem Wd5_main_arg6 (c : Dev nD) : Wd5 m c (Proc.devRef .tc main_arg6) = m ((c : Thread nD τ).loc main_arg6) :=
  (Wd5_of_ne m c main_arg6 (by decide)).trans (Wd4_main_arg6 m c)
theorem Wd1_main_arg7 (c : Dev nD) : Wd1 m c (Proc.devRef .tc main_arg7) = m ((c : Thread nD τ).loc main_arg7) :=
  StableHlo.after_of_writes_sub hostOps0 _ hostOps0_writes (show main_arg7 ∉ hostOps0_W by decide)
theorem Wd2_main_arg7 (c : Dev nD) : Wd2 m c (Proc.devRef .tc main_arg7) = m ((c : Thread nD τ).loc main_arg7) :=
  (Wd2_of_ne m c main_arg7 (by decide)).trans (Wd1_main_arg7 m c)
theorem Wd3_main_arg7 (c : Dev nD) : Wd3 m c (Proc.devRef .tc main_arg7) = m ((c : Thread nD τ).loc main_arg7) :=
  (StableHlo.after_of_writes_sub hostOps1 _ hostOps1_writes (show main_arg7 ∉ hostOps1_W by decide)).trans (Wd2_main_arg7 m c)
theorem Wd4_main_arg7 (c : Dev nD) : Wd4 m c (Proc.devRef .tc main_arg7) = m ((c : Thread nD τ).loc main_arg7) :=
  (Wd4_in m c 2 rfl).trans (Wd3_main_arg7 m c)
theorem Wd5_main_arg7 (c : Dev nD) : Wd5 m c (Proc.devRef .tc main_arg7) = m ((c : Thread nD τ).loc main_arg7) :=
  (Wd5_of_ne m c main_arg7 (by decide)).trans (Wd4_main_arg7 m c)
theorem Wd1_main_arg8 (c : Dev nD) : Wd1 m c (Proc.devRef .tc main_arg8) = m ((c : Thread nD τ).loc main_arg8) :=
  StableHlo.after_of_writes_sub hostOps0 _ hostOps0_writes (show main_arg8 ∉ hostOps0_W by decide)
theorem Wd2_main_arg8 (c : Dev nD) : Wd2 m c (Proc.devRef .tc main_arg8) = m ((c : Thread nD τ).loc main_arg8) :=
  (Wd2_of_ne m c main_arg8 (by decide)).trans (Wd1_main_arg8 m c)
theorem Wd3_main_arg8 (c : Dev nD) : Wd3 m c (Proc.devRef .tc main_arg8) = m ((c : Thread nD τ).loc main_arg8) :=
  (StableHlo.after_of_writes_sub hostOps1 _ hostOps1_writes (show main_arg8 ∉ hostOps1_W by decide)).trans (Wd2_main_arg8 m c)
theorem Wd4_main_arg8 (c : Dev nD) : Wd4 m c (Proc.devRef .tc main_arg8) = m ((c : Thread nD τ).loc main_arg8) :=
  (Wd4_in m c 3 rfl).trans (Wd3_main_arg8 m c)
theorem Wd5_main_arg8 (c : Dev nD) : Wd5 m c (Proc.devRef .tc main_arg8) = m ((c : Thread nD τ).loc main_arg8) :=
  (Wd5_of_ne m c main_arg8 (by decide)).trans (Wd4_main_arg8 m c)
theorem Wd1_main_arg9 (c : Dev nD) : Wd1 m c (Proc.devRef .tc main_arg9) = m ((c : Thread nD τ).loc main_arg9) :=
  StableHlo.after_of_writes_sub hostOps0 _ hostOps0_writes (show main_arg9 ∉ hostOps0_W by decide)
theorem Wd2_main_arg9 (c : Dev nD) : Wd2 m c (Proc.devRef .tc main_arg9) = m ((c : Thread nD τ).loc main_arg9) :=
  (Wd2_of_ne m c main_arg9 (by decide)).trans (Wd1_main_arg9 m c)
theorem Wd3_main_arg9 (c : Dev nD) : Wd3 m c (Proc.devRef .tc main_arg9) = m ((c : Thread nD τ).loc main_arg9) :=
  (StableHlo.after_of_writes_sub hostOps1 _ hostOps1_writes (show main_arg9 ∉ hostOps1_W by decide)).trans (Wd2_main_arg9 m c)
theorem Wd4_main_arg9 (c : Dev nD) : Wd4 m c (Proc.devRef .tc main_arg9) = m ((c : Thread nD τ).loc main_arg9) :=
  (Wd4_in m c 4 rfl).trans (Wd3_main_arg9 m c)
theorem Wd5_main_arg9 (c : Dev nD) : Wd5 m c (Proc.devRef .tc main_arg9) = m ((c : Thread nD τ).loc main_arg9) :=
  (Wd5_of_ne m c main_arg9 (by decide)).trans (Wd4_main_arg9 m c)
theorem Wd1_main_arg10 (c : Dev nD) : Wd1 m c (Proc.devRef .tc main_arg10) = m ((c : Thread nD τ).loc main_arg10) :=
  StableHlo.after_of_writes_sub hostOps0 _ hostOps0_writes (show main_arg10 ∉ hostOps0_W by decide)
theorem Wd2_main_arg10 (c : Dev nD) : Wd2 m c (Proc.devRef .tc main_arg10) = m ((c : Thread nD τ).loc main_arg10) :=
  (Wd2_of_ne m c main_arg10 (by decide)).trans (Wd1_main_arg10 m c)
theorem Wd3_main_arg10 (c : Dev nD) : Wd3 m c (Proc.devRef .tc main_arg10) = m ((c : Thread nD τ).loc main_arg10) :=
  (StableHlo.after_of_writes_sub hostOps1 _ hostOps1_writes (show main_arg10 ∉ hostOps1_W by decide)).trans (Wd2_main_arg10 m c)
theorem Wd4_main_arg10 (c : Dev nD) : Wd4 m c (Proc.devRef .tc main_arg10) = m ((c : Thread nD τ).loc main_arg10) :=
  (Wd4_of_ne m c main_arg10 (by decide)).trans (Wd3_main_arg10 m c)
theorem Wd5_main_arg10 (c : Dev nD) : Wd5 m c (Proc.devRef .tc main_arg10) = m ((c : Thread nD τ).loc main_arg10) :=
  (Wd5_of_ne m c main_arg10 (by decide)).trans (Wd4_main_arg10 m c)
theorem Wd1_main_arg11 (c : Dev nD) : Wd1 m c (Proc.devRef .tc main_arg11) = m ((c : Thread nD τ).loc main_arg11) :=
  StableHlo.after_of_writes_sub hostOps0 _ hostOps0_writes (show main_arg11 ∉ hostOps0_W by decide)
theorem Wd2_main_arg11 (c : Dev nD) : Wd2 m c (Proc.devRef .tc main_arg11) = m ((c : Thread nD τ).loc main_arg11) :=
  (Wd2_of_ne m c main_arg11 (by decide)).trans (Wd1_main_arg11 m c)
theorem Wd3_main_arg11 (c : Dev nD) : Wd3 m c (Proc.devRef .tc main_arg11) = m ((c : Thread nD τ).loc main_arg11) :=
  (StableHlo.after_of_writes_sub hostOps1 _ hostOps1_writes (show main_arg11 ∉ hostOps1_W by decide)).trans (Wd2_main_arg11 m c)
theorem Wd4_main_arg11 (c : Dev nD) : Wd4 m c (Proc.devRef .tc main_arg11) = m ((c : Thread nD τ).loc main_arg11) :=
  (Wd4_of_ne m c main_arg11 (by decide)).trans (Wd3_main_arg11 m c)
theorem Wd5_main_arg11 (c : Dev nD) : Wd5 m c (Proc.devRef .tc main_arg11) = m ((c : Thread nD τ).loc main_arg11) :=
  (Wd5_of_ne m c main_arg11 (by decide)).trans (Wd4_main_arg11 m c)
theorem Wd1_main_arg12 (c : Dev nD) : Wd1 m c (Proc.devRef .tc main_arg12) = m ((c : Thread nD τ).loc main_arg12) :=
  StableHlo.after_of_writes_sub hostOps0 _ hostOps0_writes (show main_arg12 ∉ hostOps0_W by decide)
theorem Wd2_main_arg12 (c : Dev nD) : Wd2 m c (Proc.devRef .tc main_arg12) = m ((c : Thread nD τ).loc main_arg12) :=
  (Wd2_of_ne m c main_arg12 (by decide)).trans (Wd1_main_arg12 m c)
theorem Wd3_main_arg12 (c : Dev nD) : Wd3 m c (Proc.devRef .tc main_arg12) = m ((c : Thread nD τ).loc main_arg12) :=
  (StableHlo.after_of_writes_sub hostOps1 _ hostOps1_writes (show main_arg12 ∉ hostOps1_W by decide)).trans (Wd2_main_arg12 m c)
theorem Wd4_main_arg12 (c : Dev nD) : Wd4 m c (Proc.devRef .tc main_arg12) = m ((c : Thread nD τ).loc main_arg12) :=
  (Wd4_of_ne m c main_arg12 (by decide)).trans (Wd3_main_arg12 m c)
theorem Wd5_main_arg12 (c : Dev nD) : Wd5 m c (Proc.devRef .tc main_arg12) = m ((c : Thread nD τ).loc main_arg12) :=
  (Wd5_of_ne m c main_arg12 (by decide)).trans (Wd4_main_arg12 m c)
theorem Wd1_main_arg13 (c : Dev nD) : Wd1 m c (Proc.devRef .tc main_arg13) = m ((c : Thread nD τ).loc main_arg13) :=
  StableHlo.after_of_writes_sub hostOps0 _ hostOps0_writes (show main_arg13 ∉ hostOps0_W by decide)
theorem Wd2_main_arg13 (c : Dev nD) : Wd2 m c (Proc.devRef .tc main_arg13) = m ((c : Thread nD τ).loc main_arg13) :=
  (Wd2_of_ne m c main_arg13 (by decide)).trans (Wd1_main_arg13 m c)
theorem Wd3_main_arg13 (c : Dev nD) : Wd3 m c (Proc.devRef .tc main_arg13) = m ((c : Thread nD τ).loc main_arg13) :=
  (StableHlo.after_of_writes_sub hostOps1 _ hostOps1_writes (show main_arg13 ∉ hostOps1_W by decide)).trans (Wd2_main_arg13 m c)
theorem Wd4_main_arg13 (c : Dev nD) : Wd4 m c (Proc.devRef .tc main_arg13) = m ((c : Thread nD τ).loc main_arg13) :=
  (Wd4_of_ne m c main_arg13 (by decide)).trans (Wd3_main_arg13 m c)
theorem Wd5_main_arg13 (c : Dev nD) : Wd5 m c (Proc.devRef .tc main_arg13) = m ((c : Thread nD τ).loc main_arg13) :=
  (Wd5_of_ne m c main_arg13 (by decide)).trans (Wd4_main_arg13 m c)
theorem Wd1_main_arg14 (c : Dev nD) : Wd1 m c (Proc.devRef .tc main_arg14) = m ((c : Thread nD τ).loc main_arg14) :=
  StableHlo.after_of_writes_sub hostOps0 _ hostOps0_writes (show main_arg14 ∉ hostOps0_W by decide)
theorem Wd2_main_arg14 (c : Dev nD) : Wd2 m c (Proc.devRef .tc main_arg14) = m ((c : Thread nD τ).loc main_arg14) :=
  (Wd2_of_ne m c main_arg14 (by decide)).trans (Wd1_main_arg14 m c)
theorem Wd3_main_arg14 (c : Dev nD) : Wd3 m c (Proc.devRef .tc main_arg14) = m ((c : Thread nD τ).loc main_arg14) :=
  (StableHlo.after_of_writes_sub hostOps1 _ hostOps1_writes (show main_arg14 ∉ hostOps1_W by decide)).trans (Wd2_main_arg14 m c)
theorem Wd4_main_arg14 (c : Dev nD) : Wd4 m c (Proc.devRef .tc main_arg14) = m ((c : Thread nD τ).loc main_arg14) :=
  (Wd4_of_ne m c main_arg14 (by decide)).trans (Wd3_main_arg14 m c)
theorem Wd5_main_arg14 (c : Dev nD) : Wd5 m c (Proc.devRef .tc main_arg14) = m ((c : Thread nD τ).loc main_arg14) :=
  (Wd5_of_ne m c main_arg14 (by decide)).trans (Wd4_main_arg14 m c)
theorem Wd1_main_arg15 (c : Dev nD) : Wd1 m c (Proc.devRef .tc main_arg15) = m ((c : Thread nD τ).loc main_arg15) :=
  StableHlo.after_of_writes_sub hostOps0 _ hostOps0_writes (show main_arg15 ∉ hostOps0_W by decide)
theorem Wd2_main_arg15 (c : Dev nD) : Wd2 m c (Proc.devRef .tc main_arg15) = m ((c : Thread nD τ).loc main_arg15) :=
  (Wd2_of_ne m c main_arg15 (by decide)).trans (Wd1_main_arg15 m c)
theorem Wd3_main_arg15 (c : Dev nD) : Wd3 m c (Proc.devRef .tc main_arg15) = m ((c : Thread nD τ).loc main_arg15) :=
  (StableHlo.after_of_writes_sub hostOps1 _ hostOps1_writes (show main_arg15 ∉ hostOps1_W by decide)).trans (Wd2_main_arg15 m c)
theorem Wd4_main_arg15 (c : Dev nD) : Wd4 m c (Proc.devRef .tc main_arg15) = m ((c : Thread nD τ).loc main_arg15) :=
  (Wd4_of_ne m c main_arg15 (by decide)).trans (Wd3_main_arg15 m c)
theorem Wd5_main_arg15 (c : Dev nD) : Wd5 m c (Proc.devRef .tc main_arg15) = m ((c : Thread nD τ).loc main_arg15) :=
  (Wd5_of_ne m c main_arg15 (by decide)).trans (Wd4_main_arg15 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (At1 m) c
  | ⟨1, _⟩ => fun c => dat1 (At3 m) c
  | ⟨2, _⟩ => fun c => dat2 (At4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (Wd5 m c) ∗ ∃ r, prngReg c r)

/-! ## The regions as segments -/

set_option backward.isDefEq.respectTransparency.types false in
/-- Region 0 over the thread state: entered with every unscoped buffer at the boundary's contents, left with its
    output array at what the write-backs leave and every other buffer as entered. Its arrays are split out of the
    unscoped buffers and put back; the generator register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (At1 m) c).loose
  hwaits := Pipeline.hwaits_of_owed_zero _ _ _ _ L lv 0 fun _ _ => rfl
  pre c := iprop(StableHlo.held (c : Thread nD τ) (Pipeline.ucRefs τ sig) (Wd1 m c) ∗ R c)
  post c := iprop(StableHlo.held (c : Thread nD τ) (Pipeline.ucRefs τ sig) (Wd2 m c) ∗ R c)
  X c := iprop(∃ r, prngReg c r)
  Y c := iprop(∃ r, prngReg c r)
  Z c := Pipeline.unscopedRest (Ix := Unit) (Name := ℕ) (U := UR sig nD τ) (Lvl := ℕ) spec0 c (At1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (At1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (At1 m c) (At2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with its
    output array at what the write-backs leave and every other buffer as entered. Its arrays are split out of the
    unscoped buffers and put back; the generator register goes into the invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (At3 m) c).loose
  hwaits := Pipeline.hwaits_of_owed_zero _ _ _ _ L lv 1 fun _ _ => rfl
  pre c := iprop(StableHlo.held (c : Thread nD τ) (Pipeline.ucRefs τ sig) (Wd3 m c) ∗ R c)
  post c := iprop(StableHlo.held (c : Thread nD τ) (Pipeline.ucRefs τ sig) (Wd4 m c) ∗ R c)
  X c := iprop(∃ r, prngReg c r)
  Y c := iprop(∃ r, prngReg c r)
  Z c := Pipeline.unscopedRest (Ix := Unit) (Name := ℕ) (U := UR sig nD τ) (Lvl := ℕ) spec1 c (At3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (At3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (At3 m c) (At4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 2's arrays the last boundary's contents are the entry's. -/
theorem hrest2 (c : Dev nD) : ∀ b, b ∉ Finset.univ.image (Pipeline.arrRef spec2) → At5 m c b = At4 m c b :=
  fun b hb => Wd5_of_ne m c b fun e => hb (by rw [e]; exact Finset.mem_image.mpr ⟨8, Finset.mem_univ _, rfl⟩)

set_option backward.isDefEq.respectTransparency.types false in
/-- Region 2 over the thread state: as the other two, but its two row-block windows stand on one array, whose share is
    dealt to them in halves at entry and rejoined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (At4 m) c).loose
  hwaits := Pipeline.hwaits_of_owed_zero _ _ _ _ L lv 2 fun _ _ => rfl
  pre c := iprop(StableHlo.held (c : Thread nD τ) (Pipeline.ucRefs τ sig) (Wd4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (At4 m c)
  hentry c := by
    rw [Pipeline.ownSems0_none]
    have hsplit : (StableHlo.held (c : Thread nD τ) (Pipeline.ucRefs τ sig) (Wd4 m c) : sProp 𝕄)
        ⊢ iprop((pdats m 2 c).arrays ((pdats m 2 c).arrAt · 0) ∗ Pipeline.unscopedRest spec2 c (At4 m c)) := by
      rw [← Pipeline.unscopedBufs_held c (Wd4 m c), Pipeline.unscopedBufs_split₀ (cfgs) 2 winFacts₀2.arr_unscoped c (At4 m c)]
      exact sep_mono (arrays_in2 (At4 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (At4 m c))
        ⊢ (StableHlo.held (c : Thread nD τ) (Pipeline.ucRefs τ sig) (Wd5 m c) : sProp 𝕄) := by
      rw [← Pipeline.unscopedBufs_held c (Wd5 m c), Pipeline.unscopedBufs_split₀ (cfgs) 2 winFacts₀2.arr_unscoped c (At5 m c)]
      refine sep_mono (arrays_out2 (At4 m) c (At5 m c) (Wd5_of_ne m c _ (by decide)) (Wd5_of_ne m c _ (by decide)) (Wd5_of_ne m c _ (by decide))
        (Wd5_of_ne m c _ (by decide)) (Wd5_of_ne m c _ (by decide)) (Wd5_of_ne m c _ (by decide)) (Wd5_of_ne m c _ (by decide)) (Wd5_out m c)) (Entails.of_eq ?_)
      unfold Pipeline.unscopedRest
      exact bigSep_congr fun b hb => by rw [hrest2 m c b (Finset.mem_sdiff.mp hb).2]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m) () defs₀ 𝒱₀ L lv) :=
  [ .host (hseg hostOps0 hostOps0_sub hostOps0_fresh (Wd0 m)),
    .region (reg0 m),
    .host (hseg hostOps1 hostOps1_sub hostOps1_fresh (Wd2 m)),
    .region (reg1 m),
    .region (reg2 m) ]
/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program on the TensorCores
    terminates, nothing faulting, and every final state has each unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = Wd5 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wd0 m c)
        from Pipeline.unscopedBufs_held c (Wd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd5 m c b)
    (hfin := fun c s' => by
      iintro ⟨⟨Hh, -⟩, HSI⟩
      unfold StableHlo.held
      imodintro
      iapply (pointsTo_read_all (Pipeline.ucRefs τ sig) (fun b => (((c : Thread nD τ)).1, b)) (Wd5 m c) s')
      isplitl [Hh] <;> iassumption)
    (hQ := fun s h c b hb => h c _ (mem_uc b hb))

/-- THE FRAME: every weakly fair execution terminates, nothing faulting, with every argument array as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c main_arg0 (by decide)).trans (Wd5_main_arg0 m c),
      (h c main_arg1 (by decide)).trans (Wd5_main_arg1 m c),
      (h c main_arg2 (by decide)).trans (Wd5_main_arg2 m c),
      (h c main_arg3 (by decide)).trans (Wd5_main_arg3 m c),
      (h c main_arg4 (by decide)).trans (Wd5_main_arg4 m c),
      (h c main_arg5 (by decide)).trans (Wd5_main_arg5 m c),
      (h c main_arg6 (by decide)).trans (Wd5_main_arg6 m c),
      (h c main_arg7 (by decide)).trans (Wd5_main_arg7 m c),
      (h c main_arg8 (by decide)).trans (Wd5_main_arg8 m c),
      (h c main_arg9 (by decide)).trans (Wd5_main_arg9 m c),
      (h c main_arg10 (by decide)).trans (Wd5_main_arg10 m c),
      (h c main_arg11 (by decide)).trans (Wd5_main_arg11 m c),
      (h c main_arg12 (by decide)).trans (Wd5_main_arg12 m c),
      (h c main_arg13 (by decide)).trans (Wd5_main_arg13 m c),
      (h c main_arg14 (by decide)).trans (Wd5_main_arg14 m c),
      (h c main_arg15 (by decide)).trans (Wd5_main_arg15 m c)⟩) (run_all m ρ)

/-- The same run with the result array named: it ends holding what the last region's write-backs leave. -/
theorem value_run : θ_run defs (onTc (τ := τ) (main (F := F))) ⟨m, fun _ => 0, ρ⟩ (fun r => ∀ c : Dev nD,
      r.2.mem ((c.tc : Thread nD τ).loc main_v34) = res5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c main_v34 (by decide)).trans (Wd5_out m c),
      (h c main_arg0 (by decide)).trans (Wd5_main_arg0 m c),
      (h c main_arg1 (by decide)).trans (Wd5_main_arg1 m c),
      (h c main_arg2 (by decide)).trans (Wd5_main_arg2 m c),
      (h c main_arg3 (by decide)).trans (Wd5_main_arg3 m c),
      (h c main_arg4 (by decide)).trans (Wd5_main_arg4 m c),
      (h c main_arg5 (by decide)).trans (Wd5_main_arg5 m c),
      (h c main_arg6 (by decide)).trans (Wd5_main_arg6 m c),
      (h c main_arg7 (by decide)).trans (Wd5_main_arg7 m c),
      (h c main_arg8 (by decide)).trans (Wd5_main_arg8 m c),
      (h c main_arg9 (by decide)).trans (Wd5_main_arg9 m c),
      (h c main_arg10 (by decide)).trans (Wd5_main_arg10 m c),
      (h c main_arg11 (by decide)).trans (Wd5_main_arg11 m c),
      (h c main_arg12 (by decide)).trans (Wd5_main_arg12 m c),
      (h c main_arg13 (by decide)).trans (Wd5_main_arg13 m c),
      (h c main_arg14 (by decide)).trans (Wd5_main_arg14 m c),
      (h c main_arg15 (by decide)).trans (Wd5_main_arg15 m c)⟩) (run_all m ρ)

end Cert.KernelIdeal.Hand

end
-- ==== Proof.LibSegmentSum.lean ====
/-
  Segment sums over the edges of a graph: gathers of whole rows and of single elements, read at an index, an
  accumulating scatter of rows, and the law that a nonnegative real factor shared by every edge landing on a node
  may be taken out of the node's sum.
-/
import Idealize.ShloMosaic.PureOps.Ideal
import Idealize.ShloMosaic.PureOps.ShapeOps
import Idealize.ShloMosaic.PureOps.Contract
import Idealize.ShloMosaic.Lib.ValueIdx

noncomputable section

open scoped BigOperators

namespace Idealize.ShloMosaic.SegmentSum

open Idealize.ShloMosaic Idealize.ShloMosaic.ValueIdx

/-! ## The dimension numbers -/

/-- Whole rows of a table `[N, C]` taken at `E` start indices (an array `[E, 1]`): result row `e` is the table's row
    at the `e`-th start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Single elements of a table `[N]` taken at `E` start indices (an array `[E, 1]`). -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows `[E, C]` accumulated into a table `[N, C]` at `E` start indices (an array `[E, 1]`): update row `e` goes to
    the table's row at the `e`-th start index. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

/-- A start index read signed and clamped into `[0, N − 1]`. -/
def clampRow (N : Nat) (hN : 0 < N) {w : Nat} (v : BitVec w) : Fin N := ⟨min v.toInt.toNat (N - 1), by omega⟩

section Gather
variable {α : Type} {N E C w : Nat}

private theorem fin2_one_ne_zero : ¬((1 : Fin 2) = 0) := by decide

/-- The row gather at `(e, c)`: the table at the `e`-th start index (signed, clamped) and column `c`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (clampRow N hN (idx (ix2 (j 0) 0))) (j 1)) := by
  unfold Host.gather
  congr 1
  funext a
  refine Fin.ext ?_
  have hsi : (rowGatherDims N E C wf).siIdx j ⟨List.idxOf (0 : Fin 2) (rowGatherDims N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  match a with
  | ⟨0, _⟩ =>
    show (rowGatherDims N E C wf).start j idx 0 + (rowGatherDims N E C wf).batchCoord j 0
      + (rowGatherDims N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [hsi]
    rfl
  | ⟨1, _⟩ =>
    show (rowGatherDims N E C wf).start j idx 1 + (rowGatherDims N E C wf).batchCoord j 1
      + (rowGatherDims N E C wf).offCoord j 1 = _
    rw [GatherDims.batchCoord_eq_zero _ _ _ List.not_mem_nil]
    have h1 : (1 : Fin 2) ∉ (rowGatherDims N E C wf).startIndexMap :=
      fun h => absurd (List.mem_singleton.mp h) fin2_one_ne_zero
    have h2 : (1 : Fin 2) ∈ (rowGatherDims N E C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-- The element gather at `e`: the table at the `e`-th start index (signed, clamped). -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (elemGatherDims N E wf) x idx e = x (ix1 (clampRow N hN (idx (ix2 (e 0) 0)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update row that lands on element `i` has its start index, read signed, equal to `i`'s row: on the row axis
    the landing place is the start index plus a window coordinate that is zero there. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  have hs : (rowScatterDims N E C wf).start j idx 0 = (idx (ix2 (j 0) 0)).toInt := by
    unfold ScatterDims.start
    rw [dif_pos (show (0 : Fin 2) ∈ (rowScatterDims N E C wf).scatterDimsToOperandDims from List.mem_singleton.mpr rfl)]
    have hsi : (rowScatterDims N E C wf).siIdx j ⟨List.idxOf (0 : Fin 2) (rowScatterDims N E C wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw : (rowScatterDims N E C wf).window j 0 = 0 := by
    unfold ScatterDims.window
    rw [dif_neg]
    intro hmem
    have := (List.mem_filter.mp hmem).2
    simp at this
  unfold ScatterDims.resultIdx? at h
  split at h
  · rename_i hall
    have hi := Option.some.inj h
    have h0 : ((rowScatterDims N E C wf).start j idx 0 + ((rowScatterDims N E C wf).window j 0 : Int)).toNat = (i 0).val := by
      rw [← hi]
    have hnn := (hall 0).1
    rw [hs, hw] at h0 hnn
    omega
  · exact absurd h (by simp)

end Gather

/-! ## The law: a nonnegative real factor shared by the edges landing on a node leaves the node's sum -/

section Law
variable {N E C : Nat}

/-- A nonnegative real factor goes inside any finite sum of extended reals (no finiteness of the terms is needed:
    a nonnegative real never turns an infinity round, so it distributes over every sum of two). -/
theorem sum_mul_coe_of_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- THE LAW. Each node `i` sums the messages of the edges whose target is `i`. Scaling every message by the
    source's and the target's factor inside the sum is the same as summing messages scaled by the source's factor only
    and scaling the finished sum by `i`'s factor: an edge that lands on `i` has target `i`, so its target factor
    is `i`'s, and that factor, a nonnegative real, leaves the sum. The target column is read twice, once by the
    scatter (`colR`, signed and not clamped) and once by a gather (`colW`, signed and clamped): the two arrays need
    agree only where `colR`'s entry is a row of the table, the only edges that land anywhere. -/
theorem scatter_gather_scale (hN : 0 < N)
    (wfg : GatherDims.WF ⟨2, ![N, C]⟩ ⟨2, ![E, 1]⟩ ⟨2, ![E, C]⟩ [1] [0] [] [0] [] 1 ![1, C])
    (wfe : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (D : (⟨1, ![N]⟩ : Shape).Idx → EReal)
    (hD : ∀ v, ∃ r : ℝ, 0 ≤ r ∧ D v = (r : EReal))
    (rowI colW colR : IVec ⟨2, ![E, 1]⟩ 32)
    (hwrap : ∀ e, 0 ≤ (colR e).toInt → (colR e).toInt < (N : Int) → colW e = colR e)
    (i : (⟨2, ![N, C]⟩ : Shape).Idx) :
    Ideal.hostScatterAdd (rowScatterDims N E C wfs) (fun _ => 0) colR
        (fun j => Host.gather (rowGatherDims N E C wfg) H rowI j *
          (Host.gather (elemGatherDims N E wfe) D rowI (ix1 (j 0)) *
            Host.gather (elemGatherDims N E wfe) D colW (ix1 (j 0)))) i
      = Ideal.hostScatterAdd (rowScatterDims N E C wfs) (fun _ => 0) colR
          (Host.gather (rowGatherDims N E C wfg) (fun v => H v * D (ix1 (v 0))) rowI) i * D (ix1 (i 0)) := by
  obtain ⟨r, hr, hDr⟩ := hD (ix1 (i 0))
  unfold Ideal.hostScatterAdd
  simp only [zero_add]
  rw [hDr, sum_mul_coe_of_nonneg _ _ r hr]
  refine Finset.sum_congr rfl fun j hj => ?_
  have hland := (Finset.mem_filter.mp hj).2
  have hrow := rowScatter_lands wfs colR j i hland
  have hlt : (i 0).val < N := idx2_lt0 i
  have hW : colW (ix2 (j 0) 0) = colR (ix2 (j 0) 0) :=
    hwrap _ (by rw [hrow]; exact Int.natCast_nonneg _) (by rw [hrow]; exact_mod_cast hlt)
  have hclamp : clampRow N hN (colW (ix2 (j 0) 0)) = i 0 := by
    apply Fin.ext
    show min (colW (ix2 (j 0) 0)).toInt.toNat (N - 1) = (i 0).val
    rw [hW, hrow, Int.toNat_natCast]
    omega
  rw [rowGather_apply hN, rowGather_apply hN, elemGather_apply hN, elemGather_apply hN]
  show _ * (_ * D (ix1 (clampRow N hN (colW (ix2 (j 0) 0))))) = _
  rw [hclamp, hDr, mul_assoc]
  rfl

end Law

end Idealize.ShloMosaic.SegmentSum

end
-- ==== Proof.IdxNorm.lean ====
/-
  How a start index of a gather is read. A negative index counts from the end of the axis: the axis' extent is
  added to it. The result, read as a signed number, is then clamped into the axis. Both programs spell the first
  step as a select on a signed comparison with zero and the second is the gather's own.
-/
import proofs.«163544_j27779848471357_2_alg».proof.Proof.LibSegmentSum

namespace Cert.Bridge

open Idealize.ShloMosaic Idealize.ShloMosaic.SegmentSum

/-- A signed index word, with the extent `n` added when it is negative. -/
def wrapAt (n w : BitVec 32) : BitVec 32 := Scalar.select (IntOp.cmpi .slt w 0#32) (IntOp.addi w n) w

/-- The row of an `N`-row table that the index word `w` reads: wrapped by `n`, then clamped into `[0, N − 1]`. -/
def rowOf (N : Nat) (hN : 0 < N) (n w : BitVec 32) : Fin N := clampRow N hN (wrapAt n w)

end Cert.Bridge
-- ==== Proof.LibFanGather.lean ====
/-
  Gathers of whole rows and of single entries at a fan of start indices, and three layout steps, read at an index.
  A table `[N, C]` gathered at `E × K` start indices (an array `[E, K, 1]`) holds at `(e, f, c)` the table's entry at
  the row the start index `(e, f)` names — read signed and clamped into the table — and column `c`; an array `[N]`
  gathered at `[R, C, 1]` start indices holds at `(e, f)` the array's entry at the clamped start index `(e, f)`.
  A vector seen as a column, a matrix given a trailing unit axis, and a prefix of a vector each hold what the
  operand holds at the evident index.
-/
import proofs.«163544_j27779848471357_2_alg».proof.Proof.LibSegmentSum
import Idealize.ShloMosaic.Lib.ValueIdx
import Idealize.ShloMosaic.Lib.Pipeline.Value
import Idealize.ShloMosaic.Lib.ValueLayout

noncomputable section

namespace Idealize.ShloMosaic.FanGather
open Idealize.ShloMosaic Idealize.ShloMosaic.ValueIdx Idealize.ShloMosaic.SegmentSum

/-! ## Layout steps read at an index -/

section Layout
variable {α : Type}

/-- A column: the array `[n]` seen as `[n, 1]` holds at `(e, 0)` what the array holds at `e`. -/
theorem column_apply {n : Nat} (h : (⟨1, ![n]⟩ : Shape).BroadcastsInDim ⟨2, ![n, 1]⟩ ![0])
    (x : (⟨1, ![n]⟩ : Shape).Idx → α) (e : Fin n) (z : Fin 1) :
    broadcastInDim ⟨2, ![n, 1]⟩ ![0] h x (ix2 e z) = x (ix1 e) :=
  broadcastInDim_apply _ _ _ _ _ (fun a => by
    match a with
    | ⟨0, _⟩ =>
      show e.val = if n = 1 then 0 else e.val
      split
      · have := e.isLt; omega
      · rfl)

/-- A trailing unit axis: the array `[n, k]` seen as `[n, k, 1]` holds at `(e, f, 0)` what the array holds at `(e, f)`. -/
theorem unitAxis_apply {n k : Nat} (h : (⟨2, ![n, k]⟩ : Shape).BroadcastsInDim ⟨3, ![n, k, 1]⟩ ![0, 1])
    (x : (⟨2, ![n, k]⟩ : Shape).Idx → α) (e : Fin n) (f : Fin k) (z : Fin 1) :
    broadcastInDim ⟨3, ![n, k, 1]⟩ ![0, 1] h x (ix3 e f z) = x (ix2 e f) :=
  broadcastInDim_apply _ _ _ _ _ (fun a => by
    match a with
    | ⟨0, _⟩ =>
      show e.val = if n = 1 then 0 else e.val
      split
      · have := e.isLt; omega
      · rfl
    | ⟨1, _⟩ =>
      show f.val = if k = 1 then 0 else f.val
      split
      · have := f.isLt; omega
      · rfl)

/-- The first `m` entries of an array `[n]`: entry `e` of the slice is entry `e` of the array. -/
theorem prefix_apply {n m : Nat} (h : (⟨1, ![n]⟩ : Shape).Slices ![0] ⟨1, ![m]⟩)
    (x : (⟨1, ![n]⟩ : Shape).Idx → α) (e : Fin m) (k : Fin n) (hk : k.val = e.val) :
    extractStridedSlice ⟨1, ![m]⟩ ![0] x h (ix1 e) = x (ix1 k) :=
  extractStridedSlice_apply _ _ _ _ _ (fun a => by
    match a with
    | ⟨0, _⟩ => exact hk.trans (Nat.zero_add _).symm)

end Layout

/-! ## Whole rows of a table taken at a fan of start indices -/

/-- Whole rows of a table `[N, C]` taken at `E × K` start indices (an array `[E, K, 1]`): result row `(e, f)` is the
    table's row at the start index `(e, f)`. -/
abbrev fanRowGatherDims (N E K C : Nat)
    (wf : GatherDims.WF ⟨2, ![N, C]⟩ ⟨3, ![E, K, 1]⟩ ⟨3, ![E, K, C]⟩ [2] [0] [] [0] [] 2 ![1, C]) :
    GatherDims ⟨2, ![N, C]⟩ ⟨3, ![E, K, 1]⟩ ⟨3, ![E, K, C]⟩ where
  offsetDims := [2]
  collapsedSliceDims := [0]
  operandBatchingDims := []
  startIndicesBatchingDims := []
  startIndexMap := [0]
  indexVectorDim := 2
  sliceSizes := ![1, C]
  wf := wf

section FanGather
variable {α : Type} {N E K C w : Nat}

private theorem fin2_one_ne_zero : ¬((1 : Fin 2) = 0) := by decide

/-- The fan row gather at `(e, f, c)`: the table at the start index `(e, f)` (signed, clamped) and column `c`. -/
theorem fanRowGather_apply (hN : 0 < N)
    (wf : GatherDims.WF ⟨2, ![N, C]⟩ ⟨3, ![E, K, 1]⟩ ⟨3, ![E, K, C]⟩ [2] [0] [] [0] [] 2 ![1, C])
    (x : (⟨2, ![N, C]⟩ : Shape).Idx → α) (idx : IVec ⟨3, ![E, K, 1]⟩ w) (j : (⟨3, ![E, K, C]⟩ : Shape).Idx) :
    Host.gather (fanRowGatherDims N E K C wf) x idx j
      = x (ix2 (clampRow N hN (idx (ix3 (j 0) (j 1) 0))) (j 2)) := by
  unfold Host.gather
  congr 1
  funext a
  refine Fin.ext ?_
  have hsi : (fanRowGatherDims N E K C wf).siIdx j ⟨List.idxOf (0 : Fin 2) (fanRowGatherDims N E K C wf).startIndexMap,
      List.idxOf_lt_length_iff.2 (List.mem_singleton.mpr rfl)⟩ = ix3 (j 0) (j 1) 0 := by
    funext b; refine Fin.ext ?_
    match b with
    | ⟨0, _⟩ => rfl
    | ⟨1, _⟩ => rfl
    | ⟨2, _⟩ => rfl
  match a with
  | ⟨0, _⟩ =>
    show (fanRowGatherDims N E K C wf).start j idx 0 + (fanRowGatherDims N E K C wf).batchCoord j 0
      + (fanRowGatherDims N E K C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (fanRowGatherDims N E K C wf).startIndexMap from List.mem_singleton.mpr rfl)]
    rw [hsi]
    rfl
  | ⟨1, _⟩ =>
    show (fanRowGatherDims N E K C wf).start j idx 1 + (fanRowGatherDims N E K C wf).batchCoord j 1
      + (fanRowGatherDims N E K C wf).offCoord j 1 = _
    rw [GatherDims.batchCoord_eq_zero _ _ _ List.not_mem_nil]
    have h1 : (1 : Fin 2) ∉ (fanRowGatherDims N E K C wf).startIndexMap :=
      fun h => absurd (List.mem_singleton.mp h) fin2_one_ne_zero
    have h2 : (1 : Fin 2) ∈ (fanRowGatherDims N E K C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

end FanGather

/-- The start-indices index of a single-entry gather at `(e, f)` is `(e, f, 0)`. -/
theorem takeIdx_ix2 {R C : Nat} (e : Fin R) (f : Fin C) : takeIdx (ix2 e f) = ix3 e f 0 := by
  funext a
  match a with
  | ⟨0, _⟩ => rfl
  | ⟨1, _⟩ => rfl
  | ⟨2, _⟩ => rfl

/-- Single entries of an array `[N]` taken at `R × C` start indices (an array `[R, C, 1]`), read at `(e, f)`: the
    array at the start index `(e, f)`, signed and clamped. -/
theorem take_apply {α : Type} {N R C w : Nat} (hN : 0 < N)
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ w) (e : Fin R) (f : Fin C) :
    Host.gather (takeDims N R C wf) x idx (ix2 e f) = x (ix1 (clampRow N hN (idx (ix3 e f 0)))) := by
  rw [gather_take_apply hN]
  exact congrArg (fun k => x (ix1 (clampRow N hN (idx k)))) (takeIdx_ix2 e f)

end Idealize.ShloMosaic.FanGather

end
-- ==== Proof.KerHost.lean ====
/-
  What the kernel's host steps stage for its first and second layer, read at an index. Between the layers the host only moves
  data: it takes a prefix of an array, wraps signed index words (a negative index counts from the end of its axis),
  gathers whole rows of a table or single entries of an index array at such words (each start index read signed and
  clamped into the table), and changes a float format (the identity on extended reals). So every entry the host
  stages is ONE entry of an argument array, at a row named by a chain of index words.
-/
import proofs.«163544_j27779848471357_2_alg».proof.Proof.Gen.KernelIdeal.Launch
import proofs.«163544_j27779848471357_2_alg».proof.Proof.IdxNorm
import proofs.«163544_j27779848471357_2_alg».proof.Proof.LibFanGather
import Idealize.ShloMosaic.Lib.ValueIdx
import Idealize.ShloMosaic.Lib.Pipeline.Value
import Idealize.ShloMosaic.Lib.ValueLayout
import Idealize.ShloMosaic.Lib.StableHlo.Run

noncomputable section

namespace Cert.Bridge.KerHost
open Idealize.ShloMosaic Idealize.ShloMosaic.ValueIdx Idealize.ShloMosaic.SegmentSum
open Cert.KernelIdeal Cert.KernelIdeal.Gen
open Idealize.ShloMosaic.FanGather

/-- A signed index word with the extent added when it is negative, as both programs spell it: a select on the
    comparison with a broadcast zero between the word plus the broadcast extent and the word itself. -/
theorem wrap_apply {s : Shape} (a : IVec s 32) (n : BitVec 32) (hz : S_.BroadcastsInDim s (![] : Fin 0 → Fin s.rank)) (i : s.Idx) :
    select (cmpi .slt a (broadcastInDim s ![] hz (constantI S_ 32 0#32)))
      (addi a (broadcastInDim s ![] hz (constantI S_ 32 n))) a i = wrapAt n (a i) := rfl

/-! ## What the host stages for the first layer -/

section Stage0
variable (V : Valuation τ sig (Elt Ideal))

/-- The destination rows: row `e` is the table's row named by the `e`-th of the first 122880 node ids, every
    column unchanged (the change of format is the identity on extended reals). -/
theorem dstRows0_apply (e : Fin 122880) (c : Fin 128) :
    (StableHlo.after (hostOps0 (F := Ideal)) V (Proc.devRef .tc main_v15) : S122880x128.Idx → EReal) (ix2 e c)
      = (V (Proc.devRef .tc main_arg0) : S1000000x128.Idx → EReal) (ix2 (rowOf 1000000 (by decide) 1000000#32
          ((V (Proc.devRef .tc main_arg1) : S1228800.Idx → BitVec 32) (ix1 ⟨e.val, by omega⟩))) c) := by
  dsimp only [hostOps0]
  after_results
  show Host.gather (rowGatherDims 1000000 122880 128 _) _ _ (ix2 e c) = _
  rw [rowGather_apply (by decide), column_apply, wrap_apply]
  exact congrArg (fun w => (V (Proc.devRef .tc main_arg0) : S1000000x128.Idx → EReal)
      (ix2 (clampRow 1000000 (by decide) (wrapAt 1000000#32 w)) c))
    (prefix_apply slices_S1228800_S122880_0 (V (Proc.devRef .tc main_arg1) : S1228800.Idx → BitVec 32) e
      ⟨e.val, by omega⟩ rfl)

/-- The neighbour rows: row `(e, f)` is the table's row named by the node id that the `f`-th neighbour index of
    node `e` selects. -/
theorem neighRows0_apply (e : Fin 122880) (f : Fin 10) (c : Fin 128) :
    (StableHlo.after (hostOps0 (F := Ideal)) V (Proc.devRef .tc main_v23) : S122880x10x128.Idx → EReal) (ix3 e f c)
      = (V (Proc.devRef .tc main_arg0) : S1000000x128.Idx → EReal) (ix2 (rowOf 1000000 (by decide) 1000000#32
          ((V (Proc.devRef .tc main_arg1) : S1228800.Idx → BitVec 32) (ix1 (rowOf 1228800 (by decide) 1228800#32
            ((V (Proc.devRef .tc main_arg2) : S122880x10.Idx → BitVec 32) (ix2 e f)))))) c) := by
  dsimp only [hostOps0]
  after_results_simp
  show Host.gather (fanRowGatherDims 1000000 122880 10 128 _) _ _ (ix3 e f c) = _
  rw [fanRowGather_apply (by decide), unitAxis_apply, wrap_apply]
  refine congrArg (fun w => (V (Proc.devRef .tc main_arg0) : S1000000x128.Idx → EReal)
      (ix2 (clampRow 1000000 (by decide) (wrapAt 1000000#32 w)) c)) ?_
  show Host.gather (takeDims 1228800 122880 10 _) _ _ (ix2 e f) = _
  rw [take_apply (by decide), unitAxis_apply, wrap_apply]
  rfl

end Stage0

/-! ## What the host stages for the second layer -/

section Stage1
variable (V : Valuation τ sig (Elt Ideal))

/-- The destination rows of the second layer: the first 12288 rows of the first layer's output. -/
theorem dstRows1_apply (e : Fin 12288) (c : Fin 256) :
    (StableHlo.after (hostOps1 (F := Ideal)) V (Proc.devRef .tc main_v25) : S12288x256.Idx → EReal) (ix2 e c)
      = (V (Proc.devRef .tc main_v24) : S122880x256.Idx → EReal) (ix2 ⟨e.val, by omega⟩ c) := by
  dsimp only [hostOps1]
  after_results
  exact slice2_axis0_apply 0 (V (Proc.devRef .tc main_v24) : S122880x256.Idx → EReal)
    slices_S122880x256_S12288x256_0_0 e c ⟨e.val, by omega⟩ (Nat.zero_add _).symm

/-- The neighbour rows of the second layer: row `(e, f)` is the row of the first layer's output that the `f`-th
    neighbour index of node `e` names. -/
theorem neighRows1_apply (e : Fin 12288) (f : Fin 10) (c : Fin 256) :
    (StableHlo.after (hostOps1 (F := Ideal)) V (Proc.devRef .tc main_v32) : S12288x10x256.Idx → EReal) (ix3 e f c)
      = (V (Proc.devRef .tc main_v24) : S122880x256.Idx → EReal) (ix2 (rowOf 122880 (by decide) 122880#32
          ((V (Proc.devRef .tc main_arg3) : S12288x10.Idx → BitVec 32) (ix2 e f))) c) := by
  dsimp only [hostOps1]
  after_results
  show Host.gather (fanRowGatherDims 122880 12288 10 256 _) _ _ (ix3 e f c) = _
  rw [fanRowGather_apply (by decide), unitAxis_apply, wrap_apply]
  rfl

end Stage1

end Cert.Bridge.KerHost

end
-- ==== Proof.PayloadAt.lean ====
import proofs.«163544_j27779848471357_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The arithmetic of the three kernel bodies, read at one entry of the stored block, with floats read as
extended reals.

* First aggregation layer (a block of 1024 rows, inputs 128 wide, outputs 256 wide): entry (p, q) of the
  result is the rectifier of: row p of the destination block times column q of the self weights, plus the
  mean of the ten neighbour rows (their sum, added one by one from zero, times one tenth) times column q of
  the neighbour weights, plus entry q of the bias.
* Second aggregation layer (a block of 256 rows, 256 wide in and out): the same without the rectifier.
* The predictor (a block of 4096 rows): entry p is the three-layer perceptron of the entrywise product of
  the two endpoint rows: two rectified dense layers 256 wide and a final dense layer with one output.

Every matrix product is a plain sum over the contracted axis, since a product accumulated into zero is
that sum on the extended reals, and every change of float format is the identity there.
-/

noncomputable section

open scoped BigOperators
open Idealize.ShloMosaic Idealize.ShloMosaic.ValueIdx

namespace Cert.Bridge.Payload

open Cert.KernelIdeal Cert.KernelIdeal.Gen

/-! ## Small facts -/

/-- The named constant one tenth is the rational 1/10 as an extended real. -/
theorem inv_10 : Named.named (F := Ideal) Cert.KernelIdeal.κ "inv_10" (φ := .f32) 0x3DCCCCCD#32 = ((1 / 10 : ℝ) : EReal) :=
  IdealRules.named_const.ideal_named_scalar _ _ _ _ rfl

/-- The scalar zero word is the extended real zero. -/
theorem zero_word : (Scalar.ofBits (F := Ideal) .f32 0x00000000#32 : EReal) = 0 := Ideal.ofBits_zero_f32

/-- An array of shape [a, 1, b] viewed as [a, b] reads, at (i, j), the operand at (i, 0, j): both have
    row-major position i * b + j. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector of length b viewed as one row and repeated over a rows reads, at (p, q), the vector at q. -/
theorem rowBias_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-! ## A plain matrix product into zero, read at an entry -/

/-- A product of an [M, K] by a [K, N] matrix (contracting the left operand's columns with the right operand's
    rows, no batch axis) accumulated into zero is, at (p, q), the sum over k of left (p, k) times right (k, q).
    The four hypotheses on the dimension record are its coordinate facts, decided on each literal record. -/
theorem matmul_plain_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (i : (⟨2, ![M, N]⟩ : Shape).Idx) (c : D.contr.Idx), (D.lhsIdx i c 0).val = (i 0).val)
    (hr1 : ∀ (i : (⟨2, ![M, N]⟩ : Shape).Idx) (c : D.contr.Idx), (D.rhsIdx i c 1).val = (i 1).val)
    (l : FVec Ideal ⟨2, ![M, K]⟩ φ₁) (r : FVec Ideal ⟨2, ![K, N]⟩ φ₂) (p : Fin M) (q : Fin N) :
    FloatOps.matmul D none l r (constant (F := Ideal) ⟨2, ![M, N]⟩ .f32 0x00000000#32) (ix2 p q)
      = ∑ k : Fin K, l (ix2 p k) * r (ix2 k q) := by
  refine (Ideal.matmul_constant_zero_apply D none l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact hr1 _ _)
  rw [el, er]

/-! ## The four dimension records of the bodies -/

/-- The first layer's products: [1024, 128] by [128, 256]. -/
theorem mm_1024_128_256 {φ₁ φ₂ : FTy} (l : FVec Ideal S1024x128 φ₁) (r : FVec Ideal S128x256 φ₂) (p : Fin 1024) (q : Fin 256) :
    FloatOps.matmul dot_S1024x128_S128x256_S1024x256_1_0_0_1_n_n none l r (constant (F := Ideal) S1024x256 .f32 0x00000000#32) (ix2 p q)
      = ∑ k : Fin 128, l (ix2 p k) * r (ix2 k q) :=
  matmul_plain_apply dot_S1024x128_S128x256_S1024x256_1_0_0_1_n_n rfl rfl rfl rfl
    (fun i c => by
      unfold DotDims.lhsIdx
      rw [dif_neg (show ¬(0 : Fin S1024x128.rank) ∈ dot_S1024x128_S128x256_S1024x256_1_0_0_1_n_n.lhsBatch by decide),
        dif_pos (show (0 : Fin S1024x128.rank) ∈ dot_S1024x128_S128x256_S1024x256_1_0_0_1_n_n.lhsNonContracting by decide)]
      rfl)
    (fun i c => by
      unfold DotDims.rhsIdx
      rw [dif_neg (show ¬(1 : Fin S128x256.rank) ∈ dot_S1024x128_S128x256_S1024x256_1_0_0_1_n_n.rhsBatch by decide),
        dif_pos (show (1 : Fin S128x256.rank) ∈ dot_S1024x128_S128x256_S1024x256_1_0_0_1_n_n.rhsNonContracting by decide)]
      rfl)
    l r p q

/-- The second layer's products: [256, 256] by [256, 256]. -/
theorem mm_256_256_256 {φ₁ φ₂ : FTy} (l : FVec Ideal S256x256 φ₁) (r : FVec Ideal S256x256 φ₂) (p : Fin 256) (q : Fin 256) :
    FloatOps.matmul dot_S256x256_S256x256_S256x256_1_0_0_1_n_n none l r (constant (F := Ideal) S256x256 .f32 0x00000000#32) (ix2 p q)
      = ∑ k : Fin 256, l (ix2 p k) * r (ix2 k q) :=
  matmul_plain_apply dot_S256x256_S256x256_S256x256_1_0_0_1_n_n rfl rfl rfl rfl
    (fun i c => by
      unfold DotDims.lhsIdx
      rw [dif_neg (show ¬(0 : Fin S256x256.rank) ∈ dot_S256x256_S256x256_S256x256_1_0_0_1_n_n.lhsBatch by decide),
        dif_pos (show (0 : Fin S256x256.rank) ∈ dot_S256x256_S256x256_S256x256_1_0_0_1_n_n.lhsNonContracting by decide)]
      rfl)
    (fun i c => by
      unfold DotDims.rhsIdx
      rw [dif_neg (show ¬(1 : Fin S256x256.rank) ∈ dot_S256x256_S256x256_S256x256_1_0_0_1_n_n.rhsBatch by decide),
        dif_pos (show (1 : Fin S256x256.rank) ∈ dot_S256x256_S256x256_S256x256_1_0_0_1_n_n.rhsNonContracting by decide)]
      rfl)
    l r p q

/-- The predictor's two hidden products: [4096, 256] by [256, 256]. -/
theorem mm_4096_256_256 {φ₁ φ₂ : FTy} (l : FVec Ideal S4096x256 φ₁) (r : FVec Ideal S256x256 φ₂) (p : Fin 4096) (q : Fin 256) :
    FloatOps.matmul dot_S4096x256_S256x256_S4096x256_1_0_0_1_n_n none l r (constant (F := Ideal) S4096x256 .f32 0x00000000#32) (ix2 p q)
      = ∑ k : Fin 256, l (ix2 p k) * r (ix2 k q) :=
  matmul_plain_apply dot_S4096x256_S256x256_S4096x256_1_0_0_1_n_n rfl rfl rfl rfl
    (fun i c => by
      unfold DotDims.lhsIdx
      rw [dif_neg (show ¬(0 : Fin S4096x256.rank) ∈ dot_S4096x256_S256x256_S4096x256_1_0_0_1_n_n.lhsBatch by decide),
        dif_pos (show (0 : Fin S4096x256.rank) ∈ dot_S4096x256_S256x256_S4096x256_1_0_0_1_n_n.lhsNonContracting by decide)]
      rfl)
    (fun i c => by
      unfold DotDims.rhsIdx
      rw [dif_neg (show ¬(1 : Fin S256x256.rank) ∈ dot_S4096x256_S256x256_S4096x256_1_0_0_1_n_n.rhsBatch by decide),
        dif_pos (show (1 : Fin S256x256.rank) ∈ dot_S4096x256_S256x256_S4096x256_1_0_0_1_n_n.rhsNonContracting by decide)]
      rfl)
    l r p q

/-- The predictor's last product: [4096, 256] by [256, 1]. -/
theorem mm_4096_256_1 {φ₁ φ₂ : FTy} (l : FVec Ideal S4096x256 φ₁) (r : FVec Ideal S256x1 φ₂) (p : Fin 4096) (q : Fin 1) :
    FloatOps.matmul dot_S4096x256_S256x1_S4096x1_1_0_0_1_n_n none l r (constant (F := Ideal) S4096x1 .f32 0x00000000#32) (ix2 p q)
      = ∑ k : Fin 256, l (ix2 p k) * r (ix2 k q) :=
  matmul_plain_apply dot_S4096x256_S256x1_S4096x1_1_0_0_1_n_n rfl rfl rfl rfl
    (fun i c => by
      unfold DotDims.lhsIdx
      rw [dif_neg (show ¬(0 : Fin S4096x256.rank) ∈ dot_S4096x256_S256x1_S4096x1_1_0_0_1_n_n.lhsBatch by decide),
        dif_pos (show (0 : Fin S4096x256.rank) ∈ dot_S4096x256_S256x1_S4096x1_1_0_0_1_n_n.lhsNonContracting by decide)]
      rfl)
    (fun i c => by
      unfold DotDims.rhsIdx
      rw [dif_neg (show ¬(1 : Fin S256x1.rank) ∈ dot_S4096x256_S256x1_S4096x1_1_0_0_1_n_n.rhsBatch by decide),
        dif_pos (show (1 : Fin S256x1.rank) ∈ dot_S4096x256_S256x1_S4096x1_1_0_0_1_n_n.rhsNonContracting by decide)]
      rfl)
    l r p q

/-! ## The predictor -/

/-- The predictor's body at row p: two rectified dense layers over the entrywise product of the two endpoint rows,
    then the final dense layer's one output. -/
theorem k2_pay1_at (v0 v2 : Vec Ideal S4096x256 .f32) (v6 : Vec Ideal S256x256 .f32) (v9 : Vec Ideal S256 .f32)
    (v16 : Vec Ideal S256x256 .f32) (v19 : Vec Ideal S256 .f32) (v26 : Vec Ideal S256x1 .f32) (v29 : Vec Ideal S1 .f32)
    (p : Fin 4096) :
    k2_pay1 (F := Ideal) v0 v2 v6 v9 v16 v19 v26 v29 (ix2 p 0)
      = (∑ k : Fin 256, max ((∑ j : Fin 256, max ((∑ i : Fin 256, (v0 (ix2 p i) * v2 (ix2 p i)) * v6 (ix2 i j))
            + v9 (ix1 j)) 0 * v16 (ix2 j k)) + v19 (ix1 k)) 0 * v26 (ix2 k 0)) + v29 (ix1 0) := by
  unfold k2_pay1
  refine congrArg₂ (· + ·) ?_ (rowBias_apply v29 _ _ p 0)
  refine (mm_4096_256_1 _ _ p 0).trans (Finset.sum_congr rfl fun k _ => ?_)
  refine congrArg₂ (· * ·) ?_ rfl
  refine congrArg₂ max ?_ zero_word
  refine congrArg₂ (· + ·) ?_ (rowBias_apply v19 _ _ p k)
  refine (mm_4096_256_256 _ _ p k).trans (Finset.sum_congr rfl fun j _ => ?_)
  refine congrArg₂ (· * ·) ?_ rfl
  refine congrArg₂ max ?_ zero_word
  refine congrArg₂ (· + ·) ?_ (rowBias_apply v9 _ _ p j)
  refine (mm_4096_256_256 _ _ p j).trans (Finset.sum_congr rfl fun i _ => ?_)
  refine congrArg₂ (· * ·) ?_ rfl
  show shapeCast S4096x256 v0 _ (ix2 p i) * shapeCast S4096x256 v2 _ (ix2 p i) = _
  rw [shapeCast_self, shapeCast_self]

/-! ## The two aggregation layers -/

/-- One step of the first layer's neighbour sum: the running sum plus the next neighbour slice [1024, 1, 128],
    viewed as [1024, 128] and widened, at (p, k). -/
theorem addSlice0 (acc : FVec Ideal S1024x128 .f32) (x : Vec Ideal S1024x1x128 .bf16) (p : Fin 1024) (k : Fin 128)
    (a : EReal) (h : acc (ix2 p k) = a) :
    addf acc (extf .f32 (shapeCast S1024x128 x shapeCasts_S1024x1x128_S1024x128) bitsLt_bf16_f32) (ix2 p k)
      = a + x (ix3 p 0 k) :=
  congrArg₂ (· + ·) h (shapeCast_a1b_ab_apply x _ p k)

/-- One step of the second layer's neighbour sum: the running sum plus the next neighbour slice [256, 1, 256],
    viewed as [256, 256], at (p, k). -/
theorem addSlice1 (acc : FVec Ideal S256x256 .f32) (x : Vec Ideal S256x1x256 .f32) (p : Fin 256) (k : Fin 256)
    (a : EReal) (h : acc (ix2 p k) = a) :
    addf acc (shapeCast S256x256 x shapeCasts_S256x1x256_S256x256) (ix2 p k) = a + x (ix3 p 0 k) :=
  congrArg₂ (· + ·) h (shapeCast_a1b_ab_apply x _ p k)

/-- The first layer's running sum after seven neighbours, at (p, k): added one by one from zero. -/
theorem k0_pay3_at (v3 v7 v11 v15 v19 v23 v27 : Vec Ideal S1024x1x128 .bf16) (p : Fin 1024) (k : Fin 128) :
    k0_pay3 (F := Ideal) v3 v7 v11 v15 v19 v23 v27 (ix2 p k)
      = (((((((0 + v3 (ix3 p 0 k)) + v7 (ix3 p 0 k)) + v11 (ix3 p 0 k)) + v15 (ix3 p 0 k)) + v19 (ix3 p 0 k))
          + v23 (ix3 p 0 k)) + v27 (ix3 p 0 k)) := by
  unfold k0_pay3
  exact addSlice0 _ v27 p k _ (addSlice0 _ v23 p k _ (addSlice0 _ v19 p k _ (addSlice0 _ v15 p k _
    (addSlice0 _ v11 p k _ (addSlice0 _ v7 p k _ (addSlice0 _ v3 p k _ zero_word))))))

/-- The second layer's running sum after eight neighbours, at (p, k): added one by one from zero. -/
theorem k1_pay3_at (v4 v7 v10 v13 v16 v19 v22 v25 : Vec Ideal S256x1x256 .f32) (p : Fin 256) (k : Fin 256) :
    k1_pay3 (F := Ideal) v4 v7 v10 v13 v16 v19 v22 v25 (ix2 p k)
      = ((((((((0 + v4 (ix3 p 0 k)) + v7 (ix3 p 0 k)) + v10 (ix3 p 0 k)) + v13 (ix3 p 0 k)) + v16 (ix3 p 0 k))
          + v19 (ix3 p 0 k)) + v22 (ix3 p 0 k)) + v25 (ix3 p 0 k)) := by
  unfold k1_pay3
  exact addSlice1 _ v25 p k _ (addSlice1 _ v22 p k _ (addSlice1 _ v19 p k _ (addSlice1 _ v16 p k _
    (addSlice1 _ v13 p k _ (addSlice1 _ v10 p k _ (addSlice1 _ v7 p k _ (addSlice1 _ v4 p k _ zero_word)))))))

/-- The destination block of the first layer passes through unchanged. -/
theorem k0_pay2_at (v0 : Vec Ideal S1024x128 .bf16) (p : Fin 1024) (k : Fin 128) :
    k0_pay2 (F := Ideal) v0 (ix2 p k) = v0 (ix2 p k) := by
  unfold k0_pay2
  rw [shapeCast_self]

/-- The destination block of the second layer passes through unchanged (narrowing the format is the identity). -/
theorem k1_pay2_at (v0 : Vec Ideal S256x256 .f32) (p : Fin 256) (k : Fin 256) :
    k1_pay2 (F := Ideal) v0 (ix2 p k) = v0 (ix2 p k) := by
  unfold k1_pay2
  show shapeCast S256x256 v0 _ (ix2 p k) = _
  rw [shapeCast_self]

/-- The first layer's body at (p, q): the rectifier of destination row p times column q of the self weights, plus
    the mean of the ten neighbour rows (their sum from zero in fan order, times one tenth) times column q of the
    neighbour weights, plus the bias at q. -/
theorem k0_pay1_at (v0 : Vec Ideal S1024x128 .bf16) (v3 v7 v11 v15 v19 v23 v27 v31 v35 v39 : Vec Ideal S1024x1x128 .bf16)
    (v46 v48 : Vec Ideal S128x256 .f32) (v53 : Vec Ideal S256 .f32) (p : Fin 1024) (q : Fin 256) :
    k0_pay1 (F := Ideal) (k0_pay2 v0) (k0_pay3 v3 v7 v11 v15 v19 v23 v27) v31 v35 v39 v46 v48 v53 (ix2 p q)
      = max ((∑ k : Fin 128, v0 (ix2 p k) * v46 (ix2 k q))
          + (∑ k : Fin 128, (((((((((((0 + v3 (ix3 p 0 k)) + v7 (ix3 p 0 k)) + v11 (ix3 p 0 k)) + v15 (ix3 p 0 k))
              + v19 (ix3 p 0 k)) + v23 (ix3 p 0 k)) + v27 (ix3 p 0 k)) + v31 (ix3 p 0 k)) + v35 (ix3 p 0 k))
              + v39 (ix3 p 0 k)) * (((1 / 10 : ℝ) : EReal))) * v48 (ix2 k q))
          + v53 (ix1 q)) 0 := by
  unfold k0_pay1
  refine congrArg₂ max ?_ zero_word
  refine congrArg₂ (· + ·) (congrArg₂ (· + ·) ?_ ?_) (rowBias_apply v53 _ _ p q)
  · refine (mm_1024_128_256 _ _ p q).trans (Finset.sum_congr rfl fun k _ => ?_)
    exact congrArg₂ (· * ·) (k0_pay2_at v0 p k) rfl
  · refine (mm_1024_128_256 _ _ p q).trans (Finset.sum_congr rfl fun k _ => ?_)
    refine congrArg₂ (· * ·) ?_ rfl
    refine congrArg₂ (· * ·) ?_ inv_10
    exact addSlice0 _ v39 p k _ (addSlice0 _ v35 p k _ (addSlice0 _ v31 p k _ (k0_pay3_at v3 v7 v11 v15 v19 v23 v27 p k)))

/-- The second layer's body at (p, q): destination row p times column q of the self weights, plus the mean of the
    ten neighbour rows (their sum from zero in fan order, times one tenth) times column q of the neighbour weights,
    plus the bias at q; no rectifier. -/
theorem k1_pay1_at (v0 : Vec Ideal S256x256 .f32) (v4 v7 v10 v13 v16 v19 v22 v25 v28 v31 : Vec Ideal S256x1x256 .f32)
    (v37 v39 : Vec Ideal S256x256 .f32) (v44 : Vec Ideal S256 .f32) (p : Fin 256) (q : Fin 256) :
    k1_pay1 (F := Ideal) (k1_pay2 v0) (k1_pay3 v4 v7 v10 v13 v16 v19 v22 v25) v28 v31 v37 v39 v44 (ix2 p q)
      = (∑ k : Fin 256, v0 (ix2 p k) * v37 (ix2 k q))
          + (∑ k : Fin 256, (((((((((((0 + v4 (ix3 p 0 k)) + v7 (ix3 p 0 k)) + v10 (ix3 p 0 k)) + v13 (ix3 p 0 k))
              + v16 (ix3 p 0 k)) + v19 (ix3 p 0 k)) + v22 (ix3 p 0 k)) + v25 (ix3 p 0 k)) + v28 (ix3 p 0 k))
              + v31 (ix3 p 0 k)) * (((1 / 10 : ℝ) : EReal))) * v39 (ix2 k q))
          + v44 (ix1 q) := by
  unfold k1_pay1
  refine congrArg₂ (· + ·) (congrArg₂ (· + ·) ?_ ?_) (rowBias_apply v44 _ _ p q)
  · refine (mm_256_256_256 _ _ p q).trans (Finset.sum_congr rfl fun k _ => ?_)
    exact congrArg₂ (· * ·) (k1_pay2_at v0 p k) rfl
  · refine (mm_256_256_256 _ _ p q).trans (Finset.sum_congr rfl fun k _ => ?_)
    refine congrArg₂ (· * ·) ?_ rfl
    refine congrArg₂ (· * ·) ?_ inv_10
    exact addSlice1 _ v31 p k _ (addSlice1 _ v28 p k _ (k1_pay3_at v4 v7 v10 v13 v16 v19 v22 v25 p k))

end Cert.Bridge.Payload

end
-- ==== Proof.KIValue.lean ====
import proofs.«163544_j27779848471357_2_alg».proof.Proof.KIRegion0
import proofs.«163544_j27779848471357_2_alg».proof.Proof.KIRegion1
import proofs.«163544_j27779848471357_2_alg».proof.Proof.KIRegion2
import proofs.«163544_j27779848471357_2_alg».proof.Proof.PayloadAt
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.ShloMosaic.ValueIdx Idealize.SL.Sem
open Idealize.ShloMosaic.Pipeline (Dat)

namespace Cert.Bridge.KerValue

open Cert.KernelIdeal Cert.KernelIdeal.Gen Cert.KernelIdeal.Hand Cert.Bridge.Payload

/-! ## One entry of an aggregation layer, from the rows it reads -/

/-- One entry of an aggregation layer before any rectifier: the destination row times a column of the self weights,
    plus the mean of the ten neighbour rows (their sum from zero in fan order, times one tenth) times a column of the
    neighbour weights, plus the bias entry. -/
def sageEntry {K : ℕ} (xd : Fin K → EReal) (xn : Fin 10 → Fin K → EReal) (ws wn : Fin K → EReal) (b : EReal) : EReal :=
  (∑ k : Fin K, xd k * ws k)
    + (∑ k : Fin K, (((((((((((0 + xn 0 k) + xn 1 k) + xn 2 k) + xn 3 k) + xn 4 k) + xn 5 k) + xn 6 k) + xn 7 k)
        + xn 8 k) + xn 9 k) * (((1 / 10 : ℝ) : EReal))) * wn k)
    + b

theorem hz2 : (![0, 0] : Fin 2 → Nat) = fun _ => 0 := funext fun a => by fin_cases a <;> rfl
theorem hz1 : (![0] : Fin 1 → Nat) = fun _ => 0 := funext fun a => by fin_cases a <;> rfl

/-- A load of one neighbour slice [R, 1, C] at offset (0, f, 0) of an [R, 10, C] block reads, at (p, 0, k), the
    block at (p, f, k). -/
theorem ld_slice {α : Type} {R C : ℕ} (x : (⟨3, ![R, 10, C]⟩ : Shape).Idx → α) (f : Fin 10)
    (inb : ∀ a, (![0, f.val, 0] : Fin 3 → Nat) a + (⟨3, ![R, 1, C]⟩ : Shape).size a ≤ (⟨3, ![R, 10, C]⟩ : Shape).size a)
    (p : Fin R) (k : Fin C) :
    x ((Rect.unit (s := ⟨3, ![R, 10, C]⟩) ![0, f.val, 0] (⟨3, ![R, 1, C]⟩ : Shape).size inb).idx (ix3 p (0 : Fin 1) k))
      = x (ix3 p f k) := by
  refine congrArg x (funext fun a => Fin.ext ?_)
  match a with
  | ⟨0, _⟩ => show 0 + 1 * p.val = p.val; omega
  | ⟨1, _⟩ => show f.val + 1 * 0 = f.val; omega
  | ⟨2, _⟩ => show 0 + 1 * k.val = k.val; omega

/-! ## Region 0: from blocks to the array -/

section Region0
variable (V : (c : Dev nD) → (b : Ref sig .tc) → Buf (Elt Ideal) ((c : Thread nD τ).loc b))

/-- The block indices of region 0's windows at every grid point: the row-block windows (destination rows, gathered
    neighbour rows, output rows) sit at block t, the weights and the bias at block 0. -/
theorem idx0 : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The destination window's block at point t is rows 1024 t … of its array. -/
theorem iblk0_0_at (c : Dev nD) (t : Fin cfg0.N) (p : Fin 1024) (k : Fin 128) (n : Fin 122880)
    (hn : n.val = t.val * 1024 + p.val) :
    (iblk0 (F := Ideal) V c 0 t : Vec Ideal S1024x128 .bf16) (ix2 p k) = (V c main_v15 : Vec Ideal S122880x128 .bf16) (ix2 n k) := by
  obtain ⟨e0, e1, -⟩ := idx0 t
  unfold iblk0
  show V c main_v15 (((cfg0.win 0).blk t).view.emb (ix2 p k)) = V c main_v15 (ix2 n k)
  refine congrArg _ (funext fun a => Fin.ext ?_)
  match a with
  | ⟨0, _⟩ => show win0_0.index t (0 : Fin 2) * 1024 + 1 * p.val = n.val; rw [e0, hn]; omega
  | ⟨1, _⟩ => show win0_0.index t (1 : Fin 2) * 128 + 1 * k.val = k.val; rw [e1]; omega

/-- The neighbour window's block at point t is rows 1024 t … of its array, all ten neighbours, all columns. -/
theorem iblk0_1_at (c : Dev nD) (t : Fin cfg0.N) (p : Fin 1024) (f : Fin 10) (k : Fin 128) (n : Fin 122880)
    (hn : n.val = t.val * 1024 + p.val) :
    (iblk0 (F := Ideal) V c 1 t : Vec Ideal S1024x10x128 .bf16) (ix3 p f k) = (V c main_v23 : Vec Ideal S122880x10x128 .bf16) (ix3 n f k) := by
  obtain ⟨-, -, e0, e1, e2, -⟩ := idx0 t
  unfold iblk0
  show V c main_v23 (((cfg0.win 1).blk t).view.emb (ix3 p f k)) = V c main_v23 (ix3 n f k)
  refine congrArg _ (funext fun a => Fin.ext ?_)
  match a with
  | ⟨0, _⟩ => show win0_1.index t (0 : Fin 3) * 1024 + 1 * p.val = n.val; rw [e0, hn]; omega
  | ⟨1, _⟩ => show win0_1.index t (1 : Fin 3) * 10 + 1 * f.val = f.val; rw [e1]; omega
  | ⟨2, _⟩ => show win0_1.index t (2 : Fin 3) * 128 + 1 * k.val = k.val; rw [e2]; omega

/-- The self weights' window is the whole array at every point. -/
theorem iblk0_2_at (c : Dev nD) (t : Fin cfg0.N) (k : Fin 128) (q : Fin 256) :
    (iblk0 (F := Ideal) V c 2 t : Vec Ideal S128x256 .f32) (ix2 k q) = (V c main_arg4 : Vec Ideal S128x256 .f32) (ix2 k q) := by
  obtain ⟨-, -, -, -, -, e0, e1, -⟩ := idx0 t
  unfold iblk0
  show V c main_arg4 (((cfg0.win 2).blk t).view.emb (ix2 k q)) = V c main_arg4 (ix2 k q)
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- The neighbour weights' window is the whole array at every point. -/
theorem iblk0_3_at (c : Dev nD) (t : Fin cfg0.N) (k : Fin 128) (q : Fin 256) :
    (iblk0 (F := Ideal) V c 3 t : Vec Ideal S128x256 .f32) (ix2 k q) = (V c main_arg5 : Vec Ideal S128x256 .f32) (ix2 k q) := by
  obtain ⟨-, -, -, -, -, -, -, e0, e1, -⟩ := idx0 t
  unfold iblk0
  show V c main_arg5 (((cfg0.win 3).blk t).view.emb (ix2 k q)) = V c main_arg5 (ix2 k q)
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- The bias window is the whole array at every point. -/
theorem iblk0_4_at (c : Dev nD) (t : Fin cfg0.N) (q : Fin 256) :
    (iblk0 (F := Ideal) V c 4 t : Vec Ideal S256 .f32) (ix1 q) = (V c main_arg6 : Vec Ideal S256 .f32) (ix1 q) := by
  obtain ⟨-, -, -, -, -, -, -, -, -, e0, -⟩ := idx0 t
  unfold iblk0
  show V c main_arg6 (((cfg0.win 4).blk t).view.emb (ix1 q)) = V c main_arg6 (ix1 q)
  refine congrArg _ (funext fun a => Fin.ext ?_)
  match a with
  | ⟨0, _⟩ => show win0_4.index t (0 : Fin 1) * 256 + 1 * q.val = q.val; rw [e0]; omega

/-- An index of the output array is in point t's block iff each coordinate is in the block's range on its axis. -/
theorem mem_blk0 (t : Fin cfg0.N) (i : S122880x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v24).slice (win0_5.rect t)).set ↔ _
  rw [View.set_slice_whole, Rect.mem_set_unit]
  exact Iff.rfl

/-- Every entry of the output array is in the block of the point its row falls in: row n in block n / 1024. -/
theorem cover0 (i : S122880x256.Idx) : ∃ t : Fin cfg0.N, (cfg0.win 5).flush t = true ∧ i ∈ ((cfg0.win 5).blk t).view.set := by
  have hN : cfg0.N = 120 := N_0
  have hi0 : (i 0).val < 122880 := (i 0).isLt
  have hi1 : (i 1).val < 256 := (i 1).isLt
  refine ⟨⟨(i 0).val / 1024, by rw [hN]; omega⟩, flush0_5 _, ?_⟩
  rw [mem_blk0]
  obtain ⟨-, -, -, -, -, -, -, -, -, -, e0, e1⟩ := idx0 ⟨(i 0).val / 1024, by rw [hN]; omega⟩
  intro a
  match a with
  | ⟨0, _⟩ => show win0_5.index _ (0 : Fin 2) * 1024 ≤ (i 0).val ∧ (i 0).val < win0_5.index _ (0 : Fin 2) * 1024 + 1024; rw [e0]; show (i 0).val / 1024 * 1024 ≤ (i 0).val ∧ (i 0).val < (i 0).val / 1024 * 1024 + 1024; omega
  | ⟨1, _⟩ => show win0_5.index _ (1 : Fin 2) * 256 ≤ (i 1).val ∧ (i 1).val < win0_5.index _ (1 : Fin 2) * 256 + 256; rw [e1]; omega

/-! ### Region 0: the output block, the whole-array function, the array after the run -/

theorem sageEntry_congr {K : ℕ} {xd xd' : Fin K → EReal} {xn xn' : Fin 10 → Fin K → EReal} {ws ws' wn wn' : Fin K → EReal}
    {b b' : EReal} (h0 : xd = xd') (h1 : xn = xn') (h2 : ws = ws') (h3 : wn = wn') (h4 : b = b') :
    sageEntry xd xn ws wn b = sageEntry xd' xn' ws' wn' b' := by
  subst h0 h1 h2 h3 h4; rfl

/-- The first layer's output block at (p, q), from the five input blocks: the rectified layer entry of row p of the
    destination block, rows p of the ten neighbour slices, column q of the two weight matrices and the bias at q. -/
theorem out0_5_at (x0 : Vec Ideal S1024x128 .bf16) (x1 : Vec Ideal S1024x10x128 .bf16) (x2 x3 : Vec Ideal S128x256 .f32)
    (x4 : Vec Ideal S256 .f32) (p : Fin 1024) (q : Fin 256) :
    out0_5 (F := Ideal) x0 x1 x2 x3 x4 (ix2 p q)
      = max (sageEntry (fun k => x0 (ix2 p k)) (fun f k => x1 (ix3 p f k)) (fun k => x2 (ix2 k q)) (fun k => x3 (ix2 k q))
          (x4 (ix1 q))) 0 := by
  unfold out0_5
  rw [View.canon_unit_zero hz2]
  refine (k0_pay1_at _ _ _ _ _ _ _ _ _ _ _ _ _ _ p q).trans ?_
  unfold sageEntry
  refine congrArg₂ max (congrArg₂ (· + ·) (congrArg₂ (· + ·)
    (Finset.sum_congr rfl fun k _ => congrArg₂ (· * ·)
      (congrFun (View.ld_unit_zero (S := S1024x128) hz2 inb_S1024x128_S1024x128_0_0 x0) (ix2 p k))
      (congrFun (View.ld_unit_zero (S := S128x256) hz2 inb_S128x256_S128x256_0_0 x2) (ix2 k q)))
    (Finset.sum_congr rfl fun k _ => congrArg₂ (· * ·) (congrArg₂ (· * ·) ?_ rfl)
      (congrFun (View.ld_unit_zero (S := S128x256) hz2 inb_S128x256_S128x256_0_0 x3) (ix2 k q))))
    (congrFun (View.ld_unit_zero (S := S256) hz1 inb_S256_S256_0 x4) (ix1 q))) rfl
  exact congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl (ld_slice x1 0 _ p k)) (ld_slice x1 1 _ p k))
    (ld_slice x1 2 _ p k)) (ld_slice x1 3 _ p k)) (ld_slice x1 4 _ p k)) (ld_slice x1 5 _ p k)) (ld_slice x1 6 _ p k))
    (ld_slice x1 7 _ p k)) (ld_slice x1 8 _ p k)) (ld_slice x1 9 _ p k)

/-- One entry of the first layer from whole arrays: the rectified layer entry of row n of the destination rows, rows n
    of the gathered neighbour rows, column j of the weights and the bias at j. -/
def entry0 (a0 : Vec Ideal S122880x128 .bf16) (a1 : Vec Ideal S122880x10x128 .bf16) (a2 a3 : Vec Ideal S128x256 .f32)
    (a4 : Vec Ideal S256 .f32) (n : Fin 122880) (j : Fin 256) : EReal :=
  max (sageEntry (fun k => a0 (ix2 n k)) (fun f k => a1 (ix3 n f k)) (fun k => a2 (ix2 k j)) (fun k => a3 (ix2 k j))
    (a4 (ix1 j))) 0

/-- The first layer's whole output array as one function of the five arrays its windows read. -/
def G0 (a0 : Vec Ideal S122880x128 .bf16) (a1 : Vec Ideal S122880x10x128 .bf16) (a2 a3 : Vec Ideal S128x256 .f32)
    (a4 : Vec Ideal S256 .f32) : Vec Ideal S122880x256 .f32 :=
  fun i => entry0 a0 a1 a2 a3 a4 ⟨(i 0).val, idx2_lt0 i⟩ ⟨(i 1).val, idx2_lt1 i⟩

/-- What point t writes back is block t of that function of the arrays as the region finds them. -/
theorem flushed0_eq (c : Dev nD) (t : Fin cfg0.N) :
    (dat0 (F := Ideal) V c).flushed 5 t
      = ((cfg0.win 5).blk t).view.read (Elt Ideal) (G0 (V c main_v15) (V c main_v23) (V c main_arg4) (V c main_arg5) (V c main_arg6)) := by
  show (cfg0.win 5).cut (grid0.coords t) ((dat0 V c).after 5 t) = _
  rw [after0_5]
  funext y
  obtain ⟨p, q, rfl⟩ : ∃ (p : Fin 1024) (q : Fin 256), y = ix2 p q := ⟨y 0, y 1, eq_ix2 (n0 := 1024) (n1 := 256) y⟩
  obtain ⟨-, -, -, -, -, -, -, -, -, -, e0, e1⟩ := idx0 t
  have hN : cfg0.N = 120 := N_0
  have ht : t.val < 120 := hN ▸ t.isLt
  have key : ∀ (n : Fin 122880) (j : Fin 256), n.val = t.val * 1024 + p.val → j.val = q.val →
      out0_5 (F := Ideal) (iblk0 V c 0 t) (iblk0 V c 1 t) (iblk0 V c 2 t) (iblk0 V c 3 t) (iblk0 V c 4 t) (ix2 p q)
        = entry0 (V c main_v15) (V c main_v23) (V c main_arg4) (V c main_arg5) (V c main_arg6) n j := by
    intro n j hn hj
    obtain rfl : j = q := Fin.ext hj
    refine (out0_5_at _ _ _ _ _ p j).trans ?_
    unfold entry0
    exact congrArg₂ max (sageEntry_congr (funext fun k => iblk0_0_at V c t p k n hn)
      (funext fun f => funext fun k => iblk0_1_at V c t p f k n hn) (funext fun k => iblk0_2_at V c t k j)
      (funext fun k => iblk0_3_at V c t k j) (iblk0_4_at V c t j)) rfl
  refine key _ _ ?_ ?_
  · show win0_5.index t (0 : Fin 2) * 1024 + 1 * p.val = t.val * 1024 + p.val
    rw [e0]; omega
  · show win0_5.index t (1 : Fin 2) * 256 + 1 * q.val = q.val
    rw [e1]; omega

/-- The output array after all grid points is that function of the arrays as the region finds them. -/
theorem final0 (c : Dev nD) :
    (dat0 (F := Ideal) V c).arrAt 5 cfg0.N = G0 (V c main_v15) (V c main_v23) (V c main_arg4) (V c main_arg5) (V c main_arg6) :=
  (dat0 V c).arrAt_eq_of_cover 5 _ (fun t _ => flushed0_eq V c t) cover0

/-- REGION 0, index by index: entry (n, j) of the output array after the run is the rectifier of destination row n
    times column j of the self weights, plus the mean of the ten gathered neighbour rows of n (their sum from zero in
    fan order, times one tenth) times column j of the neighbour weights, plus the bias at j. -/
theorem arr0_at (c : Dev nD) (n : Fin 122880) (j : Fin 256) :
    (dat0 (F := Ideal) V c).arrAt 5 cfg0.N (ix2 n j)
      = entry0 (V c main_v15) (V c main_v23) (V c main_arg4) (V c main_arg5) (V c main_arg6) n j :=
  (congrFun (final0 V c) (ix2 n j)).trans rfl

end Region0

/-- The first layer's entry written out. -/
theorem entry0_eq (a0 : Vec Ideal S122880x128 .bf16) (a1 : Vec Ideal S122880x10x128 .bf16) (a2 a3 : Vec Ideal S128x256 .f32)
    (a4 : Vec Ideal S256 .f32) (n : Fin 122880) (j : Fin 256) :
    entry0 a0 a1 a2 a3 a4 n j
      = max ((∑ k : Fin 128, a0 (ix2 n k) * a2 (ix2 k j))
          + (∑ k : Fin 128, (((((((((((0 + a1 (ix3 n 0 k)) + a1 (ix3 n 1 k)) + a1 (ix3 n 2 k)) + a1 (ix3 n 3 k)) + a1 (ix3 n 4 k))
              + a1 (ix3 n 5 k)) + a1 (ix3 n 6 k)) + a1 (ix3 n 7 k)) + a1 (ix3 n 8 k)) + a1 (ix3 n 9 k)) * (((1 / 10 : ℝ) : EReal)))
              * a3 (ix2 k j))
          + a4 (ix1 j)) 0 := rfl

/-! ## Region 2: from blocks to the array -/

/-- The predictor's value from the two endpoint rows it multiplies entrywise, the three weight matrices and the three
    biases: two rectified dense layers 256 wide and a final dense layer with one output. -/
def predEntry (xa xb : Fin 256 → EReal) (w1 : Vec Ideal S256x256 .f32) (b1 : Vec Ideal S256 .f32) (w2 : Vec Ideal S256x256 .f32)
    (b2 : Vec Ideal S256 .f32) (w3 : Vec Ideal S256x1 .f32) (b3 : Vec Ideal S1 .f32) : EReal :=
  (∑ k : Fin 256, max ((∑ j : Fin 256, max ((∑ i : Fin 256, (xa i * xb i) * w1 (ix2 i j)) + b1 (ix1 j)) 0 * w2 (ix2 j k))
      + b2 (ix1 k)) 0 * w3 (ix2 k 0)) + b3 (ix1 0)

theorem predEntry_congr {xa xa' xb xb' : Fin 256 → EReal} {w1 w1' : Vec Ideal S256x256 .f32} {b1 b1' : Vec Ideal S256 .f32}
    {w2 w2' : Vec Ideal S256x256 .f32} {b2 b2' : Vec Ideal S256 .f32} {w3 w3' : Vec Ideal S256x1 .f32} {b3 b3' : Vec Ideal S1 .f32}
    (h0 : xa = xa') (h1 : xb = xb') (h2 : w1 = w1') (h3 : b1 = b1') (h4 : w2 = w2') (h5 : b2 = b2') (h6 : w3 = w3') (h7 : b3 = b3') :
    predEntry xa xb w1 b1 w2 b2 w3 b3 = predEntry xa' xb' w1' b1' w2' b2' w3' b3' := by
  subst h0 h1 h2 h3 h4 h5 h6 h7; rfl

theorem k2_pay1_congr {x0 x0' x1 x1' : Vec Ideal S4096x256 .f32} {x2 x2' : Vec Ideal S256x256 .f32} {x3 x3' : Vec Ideal S256 .f32}
    {x4 x4' : Vec Ideal S256x256 .f32} {x5 x5' : Vec Ideal S256 .f32} {x6 x6' : Vec Ideal S256x1 .f32} {x7 x7' : Vec Ideal S1 .f32}
    (h0 : x0 = x0') (h1 : x1 = x1') (h2 : x2 = x2') (h3 : x3 = x3') (h4 : x4 = x4') (h5 : x5 = x5') (h6 : x6 = x6') (h7 : x7 = x7') :
    k2_pay1 (F := Ideal) x0 x1 x2 x3 x4 x5 x6 x7 = k2_pay1 (F := Ideal) x0' x1' x2' x3' x4' x5' x6' x7' := by
  subst h0 h1 h2 h3 h4 h5 h6 h7; rfl

/-- The predictor's output block at row p, from the eight input blocks. -/
theorem out2_8_at (x0 x1 : Vec Ideal S4096x256 .f32) (x2 : Vec Ideal S256x256 .f32) (x3 : Vec Ideal S256 .f32)
    (x4 : Vec Ideal S256x256 .f32) (x5 : Vec Ideal S256 .f32) (x6 : Vec Ideal S256x1 .f32) (x7 : Vec Ideal S1 .f32) (p : Fin 4096) :
    out2_8 (F := Ideal) x0 x1 x2 x3 x4 x5 x6 x7 (ix2 p 0)
      = predEntry (fun i => x0 (ix2 p i)) (fun i => x1 (ix2 p i)) x2 x3 x4 x5 x6 x7 := by
  unfold out2_8
  rw [View.canon_unit_zero hz2]
  refine (congrFun (k2_pay1_congr
    (View.ld_unit_zero (S := S4096x256) hz2 inb_S4096x256_S4096x256_0_0 x0)
    (View.ld_unit_zero (S := S4096x256) hz2 inb_S4096x256_S4096x256_0_0 x1)
    (View.ld_unit_zero (S := S256x256) hz2 inb_S256x256_S256x256_0_0 x2)
    (View.ld_unit_zero (S := S256) hz1 inb_S256_S256_0 x3)
    (View.ld_unit_zero (S := S256x256) hz2 inb_S256x256_S256x256_0_0 x4)
    (View.ld_unit_zero (S := S256) hz1 inb_S256_S256_0 x5)
    (View.ld_unit_zero (S := S256x1) hz2 inb_S256x1_S256x1_0_0 x6)
    (View.ld_unit_zero (S := S1) hz1 inb_S1_S1_0 x7)) (ix2 p 0)).trans ?_
  exact k2_pay1_at x0 x1 x2 x3 x4 x5 x6 x7 p

section Region2
variable (V : (c : Dev nD) → (b : Ref sig .tc) → Buf (Elt Ideal) ((c : Thread nD τ).loc b))

/-- The block indices of region 2's windows at every grid point: the first endpoint window stays at block 0, the second
    sits at block t + 1, the output at block t, the weights and biases at block 0. -/
theorem idx2 : ∀ t : Fin cfg2.N,
    win2_0.index t (0 : Fin 2) = 0 ∧ win2_0.index t (1 : Fin 2) = 0
    ∧ win2_1.index t (0 : Fin 2) = t.val + 1 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- The first endpoint window's block is rows 0 … 4095 of its array at every point. -/
theorem iblk2_0_at (c : Dev nD) (t : Fin cfg2.N) (p : Fin 4096) (i : Fin 256) (n : Fin 12288) (hn : n.val = p.val) :
    (iblk2 (F := Ideal) V c 0 t : Vec Ideal S4096x256 .f32) (ix2 p i) = (V c main_v33 : Vec Ideal S12288x256 .f32) (ix2 n i) := by
  obtain ⟨e0, e1, -⟩ := idx2 t
  unfold iblk2
  show V c main_v33 (((cfg2.win 0).blk t).view.emb (ix2 p i)) = V c main_v33 (ix2 n i)
  refine congrArg _ (funext fun a => Fin.ext ?_)
  match a with
  | ⟨0, _⟩ => show win2_0.index t (0 : Fin 2) * 4096 + 1 * p.val = n.val; rw [e0, hn]; omega
  | ⟨1, _⟩ => show win2_0.index t (1 : Fin 2) * 256 + 1 * i.val = i.val; rw [e1]; omega

/-- The second endpoint window's block at point t is rows 4096 (t + 1) … of the same array. -/
theorem iblk2_1_at (c : Dev nD) (t : Fin cfg2.N) (p : Fin 4096) (i : Fin 256) (n : Fin 12288)
    (hn : n.val = (t.val + 1) * 4096 + p.val) :
    (iblk2 (F := Ideal) V c 1 t : Vec Ideal S4096x256 .f32) (ix2 p i) = (V c main_v33 : Vec Ideal S12288x256 .f32) (ix2 n i) := by
  obtain ⟨-, -, e0, e1, -⟩ := idx2 t
  unfold iblk2
  show V c main_v33 (((cfg2.win 1).blk t).view.emb (ix2 p i)) = V c main_v33 (ix2 n i)
  refine congrArg _ (funext fun a => Fin.ext ?_)
  match a with
  | ⟨0, _⟩ => show win2_1.index t (0 : Fin 2) * 4096 + 1 * p.val = n.val; rw [e0, hn]; omega
  | ⟨1, _⟩ => show win2_1.index t (1 : Fin 2) * 256 + 1 * i.val = i.val; rw [e1]; omega

/-- The first weight matrix's window is the whole array at every point. -/
theorem iblk2_2_eq (c : Dev nD) (t : Fin cfg2.N) :
    (iblk2 (F := Ideal) V c 2 t : Vec Ideal S256x256 .f32) = (V c main_arg10 : Vec Ideal S256x256 .f32) := by
  obtain ⟨-, -, -, -, e0, e1, -⟩ := idx2 t
  unfold iblk2
  funext y
  show V c main_arg10 (((cfg2.win 2).blk t).view.emb y) = V c main_arg10 y
  refine congrArg _ (funext fun a => Fin.ext ?_)
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- The first bias's window is the whole array at every point. -/
theorem iblk2_3_eq (c : Dev nD) (t : Fin cfg2.N) :
    (iblk2 (F := Ideal) V c 3 t : Vec Ideal S256 .f32) = (V c main_arg11 : Vec Ideal S256 .f32) := by
  obtain ⟨-, -, -, -, -, -, e0, -⟩ := idx2 t
  unfold iblk2
  funext y
  show V c main_arg11 (((cfg2.win 3).blk t).view.emb y) = V c main_arg11 y
  refine congrArg _ (funext fun a => Fin.ext ?_)
  match a with
  | ⟨0, _⟩ => show win2_3.index t (0 : Fin 1) * 256 + 1 * (y 0).val = (y 0).val; rw [e0]; omega

/-- The second weight matrix's window is the whole array at every point. -/
theorem iblk2_4_eq (c : Dev nD) (t : Fin cfg2.N) :
    (iblk2 (F := Ideal) V c 4 t : Vec Ideal S256x256 .f32) = (V c main_arg12 : Vec Ideal S256x256 .f32) := by
  obtain ⟨-, -, -, -, -, -, -, e0, e1, -⟩ := idx2 t
  unfold iblk2
  funext y
  show V c main_arg12 (((cfg2.win 4).blk t).view.emb y) = V c main_arg12 y
  refine congrArg _ (funext fun a => Fin.ext ?_)
  match a with
  | ⟨0, _⟩ => show win2_4.index t (0 : Fin 2) * 256 + 1 * (y 0).val = (y 0).val; rw [e0]; omega
  | ⟨1, _⟩ => show win2_4.index t (1 : Fin 2) * 256 + 1 * (y 1).val = (y 1).val; rw [e1]; omega

/-- The second bias's window is the whole array at every point. -/
theorem iblk2_5_eq (c : Dev nD) (t : Fin cfg2.N) :
    (iblk2 (F := Ideal) V c 5 t : Vec Ideal S256 .f32) = (V c main_arg13 : Vec Ideal S256 .f32) := by
  obtain ⟨-, -, -, -, -, -, -, -, -, e0, -⟩ := idx2 t
  unfold iblk2
  funext y
  show V c main_arg13 (((cfg2.win 5).blk t).view.emb y) = V c main_arg13 y
  refine congrArg _ (funext fun a => Fin.ext ?_)
  match a with
  | ⟨0, _⟩ => show win2_5.index t (0 : Fin 1) * 256 + 1 * (y 0).val = (y 0).val; rw [e0]; omega

/-- The last weight matrix's window is the whole array at every point. -/
theorem iblk2_6_eq (c : Dev nD) (t : Fin cfg2.N) :
    (iblk2 (F := Ideal) V c 6 t : Vec Ideal S256x1 .f32) = (V c main_arg14 : Vec Ideal S256x1 .f32) := by
  obtain ⟨-, -, -, -, -, -, -, -, -, -, e0, e1, -⟩ := idx2 t
  unfold iblk2
  funext y
  show V c main_arg14 (((cfg2.win 6).blk t).view.emb y) = V c main_arg14 y
  refine congrArg _ (funext fun a => Fin.ext ?_)
  match a with
  | ⟨0, _⟩ => show win2_6.index t (0 : Fin 2) * 256 + 1 * (y 0).val = (y 0).val; rw [e0]; omega
  | ⟨1, _⟩ => show win2_6.index t (1 : Fin 2) * 1 + 1 * (y 1).val = (y 1).val; rw [e1]; omega

/-- The last bias's window is the whole array at every point. -/
theorem iblk2_7_eq (c : Dev nD) (t : Fin cfg2.N) :
    (iblk2 (F := Ideal) V c 7 t : Vec Ideal S1 .f32) = (V c main_arg15 : Vec Ideal S1 .f32) := by
  obtain ⟨-, -, -, -, -, -, -, -, -, -, -, -, e0, -⟩ := idx2 t
  unfold iblk2
  funext y
  show V c main_arg15 (((cfg2.win 7).blk t).view.emb y) = V c main_arg15 y
  refine congrArg _ (funext fun a => Fin.ext ?_)
  match a with
  | ⟨0, _⟩ => show win2_7.index t (0 : Fin 1) * 1 + 1 * (y 0).val = (y 0).val; rw [e0]; omega

/-- One score from whole arrays: row r of the scores pairs row r mod 4096 of the embeddings (the source endpoint) with
    row 4096 + r (the positive endpoints, then the negative ones). -/
def entry2 (a : Vec Ideal S12288x256 .f32) (w1 : Vec Ideal S256x256 .f32) (b1 : Vec Ideal S256 .f32) (w2 : Vec Ideal S256x256 .f32)
    (b2 : Vec Ideal S256 .f32) (w3 : Vec Ideal S256x1 .f32) (b3 : Vec Ideal S1 .f32) (r : Fin 8192) : EReal :=
  predEntry (fun i => a (ix2 (⟨r.val % 4096, by omega⟩ : Fin 12288) i)) (fun i => a (ix2 (⟨4096 + r.val, by omega⟩ : Fin 12288) i))
    w1 b1 w2 b2 w3 b3

/-- The predictor's whole output array as one function of the arrays its windows read. -/
def G2 (a : Vec Ideal S12288x256 .f32) (w1 : Vec Ideal S256x256 .f32) (b1 : Vec Ideal S256 .f32) (w2 : Vec Ideal S256x256 .f32)
    (b2 : Vec Ideal S256 .f32) (w3 : Vec Ideal S256x1 .f32) (b3 : Vec Ideal S1 .f32) : Vec Ideal S8192x1 .f32 :=
  fun i => entry2 a w1 b1 w2 b2 w3 b3 ⟨(i 0).val, idx2_lt0 i⟩

/-- An index of the output array is in point t's block iff each coordinate is in the block's range on its axis. -/
theorem mem_blk2 (t : Fin cfg2.N) (i : S8192x1.Idx) :
    i ∈ ((cfg2.win 8).blk t).view.set ↔ ∀ a : Fin 2, win2_8.index t a * S4096x1.size a ≤ (i a).val ∧ (i a).val < win2_8.index t a * S4096x1.size a + S4096x1.size a := by
  show i ∈ ((View.whole main_v34).slice (win2_8.rect t)).set ↔ _
  rw [View.set_slice_whole, Rect.mem_set_unit]
  exact Iff.rfl

/-- Every entry of the output array is in the block of the point its row falls in: row r in block r / 4096. -/
theorem cover2 (i : S8192x1.Idx) : ∃ t : Fin cfg2.N, (cfg2.win 8).flush t = true ∧ i ∈ ((cfg2.win 8).blk t).view.set := by
  have hN : cfg2.N = 2 := N_2
  have hi0 : (i 0).val < 8192 := (i 0).isLt
  have hi1 : (i 1).val < 1 := (i 1).isLt
  refine ⟨⟨(i 0).val / 4096, by rw [hN]; omega⟩, flush2_8 _, ?_⟩
  rw [mem_blk2]
  obtain ⟨-, -, -, -, -, -, -, -, -, -, -, -, -, e0, e1⟩ := idx2 ⟨(i 0).val / 4096, by rw [hN]; omega⟩
  intro a
  match a with
  | ⟨0, _⟩ => show win2_8.index _ (0 : Fin 2) * 4096 ≤ (i 0).val ∧ (i 0).val < win2_8.index _ (0 : Fin 2) * 4096 + 4096; rw [e0]; show (i 0).val / 4096 * 4096 ≤ (i 0).val ∧ (i 0).val < (i 0).val / 4096 * 4096 + 4096; omega
  | ⟨1, _⟩ => show win2_8.index _ (1 : Fin 2) * 1 ≤ (i 1).val ∧ (i 1).val < win2_8.index _ (1 : Fin 2) * 1 + 1; rw [e1]; omega

/-- What point t writes back is block t of that function of the arrays as the region finds them. -/
theorem flushed2_eq (c : Dev nD) (t : Fin cfg2.N) :
    (dat2 (F := Ideal) V c).flushed 8 t
      = ((cfg2.win 8).blk t).view.read (Elt Ideal) (G2 (V c main_v33) (V c main_arg10) (V c main_arg11) (V c main_arg12)
          (V c main_arg13) (V c main_arg14) (V c main_arg15)) := by
  show (cfg2.win 8).cut (grid2.coords t) ((dat2 V c).after 8 t) = _
  rw [after2_8]
  funext y
  obtain ⟨p, u, rfl⟩ : ∃ (p : Fin 4096) (u : Fin 1), y = ix2 p u := ⟨y 0, y 1, eq_ix2 (n0 := 4096) (n1 := 1) y⟩
  obtain rfl : u = 0 := Subsingleton.elim _ _
  obtain ⟨-, -, -, -, -, -, -, -, -, -, -, -, -, e0, e1⟩ := idx2 t
  have hN : cfg2.N = 2 := N_2
  have ht : t.val < 2 := hN ▸ t.isLt
  have key : ∀ (r : Fin 8192), r.val = t.val * 4096 + p.val →
      out2_8 (F := Ideal) (iblk2 V c 0 t) (iblk2 V c 1 t) (iblk2 V c 2 t) (iblk2 V c 3 t) (iblk2 V c 4 t) (iblk2 V c 5 t)
          (iblk2 V c 6 t) (iblk2 V c 7 t) (ix2 p 0)
        = entry2 (V c main_v33) (V c main_arg10) (V c main_arg11) (V c main_arg12) (V c main_arg13) (V c main_arg14)
            (V c main_arg15) r := by
    intro r hr
    refine (out2_8_at _ _ _ _ _ _ _ _ p).trans ?_
    unfold entry2
    exact predEntry_congr (funext fun i => iblk2_0_at V c t p i _ (by show r.val % 4096 = p.val; have := p.isLt; omega))
      (funext fun i => iblk2_1_at V c t p i _ (by show 4096 + r.val = (t.val + 1) * 4096 + p.val; omega))
      (iblk2_2_eq V c t) (iblk2_3_eq V c t) (iblk2_4_eq V c t) (iblk2_5_eq V c t) (iblk2_6_eq V c t) (iblk2_7_eq V c t)
  refine key _ ?_
  show win2_8.index t (0 : Fin 2) * 4096 + 1 * p.val = t.val * 4096 + p.val
  rw [e0]; omega

/-- The output array after both grid points is that function of the arrays as the region finds them. -/
theorem final2 (c : Dev nD) :
    (dat2 (F := Ideal) V c).arrAt 8 cfg2.N = G2 (V c main_v33) (V c main_arg10) (V c main_arg11) (V c main_arg12)
      (V c main_arg13) (V c main_arg14) (V c main_arg15) :=
  (dat2 V c).arrAt_eq_of_cover 8 _ (fun t _ => flushed2_eq V c t) (cover2)

/-- REGION 2, index by index: score r after the run is the predictor of row r mod 4096 and row 4096 + r of the
    embeddings. -/
theorem arr2_at (c : Dev nD) (r : Fin 8192) :
    (dat2 (F := Ideal) V c).arrAt 8 cfg2.N (ix2 r 0)
      = entry2 (V c main_v33) (V c main_arg10) (V c main_arg11) (V c main_arg12) (V c main_arg13) (V c main_arg14)
          (V c main_arg15) r :=
  (congrFun (final2 V c) (ix2 r 0)).trans rfl

end Region2

/-- The predictor's entry written out. -/
theorem entry2_eq (a : Vec Ideal S12288x256 .f32) (w1 : Vec Ideal S256x256 .f32) (b1 : Vec Ideal S256 .f32) (w2 : Vec Ideal S256x256 .f32)
    (b2 : Vec Ideal S256 .f32) (w3 : Vec Ideal S256x1 .f32) (b3 : Vec Ideal S1 .f32) (r : Fin 8192) :
    entry2 a w1 b1 w2 b2 w3 b3 r
      = (∑ k : Fin 256, max ((∑ j : Fin 256, max ((∑ i : Fin 256,
            (a (ix2 (⟨r.val % 4096, by omega⟩ : Fin 12288) i) * a (ix2 (⟨4096 + r.val, by omega⟩ : Fin 12288) i)) * w1 (ix2 i j))
            + b1 (ix1 j)) 0 * w2 (ix2 j k)) + b2 (ix1 k)) 0 * w3 (ix2 k 0)) + b3 (ix1 0) := rfl

/-! ## Region 1: from blocks to the array -/

/-- The second layer's output block at (p, q), from the five input blocks: the layer entry (no rectifier) of row p of
    the destination block, rows p of the ten neighbour slices, column q of the two weight matrices and the bias at q. -/
theorem out1_5_at (x0 : Vec Ideal S256x256 .f32) (x1 : Vec Ideal S256x10x256 .f32) (x2 x3 : Vec Ideal S256x256 .f32)
    (x4 : Vec Ideal S256 .f32) (p : Fin 256) (q : Fin 256) :
    out1_5 (F := Ideal) x0 x1 x2 x3 x4 (ix2 p q)
      = sageEntry (fun k => x0 (ix2 p k)) (fun f k => x1 (ix3 p f k)) (fun k => x2 (ix2 k q)) (fun k => x3 (ix2 k q))
          (x4 (ix1 q)) := by
  unfold out1_5
  rw [View.canon_unit_zero hz2]
  refine (k1_pay1_at _ _ _ _ _ _ _ _ _ _ _ _ _ _ p q).trans ?_
  unfold sageEntry
  refine congrArg₂ (· + ·) (congrArg₂ (· + ·)
    (Finset.sum_congr rfl fun k _ => congrArg₂ (· * ·)
      (congrFun (View.ld_unit_zero (S := S256x256) hz2 inb_S256x256_S256x256_0_0 x0) (ix2 p k))
      (congrFun (View.ld_unit_zero (S := S256x256) hz2 inb_S256x256_S256x256_0_0 x2) (ix2 k q)))
    (Finset.sum_congr rfl fun k _ => congrArg₂ (· * ·) (congrArg₂ (· * ·) ?_ rfl)
      (congrFun (View.ld_unit_zero (S := S256x256) hz2 inb_S256x256_S256x256_0_0 x3) (ix2 k q))))
    (congrFun (View.ld_unit_zero (S := S256) hz1 inb_S256_S256_0 x4) (ix1 q))
  exact congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl (ld_slice x1 0 _ p k)) (ld_slice x1 1 _ p k))
    (ld_slice x1 2 _ p k)) (ld_slice x1 3 _ p k)) (ld_slice x1 4 _ p k)) (ld_slice x1 5 _ p k)) (ld_slice x1 6 _ p k))
    (ld_slice x1 7 _ p k)) (ld_slice x1 8 _ p k)) (ld_slice x1 9 _ p k)

section Region1
variable (V : (c : Dev nD) → (b : Ref sig .tc) → Buf (Elt Ideal) ((c : Thread nD τ).loc b))

/-- The block indices of region 1's windows at every grid point: the row-block windows (destination rows, gathered
    neighbour rows, output rows) sit at block t, the weights and the bias at block 0. -/
theorem idx1 : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The destination window's block at point t is rows 256 t … of its array. -/
theorem iblk1_0_at (c : Dev nD) (t : Fin cfg1.N) (p : Fin 256) (k : Fin 256) (n : Fin 12288)
    (hn : n.val = t.val * 256 + p.val) :
    (iblk1 (F := Ideal) V c 0 t : Vec Ideal S256x256 .f32) (ix2 p k) = (V c main_v25 : Vec Ideal S12288x256 .f32) (ix2 n k) := by
  obtain ⟨e0, e1, -⟩ := idx1 t
  unfold iblk1
  show V c main_v25 (((cfg1.win 0).blk t).view.emb (ix2 p k)) = V c main_v25 (ix2 n k)
  refine congrArg _ (funext fun a => Fin.ext ?_)
  match a with
  | ⟨0, _⟩ => show win1_0.index t (0 : Fin 2) * 256 + 1 * p.val = n.val; rw [e0, hn]; omega
  | ⟨1, _⟩ => show win1_0.index t (1 : Fin 2) * 256 + 1 * k.val = k.val; rw [e1]; omega

/-- The neighbour window's block at point t is rows 256 t … of its array, all ten neighbours, all columns. -/
theorem iblk1_1_at (c : Dev nD) (t : Fin cfg1.N) (p : Fin 256) (f : Fin 10) (k : Fin 256) (n : Fin 12288)
    (hn : n.val = t.val * 256 + p.val) :
    (iblk1 (F := Ideal) V c 1 t : Vec Ideal S256x10x256 .f32) (ix3 p f k) = (V c main_v32 : Vec Ideal S12288x10x256 .f32) (ix3 n f k) := by
  obtain ⟨-, -, e0, e1, e2, -⟩ := idx1 t
  unfold iblk1
  show V c main_v32 (((cfg1.win 1).blk t).view.emb (ix3 p f k)) = V c main_v32 (ix3 n f k)
  refine congrArg _ (funext fun a => Fin.ext ?_)
  match a with
  | ⟨0, _⟩ => show win1_1.index t (0 : Fin 3) * 256 + 1 * p.val = n.val; rw [e0, hn]; omega
  | ⟨1, _⟩ => show win1_1.index t (1 : Fin 3) * 10 + 1 * f.val = f.val; rw [e1]; omega
  | ⟨2, _⟩ => show win1_1.index t (2 : Fin 3) * 256 + 1 * k.val = k.val; rw [e2]; omega

/-- The self weights' window is the whole array at every point. -/
theorem iblk1_2_at (c : Dev nD) (t : Fin cfg1.N) (k : Fin 256) (q : Fin 256) :
    (iblk1 (F := Ideal) V c 2 t : Vec Ideal S256x256 .f32) (ix2 k q) = (V c main_arg7 : Vec Ideal S256x256 .f32) (ix2 k q) := by
  obtain ⟨-, -, -, -, -, e0, e1, -⟩ := idx1 t
  unfold iblk1
  show V c main_arg7 (((cfg1.win 2).blk t).view.emb (ix2 k q)) = V c main_arg7 (ix2 k q)
  refine congrArg _ (funext fun a => Fin.ext ?_)
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- The neighbour weights' window is the whole array at every point. -/
theorem iblk1_3_at (c : Dev nD) (t : Fin cfg1.N) (k : Fin 256) (q : Fin 256) :
    (iblk1 (F := Ideal) V c 3 t : Vec Ideal S256x256 .f32) (ix2 k q) = (V c main_arg8 : Vec Ideal S256x256 .f32) (ix2 k q) := by
  obtain ⟨-, -, -, -, -, -, -, e0, e1, -⟩ := idx1 t
  unfold iblk1
  show V c main_arg8 (((cfg1.win 3).blk t).view.emb (ix2 k q)) = V c main_arg8 (ix2 k q)
  refine congrArg _ (funext fun a => Fin.ext ?_)
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- The bias window is the whole array at every point. -/
theorem iblk1_4_at (c : Dev nD) (t : Fin cfg1.N) (q : Fin 256) :
    (iblk1 (F := Ideal) V c 4 t : Vec Ideal S256 .f32) (ix1 q) = (V c main_arg9 : Vec Ideal S256 .f32) (ix1 q) := by
  obtain ⟨-, -, -, -, -, -, -, -, -, e0, -⟩ := idx1 t
  unfold iblk1
  show V c main_arg9 (((cfg1.win 4).blk t).view.emb (ix1 q)) = V c main_arg9 (ix1 q)
  refine congrArg _ (funext fun a => Fin.ext ?_)
  match a with
  | ⟨0, _⟩ => show win1_4.index t (0 : Fin 1) * 256 + 1 * q.val = q.val; rw [e0]; omega

/-- An index of the output array is in point t's block iff each coordinate is in the block's range on its axis. -/
theorem mem_blk1 (t : Fin cfg1.N) (i : S12288x256.Idx) :
    i ∈ ((cfg1.win 5).blk t).view.set ↔ ∀ a : Fin 2, win1_5.index t a * S256x256.size a ≤ (i a).val ∧ (i a).val < win1_5.index t a * S256x256.size a + S256x256.size a := by
  show i ∈ ((View.whole main_v33).slice (win1_5.rect t)).set ↔ _
  rw [View.set_slice_whole, Rect.mem_set_unit]
  exact Iff.rfl

/-- Every entry of the output array is in the block of the point its row falls in: row n in block n / 256. -/
theorem cover1 (i : S12288x256.Idx) : ∃ t : Fin cfg1.N, (cfg1.win 5).flush t = true ∧ i ∈ ((cfg1.win 5).blk t).view.set := by
  have hN : cfg1.N = 48 := N_1
  have hi0 : (i 0).val < 12288 := (i 0).isLt
  have hi1 : (i 1).val < 256 := (i 1).isLt
  refine ⟨⟨(i 0).val / 256, by rw [hN]; omega⟩, flush1_5 _, ?_⟩
  rw [mem_blk1]
  obtain ⟨-, -, -, -, -, -, -, -, -, -, e0, e1⟩ := idx1 ⟨(i 0).val / 256, by rw [hN]; omega⟩
  intro a
  match a with
  | ⟨0, _⟩ => show win1_5.index _ (0 : Fin 2) * 256 ≤ (i 0).val ∧ (i 0).val < win1_5.index _ (0 : Fin 2) * 256 + 256; rw [e0]; show (i 0).val / 256 * 256 ≤ (i 0).val ∧ (i 0).val < (i 0).val / 256 * 256 + 256; omega
  | ⟨1, _⟩ => show win1_5.index _ (1 : Fin 2) * 256 ≤ (i 1).val ∧ (i 1).val < win1_5.index _ (1 : Fin 2) * 256 + 256; rw [e1]; omega

/-- One entry of the second layer from whole arrays: the layer entry (no rectifier) of row n of the destination rows,
    rows n of the gathered neighbour rows, column j of the weights and the bias at j. -/
def entry1 (a0 : Vec Ideal S12288x256 .f32) (a1 : Vec Ideal S12288x10x256 .f32) (a2 a3 : Vec Ideal S256x256 .f32)
    (a4 : Vec Ideal S256 .f32) (n : Fin 12288) (j : Fin 256) : EReal :=
  sageEntry (fun k => a0 (ix2 n k)) (fun f k => a1 (ix3 n f k)) (fun k => a2 (ix2 k j)) (fun k => a3 (ix2 k j)) (a4 (ix1 j))

/-- The second layer's whole output array as one function of the five arrays its windows read. -/
def G1 (a0 : Vec Ideal S12288x256 .f32) (a1 : Vec Ideal S12288x10x256 .f32) (a2 a3 : Vec Ideal S256x256 .f32)
    (a4 : Vec Ideal S256 .f32) : Vec Ideal S12288x256 .f32 :=
  fun i => entry1 a0 a1 a2 a3 a4 ⟨(i 0).val, idx2_lt0 i⟩ ⟨(i 1).val, idx2_lt1 i⟩

/-- What point t writes back is block t of that function of the arrays as the region finds them. -/
theorem flushed1_eq (c : Dev nD) (t : Fin cfg1.N) :
    (dat1 (F := Ideal) V c).flushed 5 t
      = ((cfg1.win 5).blk t).view.read (Elt Ideal) (G1 (V c main_v25) (V c main_v32) (V c main_arg7) (V c main_arg8) (V c main_arg9)) := by
  show (cfg1.win 5).cut (grid1.coords t) ((dat1 V c).after 5 t) = _
  rw [after1_5]
  funext y
  obtain ⟨p, q, rfl⟩ : ∃ (p : Fin 256) (q : Fin 256), y = ix2 p q := ⟨y 0, y 1, eq_ix2 (n0 := 256) (n1 := 256) y⟩
  obtain ⟨-, -, -, -, -, -, -, -, -, -, e0, e1⟩ := idx1 t
  have hN : cfg1.N = 48 := N_1
  have ht : t.val < 48 := hN ▸ t.isLt
  have key : ∀ (n : Fin 12288) (j : Fin 256), n.val = t.val * 256 + p.val → j.val = q.val →
      out1_5 (F := Ideal) (iblk1 V c 0 t) (iblk1 V c 1 t) (iblk1 V c 2 t) (iblk1 V c 3 t) (iblk1 V c 4 t) (ix2 p q)
        = entry1 (V c main_v25) (V c main_v32) (V c main_arg7) (V c main_arg8) (V c main_arg9) n j := by
    intro n j hn hj
    obtain rfl : j = q := Fin.ext hj
    refine (out1_5_at _ _ _ _ _ p j).trans ?_
    unfold entry1
    exact sageEntry_congr (funext fun k => iblk1_0_at V c t p k n hn)
      (funext fun f => funext fun k => iblk1_1_at V c t p f k n hn) (funext fun k => iblk1_2_at V c t k j)
      (funext fun k => iblk1_3_at V c t k j) (iblk1_4_at V c t j)
  refine key _ _ ?_ ?_
  · show win1_5.index t (0 : Fin 2) * 256 + 1 * p.val = t.val * 256 + p.val
    rw [e0]; omega
  · show win1_5.index t (1 : Fin 2) * 256 + 1 * q.val = q.val
    rw [e1]; omega

/-- The output array after all grid points is that function of the arrays as the region finds them. -/
theorem final1 (c : Dev nD) :
    (dat1 (F := Ideal) V c).arrAt 5 cfg1.N = G1 (V c main_v25) (V c main_v32) (V c main_arg7) (V c main_arg8) (V c main_arg9) :=
  (dat1 V c).arrAt_eq_of_cover 5 _ (fun t _ => flushed1_eq V c t) (cover1)

/-- REGION 1, index by index: entry (n, j) of the output array after the run is destination row n times column j of
    the self weights, plus the mean of the ten gathered neighbour rows of n (their sum from zero in fan order, times
    one tenth) times column j of the neighbour weights, plus the bias at j. -/
theorem arr1_at (c : Dev nD) (n : Fin 12288) (j : Fin 256) :
    (dat1 (F := Ideal) V c).arrAt 5 cfg1.N (ix2 n j)
      = entry1 (V c main_v25) (V c main_v32) (V c main_arg7) (V c main_arg8) (V c main_arg9) n j :=
  (congrFun (final1 V c) (ix2 n j)).trans rfl

end Region1

/-- The second layer's entry written out. -/
theorem entry1_eq (a0 : Vec Ideal S12288x256 .f32) (a1 : Vec Ideal S12288x10x256 .f32) (a2 a3 : Vec Ideal S256x256 .f32)
    (a4 : Vec Ideal S256 .f32) (n : Fin 12288) (j : Fin 256) :
    entry1 a0 a1 a2 a3 a4 n j
      = (∑ k : Fin 256, a0 (ix2 n k) * a2 (ix2 k j))
          + (∑ k : Fin 256, (((((((((((0 + a1 (ix3 n 0 k)) + a1 (ix3 n 1 k)) + a1 (ix3 n 2 k)) + a1 (ix3 n 3 k)) + a1 (ix3 n 4 k))
              + a1 (ix3 n 5 k)) + a1 (ix3 n 6 k)) + a1 (ix3 n 7 k)) + a1 (ix3 n 8 k)) + a1 (ix3 n 9 k)) * (((1 / 10 : ℝ) : EReal)))
              * a3 (ix2 k j))
          + a4 (ix1 j) := rfl

end Cert.Bridge.KerValue

end
-- ==== Proof.RefStages.lean ====
/-
  The reference read index by index, every float an extended real.

  The network is two layers of neighbourhood averaging followed by a three-layer scorer. A node's new feature row is
  its own row times a matrix, plus the average of ten neighbour rows times a second matrix, plus a bias; the first
  layer is followed by the rectifier. An index word that is negative counts from the end of its axis, and every
  word is then clamped into its axis: the row a word reads is named once, as a function of the word, and the three
  stages below are stated through it. The reference first gathers the feature rows of every sampled node and then
  takes neighbours among the gathered rows; read at an index the two gathers compose, so the first stage reads the
  feature table directly. The scorer multiplies, entry by entry, a source row with a target row: the sources are rows
  0 to 4095 laid out twice, the targets are rows 4096 to 12287, so result row r pairs row r mod 4096 with row 4096 + r.
-/
import proofs.«163544_j27779848471357_2_alg».proof.Proof.Gen.ReferenceIdeal.Read
import proofs.«163544_j27779848471357_2_alg».proof.Proof.IdxNorm

noncomputable section

open scoped BigOperators

namespace Cert.Bridge.Ref

open Cert.ReferenceIdeal Cert.ReferenceIdeal.Gen Cert.ReferenceIdeal.Read Idealize.ShloMosaic Idealize.ShloMosaic.ValueIdx
  Idealize.ShloMosaic.SegmentSum Cert.Bridge

/-! ## Whole rows of a table taken at a rank-3 array of start indices -/

/-- Rows of a table `[N, C]` taken at start indices `[R, K, 1]`: result row `(r, k)` is the table's row at the
    `(r, k)`-th start index. -/
abbrev rowGather3Dims (N R K C : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

private theorem fin2_one_ne_zero : ¬((1 : Fin 2) = 0) := by decide

/-- That gather at `(r, k, c)`: the table at the `(r, k)`-th start index (signed, clamped) and column `c`. On the row
    axis the operand coordinate is the clamped start index alone; on the column axis it is the result's own column. -/
theorem rowGather3_apply {α : Type} {N R K C w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (j : (⟨3, ![R, K, C]⟩ : Shape).Idx) :
    Host.gather (rowGather3Dims N R K C wf) x idx j = x (ix2 (clampRow N hN (idx (ix3 (j 0) (j 1) 0))) (j 2)) := by
  unfold Host.gather
  congr 1
  funext a
  refine Fin.ext ?_
  have hsi : (rowGather3Dims N R K C wf).siIdx j ⟨List.idxOf (0 : Fin 2) (rowGather3Dims N R K C wf).startIndexMap,
      List.idxOf_lt_length_iff.2 (List.mem_singleton.mpr rfl)⟩ = ix3 (j 0) (j 1) 0 := by
    funext b; refine Fin.ext ?_
    match b with
    | ⟨0, _⟩ => rfl
    | ⟨1, _⟩ => rfl
    | ⟨2, _⟩ => rfl
  match a with
  | ⟨0, _⟩ =>
    show (rowGather3Dims N R K C wf).start j idx 0 + (rowGather3Dims N R K C wf).batchCoord j 0
      + (rowGather3Dims N R K C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather3Dims N R K C wf).startIndexMap from List.mem_singleton.mpr rfl)]
    rw [hsi]
    rfl
  | ⟨1, _⟩ =>
    show (rowGather3Dims N R K C wf).start j idx 1 + (rowGather3Dims N R K C wf).batchCoord j 1
      + (rowGather3Dims N R K C wf).offCoord j 1 = _
    rw [GatherDims.batchCoord_eq_zero _ _ _ List.not_mem_nil]
    have h1 : (1 : Fin 2) ∉ (rowGather3Dims N R K C wf).startIndexMap :=
      fun h => absurd (List.mem_singleton.mp h) fin2_one_ne_zero
    have h2 : (1 : Fin 2) ∈ (rowGather3Dims N R K C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-! ## The argument arrays -/

variable (x0 : (⟨S1000000x128, .f32⟩ : BufTy).Contents (Elt Ideal)) (x1 : (⟨S1228800, .i32⟩ : BufTy).Contents (Elt Ideal))
  (x2 : (⟨S122880x10, .i32⟩ : BufTy).Contents (Elt Ideal)) (x3 : (⟨S12288x10, .i32⟩ : BufTy).Contents (Elt Ideal))
  (x4 x5 : (⟨S128x256, .f32⟩ : BufTy).Contents (Elt Ideal)) (x6 : (⟨S256, .f32⟩ : BufTy).Contents (Elt Ideal))
  (x7 x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))
  (x14 : (⟨S256x1, .f32⟩ : BufTy).Contents (Elt Ideal)) (x15 : (⟨S1, .f32⟩ : BufTy).Contents (Elt Ideal))

/-! ## The first layer -/

/-- The start index the first gather reads for sampled node `e`: the node's word, wrapped by the table's extent. -/
theorem wrap_gids (e : Fin 1228800) :
    val_main_v5 (F := Ideal) x1 (ix2 e 0) = wrapAt 1000000#32 (x1 (ix1 e)) := by
  rw [val_main_v5_apply, show idx_main_v5 (ix2 e 0) = ix1 e from
    funext fun a => Fin.ext (by match a with | ⟨0, _⟩ => rfl)]
  rfl

/-- The gathered feature rows: row `e` is the feature table's row that sampled node `e`'s word reads. -/
theorem gids_row (e : Fin 1228800) (c : Fin 128) :
    val_main_v6 (F := Ideal) x0 x1 (ix2 e c)
      = x0 (ix2 (rowOf 1000000 (by decide) 1000000#32 (x1 (ix1 e))) c) := by
  unfold val_main_v6
  refine (rowGather_apply (N := 1000000) (E := 1228800) (C := 128) (by decide)
    gather_S1000000x128_S1228800x1_S1228800x128_1_0_n_n_0_1_1128_wf x0 (val_main_v5 (F := Ideal) x1) (ix2 e c)).trans ?_
  show x0 (ix2 (clampRow 1000000 _ (val_main_v5 (F := Ideal) x1 (ix2 e 0))) c) = _
  rw [wrap_gids]
  rfl

/-- A destination node's own row: the destinations are the first 122880 sampled nodes. -/
theorem self_row0 (n : Fin 122880) (k : Fin 128) :
    val_main_v7 (F := Ideal) x0 x1 (ix2 n k)
      = x0 (ix2 (rowOf 1000000 (by decide) 1000000#32 (x1 (ix1 ⟨n.val, Nat.lt_trans n.isLt (by decide)⟩))) k) := by
  rw [val_main_v7_apply, show idx_main_v7 (ix2 n k) = ix2 (⟨n.val, Nat.lt_trans n.isLt (by decide)⟩ : Fin 1228800) k from
    funext fun a => Fin.ext (by match a with | ⟨0, _⟩ => rfl | ⟨1, _⟩ => rfl), gids_row]

/-- The start index the neighbour gather reads: the neighbour's word, wrapped by the number of sampled nodes. -/
theorem wrap_neigh0 (n : Fin 122880) (f : Fin 10) :
    val_main_v13 (F := Ideal) x2 (ix3 n f 0) = wrapAt 1228800#32 (x2 (ix2 n f)) := by
  rw [val_main_v13_apply, show idx_main_v13 (ix3 n f 0) = ix2 n f from
    funext fun a => Fin.ext (by match a with | ⟨0, _⟩ => rfl | ⟨1, _⟩ => rfl)]
  rfl

/-- Neighbour `f` of destination `n`: the two gathers composed read the feature table at the row of the sampled
    node that the neighbour's word names. -/
theorem neigh_row0 (n : Fin 122880) (f : Fin 10) (c : Fin 128) :
    val_main_v14 (F := Ideal) x0 x1 x2 (ix3 n f c)
      = x0 (ix2 (rowOf 1000000 (by decide) 1000000#32
          (x1 (ix1 (rowOf 1228800 (by decide) 1228800#32 (x2 (ix2 n f)))))) c) := by
  unfold val_main_v14
  refine (rowGather3_apply (N := 1228800) (R := 122880) (K := 10) (C := 128) (by decide)
    gather_S1228800x128_S122880x10x1_S122880x10x128_2_0_n_n_0_2_1128_wf (val_main_v6 (F := Ideal) x0 x1)
    (val_main_v13 (F := Ideal) x2) (ix3 n f c)).trans ?_
  show val_main_v6 (F := Ideal) x0 x1
    (ix2 (clampRow 1228800 _ (val_main_v13 (F := Ideal) x2 (ix3 n f 0))) c) = _
  rw [wrap_neigh0, gids_row]
  rfl

/-- The neighbourhood average of the first layer: zero plus the ten neighbour entries, divided by ten. -/
theorem mean0_at (n : Fin 122880) (k : Fin 128) :
    val_main_v17 (F := Ideal) x0 x1 x2 (ix2 n k)
      = Ideal.div (0 + ∑ f : Fin 10, x0 (ix2 (rowOf 1000000 (by decide) 1000000#32
          (x1 (ix1 (rowOf 1228800 (by decide) 1228800#32 (x2 (ix2 n f)))))) k))
          (Ideal.ofBits .f32 0x41200000#32) := by
  rw [val_main_v17_apply, val_main_v15_apply, val_main_v16_apply, val_main_cst_3_apply, val_main_cst_apply]
  simp only [Ideal.hostDivf_def, Ideal.ofBits_def, Ideal.ofBits_zero_f32]
  refine congrArg (fun s => Ideal.div (0 + s) (Ideal.ofBits .f32 0x41200000#32)) (Finset.sum_congr rfl fun f _ => ?_)
  rw [show idx_main_v15 (ix2 n k) f = ix3 n f k from
    funext fun a => Fin.ext (by match a with | ⟨0, _⟩ => rfl | ⟨1, _⟩ => rfl | ⟨2, _⟩ => rfl), neigh_row0]

/-- STAGE ONE. Entry `(n, j)` of the first layer: the rectifier of the node's own row times the first matrix, plus
    the neighbourhood average times the second, plus the bias. -/
theorem h0_apply (n : Fin 122880) (j : Fin 256) :
    val_main_v24 (F := Ideal) x0 x1 x2 x4 x5 x6 (ix2 n j)
      = max ((∑ k : Fin 128, x0 (ix2 (rowOf 1000000 (by decide) 1000000#32
                (x1 (ix1 ⟨n.val, Nat.lt_trans n.isLt (by decide)⟩))) k) * x4 (ix2 k j))
          + (∑ k : Fin 128, Ideal.div (0 + ∑ f : Fin 10, x0 (ix2 (rowOf 1000000 (by decide) 1000000#32
                (x1 (ix1 (rowOf 1228800 (by decide) 1228800#32 (x2 (ix2 n f)))))) k))
                (Ideal.ofBits .f32 0x41200000#32) * x5 (ix2 k j))
          + x6 (ix1 j)) 0 := by
  rw [val_main_v24_apply, val_main_v23_apply, val_main_v20_apply, val_main_v18_apply, val_main_v19_apply,
    val_main_v22_apply, val_main_v21_apply, val_main_call0_v0_apply, val_main_call0_cst_apply]
  simp only [Ideal.maximumf_def, Ideal.addf_def, Ideal.ofBits_def, Ideal.ofBits_zero_f32]
  refine congrArg₂ max (congrArg₂ (· + ·) (congrArg₂ (· + ·) ?_ ?_) ?_) rfl
  · refine Finset.sum_congr rfl fun k _ => ?_
    rw [show lidx_main_v18 (ix2 n j) k = ix2 n k from
        funext fun a => Fin.ext (by match a with | ⟨0, _⟩ => rfl | ⟨1, _⟩ => rfl),
      show ridx_main_v18 (ix2 n j) k = ix2 k j from
        funext fun a => Fin.ext (by match a with | ⟨0, _⟩ => rfl | ⟨1, _⟩ => rfl), self_row0]
  · refine Finset.sum_congr rfl fun k _ => ?_
    rw [show lidx_main_v19 (ix2 n j) k = ix2 n k from
        funext fun a => Fin.ext (by match a with | ⟨0, _⟩ => rfl | ⟨1, _⟩ => rfl),
      show ridx_main_v19 (ix2 n j) k = ix2 k j from
        funext fun a => Fin.ext (by match a with | ⟨0, _⟩ => rfl | ⟨1, _⟩ => rfl), mean0_at]
  · exact congrArg x6 (funext fun a => Fin.ext (by match a with | ⟨0, _⟩ => rfl))

/-! ## The second layer

The second layer is the first again at other extents, over the first layer's array
`val_main_v24 x0 x1 x2 x4 x5 x6` (122880 rows of 256) in place of the gathered feature rows, and without the
rectifier. -/

/-- A destination node's own row of the first layer: the destinations are its first 12288 rows. -/
theorem self_row1 (n : Fin 12288) (k : Fin 256) :
    val_main_v25 (F := Ideal) x0 x1 x2 x4 x5 x6 (ix2 n k)
      = val_main_v24 (F := Ideal) x0 x1 x2 x4 x5 x6 (ix2 ⟨n.val, Nat.lt_trans n.isLt (by decide)⟩ k) := by
  rw [val_main_v25_apply, show idx_main_v25 (ix2 n k) = ix2 (⟨n.val, Nat.lt_trans n.isLt (by decide)⟩ : Fin 122880) k from
    funext fun a => Fin.ext (by match a with | ⟨0, _⟩ => rfl | ⟨1, _⟩ => rfl)]

/-- The start index the second neighbour gather reads: the neighbour's word, wrapped by the first layer's row count. -/
theorem wrap_neigh1 (n : Fin 12288) (f : Fin 10) :
    val_main_v31 (F := Ideal) x3 (ix3 n f 0) = wrapAt 122880#32 (x3 (ix2 n f)) := by
  rw [val_main_v31_apply, show idx_main_v31 (ix3 n f 0) = ix2 n f from
    funext fun a => Fin.ext (by match a with | ⟨0, _⟩ => rfl | ⟨1, _⟩ => rfl)]
  rfl

/-- Neighbour `f` of destination `n` in the second layer: the first layer's row that the neighbour's word names. -/
theorem neigh_row1 (n : Fin 12288) (f : Fin 10) (c : Fin 256) :
    val_main_v32 (F := Ideal) x0 x1 x2 x3 x4 x5 x6 (ix3 n f c)
      = val_main_v24 (F := Ideal) x0 x1 x2 x4 x5 x6
          (ix2 (rowOf 122880 (by decide) 122880#32 (x3 (ix2 n f))) c) := by
  unfold val_main_v32
  refine (rowGather3_apply (N := 122880) (R := 12288) (K := 10) (C := 256) (by decide)
    gather_S122880x256_S12288x10x1_S12288x10x256_2_0_n_n_0_2_1256_wf (val_main_v24 (F := Ideal) x0 x1 x2 x4 x5 x6)
    (val_main_v31 (F := Ideal) x3) (ix3 n f c)).trans ?_
  show val_main_v24 (F := Ideal) x0 x1 x2 x4 x5 x6
    (ix2 (clampRow 122880 _ (val_main_v31 (F := Ideal) x3 (ix3 n f 0))) c) = _
  rw [wrap_neigh1]
  rfl

/-- The neighbourhood average of the second layer: zero plus the ten neighbour entries, divided by ten. -/
theorem mean1_at (n : Fin 12288) (k : Fin 256) :
    val_main_v35 (F := Ideal) x0 x1 x2 x3 x4 x5 x6 (ix2 n k)
      = Ideal.div (0 + ∑ f : Fin 10, val_main_v24 (F := Ideal) x0 x1 x2 x4 x5 x6
          (ix2 (rowOf 122880 (by decide) 122880#32 (x3 (ix2 n f))) k))
          (Ideal.ofBits .f32 0x41200000#32) := by
  rw [val_main_v35_apply, val_main_v33_apply, val_main_v34_apply, val_main_cst_7_apply, val_main_cst_6_apply]
  simp only [Ideal.hostDivf_def, Ideal.ofBits_def, Ideal.ofBits_zero_f32]
  refine congrArg (fun s => Ideal.div (0 + s) (Ideal.ofBits .f32 0x41200000#32)) (Finset.sum_congr rfl fun f _ => ?_)
  rw [show idx_main_v33 (ix2 n k) f = ix3 n f k from
    funext fun a => Fin.ext (by match a with | ⟨0, _⟩ => rfl | ⟨1, _⟩ => rfl | ⟨2, _⟩ => rfl), neigh_row1]

/-- STAGE TWO. Entry `(n, j)` of the second layer over the first layer's array: the node's own row times the first
    matrix, plus the neighbourhood average times the second, plus the bias. No rectifier. -/
theorem h1_apply (n : Fin 12288) (j : Fin 256) :
    val_main_v41 (F := Ideal) x0 x1 x2 x3 x4 x5 x6 x7 x8 x9 (ix2 n j)
      = (∑ k : Fin 256, val_main_v24 (F := Ideal) x0 x1 x2 x4 x5 x6
              (ix2 ⟨n.val, Nat.lt_trans n.isLt (by decide)⟩ k) * x7 (ix2 k j))
          + (∑ k : Fin 256, Ideal.div (0 + ∑ f : Fin 10, val_main_v24 (F := Ideal) x0 x1 x2 x4 x5 x6
                (ix2 (rowOf 122880 (by decide) 122880#32 (x3 (ix2 n f))) k))
                (Ideal.ofBits .f32 0x41200000#32) * x8 (ix2 k j))
          + x9 (ix1 j) := by
  rw [val_main_v41_apply, val_main_v38_apply, val_main_v36_apply, val_main_v37_apply,
    val_main_v40_apply, val_main_v39_apply]
  simp only [Ideal.addf_def]
  refine congrArg₂ (· + ·) (congrArg₂ (· + ·) ?_ ?_) ?_
  · refine Finset.sum_congr rfl fun k _ => ?_
    rw [show lidx_main_v36 (ix2 n j) k = ix2 n k from
        funext fun a => Fin.ext (by match a with | ⟨0, _⟩ => rfl | ⟨1, _⟩ => rfl),
      show ridx_main_v36 (ix2 n j) k = ix2 k j from
        funext fun a => Fin.ext (by match a with | ⟨0, _⟩ => rfl | ⟨1, _⟩ => rfl), self_row1]
  · refine Finset.sum_congr rfl fun k _ => ?_
    rw [show lidx_main_v37 (ix2 n j) k = ix2 n k from
        funext fun a => Fin.ext (by match a with | ⟨0, _⟩ => rfl | ⟨1, _⟩ => rfl),
      show ridx_main_v37 (ix2 n j) k = ix2 k j from
        funext fun a => Fin.ext (by match a with | ⟨0, _⟩ => rfl | ⟨1, _⟩ => rfl), mean1_at]
  · exact congrArg x9 (funext fun a => Fin.ext (by match a with | ⟨0, _⟩ => rfl))

/-! ## The scorer

Over the second layer's array `val_main_v41 x0 … x9` (12288 rows of 256). Rows 0 to 4095 are the sources, rows 4096
to 8191 and 8192 to 12287 the two kinds of target. Result row `r` of 8192 multiplies, entry by entry, source row
`r mod 4096` (the sources laid out twice) with target row `4096 + r` (the two kinds of target laid end to end, which
is where they already are), and passes the product through two rectified layers and a last layer of one column. -/

/-- The sources laid out twice: row `r` is the second layer's row `r mod 4096`. -/
theorem src_row (r : Fin 8192) (i : Fin 256) :
    val_main_v45 (F := Ideal) x0 x1 x2 x3 x4 x5 x6 x7 x8 x9 (ix2 r i) = val_main_v41 (F := Ideal) x0 x1 x2 x3 x4 x5 x6 x7 x8 x9 (ix2 ⟨r.val % 4096, Nat.lt_trans (Nat.mod_lt _ (by decide)) (by decide)⟩ i) := by
  have hr8 := r.isLt
  unfold val_main_v45
  by_cases hr : r.val < 4096
  · refine (concatenate_pair_apply_left 0 _ _ concatenates_S4096x256_S4096x256_S8192x256_d0 (ix2 r i) rfl
      (ix2 (⟨r.val, hr⟩ : Fin 4096) i) (fun b => by match b with | ⟨0, _⟩ => rfl | ⟨1, _⟩ => rfl)).trans ?_
    rw [val_main_v42_apply]
    exact congrArg _ (funext fun a => Fin.ext (by
      match a with
      | ⟨0, _⟩ => exact (Nat.mod_eq_of_lt hr).symm
      | ⟨1, _⟩ => rfl))
  · refine (concatenate_pair_apply_right 0 _ _ concatenates_S4096x256_S4096x256_S8192x256_d0 (ix2 r i) rfl rfl
      (ix2 (⟨r.val - 4096, by omega⟩ : Fin 4096) i)
      (fun b hb => by match b with | ⟨0, _⟩ => exact absurd rfl hb | ⟨1, _⟩ => rfl)
      (by show (r.val - 4096) + 4096 = r.val; omega)).trans ?_
    rw [val_main_v42_apply]
    exact congrArg _ (funext fun a => Fin.ext (by
      match a with
      | ⟨0, _⟩ => show r.val - 4096 = r.val % 4096; omega
      | ⟨1, _⟩ => rfl))

/-- The targets laid end to end: row `r` is the second layer's row `4096 + r`. -/
theorem tgt_row (r : Fin 8192) (i : Fin 256) :
    val_main_v46 (F := Ideal) x0 x1 x2 x3 x4 x5 x6 x7 x8 x9 (ix2 r i) = val_main_v41 (F := Ideal) x0 x1 x2 x3 x4 x5 x6 x7 x8 x9 (ix2 ⟨4096 + r.val, by have := r.isLt; omega⟩ i) := by
  have hr8 := r.isLt
  unfold val_main_v46
  by_cases hr : r.val < 4096
  · refine (concatenate_pair_apply_left 0 _ _ concatenates_S4096x256_S4096x256_S8192x256_d0 (ix2 r i) rfl
      (ix2 (⟨r.val, hr⟩ : Fin 4096) i) (fun b => by match b with | ⟨0, _⟩ => rfl | ⟨1, _⟩ => rfl)).trans ?_
    rw [val_main_v43_apply]
    exact congrArg _ (funext fun a => Fin.ext (by
      match a with
      | ⟨0, _⟩ => rfl
      | ⟨1, _⟩ => rfl))
  · refine (concatenate_pair_apply_right 0 _ _ concatenates_S4096x256_S4096x256_S8192x256_d0 (ix2 r i) rfl rfl
      (ix2 (⟨r.val - 4096, by omega⟩ : Fin 4096) i)
      (fun b hb => by match b with | ⟨0, _⟩ => exact absurd rfl hb | ⟨1, _⟩ => rfl)
      (by show (r.val - 4096) + 4096 = r.val; omega)).trans ?_
    rw [val_main_v44_apply]
    exact congrArg _ (funext fun a => Fin.ext (by
      match a with
      | ⟨0, _⟩ => show 8192 + (r.val - 4096) = 4096 + r.val; omega
      | ⟨1, _⟩ => rfl))

/-- The entrywise product of a source row and its target row. -/
theorem pair_at (r : Fin 8192) (i : Fin 256) :
    val_main_v47 (F := Ideal) x0 x1 x2 x3 x4 x5 x6 x7 x8 x9 (ix2 r i) = val_main_v41 (F := Ideal) x0 x1 x2 x3 x4 x5 x6 x7 x8 x9 (ix2 ⟨r.val % 4096, Nat.lt_trans (Nat.mod_lt _ (by decide)) (by decide)⟩ i) * val_main_v41 (F := Ideal) x0 x1 x2 x3 x4 x5 x6 x7 x8 x9 (ix2 ⟨4096 + r.val, by have := r.isLt; omega⟩ i) := by
  rw [val_main_v47_apply, src_row, tgt_row]
  rfl

/-- The scorer's first layer at `(r, j)`. -/
theorem score1_at (r : Fin 8192) (j : Fin 256) :
    val_main_v52 (F := Ideal) x0 x1 x2 x3 x4 x5 x6 x7 x8 x9 x10 x11 (ix2 r j)
      = max ((∑ i : Fin 256, val_main_v41 (F := Ideal) x0 x1 x2 x3 x4 x5 x6 x7 x8 x9 (ix2 ⟨r.val % 4096, Nat.lt_trans (Nat.mod_lt _ (by decide)) (by decide)⟩ i) * val_main_v41 (F := Ideal) x0 x1 x2 x3 x4 x5 x6 x7 x8 x9 (ix2 ⟨4096 + r.val, by have := r.isLt; omega⟩ i) * x10 (ix2 i j)) + x11 (ix1 j)) 0 := by
  rw [val_main_v52_apply, val_main_v51_apply, val_main_v48_apply, val_main_v50_apply, val_main_v49_apply,
    val_main_call1_v0_apply, val_main_call1_cst_apply]
  simp only [Ideal.maximumf_def, Ideal.addf_def, Ideal.ofBits_def, Ideal.ofBits_zero_f32]
  refine congrArg₂ max (congrArg₂ (· + ·) ?_ ?_) rfl
  · refine Finset.sum_congr rfl fun i _ => ?_
    rw [show lidx_main_v48 (ix2 r j) i = ix2 r i from funext fun a => Fin.ext (by match a with | ⟨0, _⟩ => rfl | ⟨1, _⟩ => rfl),
      show ridx_main_v48 (ix2 r j) i = ix2 i j from funext fun a => Fin.ext (by match a with | ⟨0, _⟩ => rfl | ⟨1, _⟩ => rfl), pair_at]
  · exact congrArg x11 (funext fun a => Fin.ext (by match a with | ⟨0, _⟩ => rfl))

/-- The scorer's second layer at `(r, k)`. -/
theorem score2_at (r : Fin 8192) (k : Fin 256) :
    val_main_v57 (F := Ideal) x0 x1 x2 x3 x4 x5 x6 x7 x8 x9 x10 x11 x12 x13 (ix2 r k)
      = max ((∑ j : Fin 256, max ((∑ i : Fin 256, val_main_v41 (F := Ideal) x0 x1 x2 x3 x4 x5 x6 x7 x8 x9 (ix2 ⟨r.val % 4096, Nat.lt_trans (Nat.mod_lt _ (by decide)) (by decide)⟩ i) * val_main_v41 (F := Ideal) x0 x1 x2 x3 x4 x5 x6 x7 x8 x9 (ix2 ⟨4096 + r.val, by have := r.isLt; omega⟩ i) * x10 (ix2 i j)) + x11 (ix1 j)) 0 * x12 (ix2 j k))
          + x13 (ix1 k)) 0 := by
  rw [val_main_v57_apply, val_main_v56_apply, val_main_v53_apply, val_main_v55_apply, val_main_v54_apply,
    val_main_call2_v0_apply, val_main_call2_cst_apply]
  simp only [Ideal.maximumf_def, Ideal.addf_def, Ideal.ofBits_def, Ideal.ofBits_zero_f32]
  refine congrArg₂ max (congrArg₂ (· + ·) ?_ ?_) rfl
  · refine Finset.sum_congr rfl fun j _ => ?_
    rw [show lidx_main_v53 (ix2 r k) j = ix2 r j from funext fun a => Fin.ext (by match a with | ⟨0, _⟩ => rfl | ⟨1, _⟩ => rfl),
      show ridx_main_v53 (ix2 r k) j = ix2 j k from funext fun a => Fin.ext (by match a with | ⟨0, _⟩ => rfl | ⟨1, _⟩ => rfl), score1_at]
  · exact congrArg x13 (funext fun a => Fin.ext (by match a with | ⟨0, _⟩ => rfl))

/-- STAGE THREE. The result at row `r` (its one column) over the second layer's array. -/
theorem score_apply (r : Fin 8192) :
    val_main_v61 (F := Ideal) x0 x1 x2 x3 x4 x5 x6 x7 x8 x9 x10 x11 x12 x13 x14 x15 (ix2 r 0)
      = (∑ k : Fin 256, max ((∑ j : Fin 256, max ((∑ i : Fin 256, val_main_v41 (F := Ideal) x0 x1 x2 x3 x4 x5 x6 x7 x8 x9 (ix2 ⟨r.val % 4096, Nat.lt_trans (Nat.mod_lt _ (by decide)) (by decide)⟩ i) * val_main_v41 (F := Ideal) x0 x1 x2 x3 x4 x5 x6 x7 x8 x9 (ix2 ⟨4096 + r.val, by have := r.isLt; omega⟩ i) * x10 (ix2 i j)) + x11 (ix1 j)) 0
            * x12 (ix2 j k)) + x13 (ix1 k)) 0 * x14 (ix2 k 0)) + x15 (ix1 0) := by
  rw [val_main_v61_apply, val_main_v58_apply, val_main_v60_apply, val_main_v59_apply]
  simp only [Ideal.addf_def]
  refine congrArg₂ (· + ·) ?_ ?_
  · refine Finset.sum_congr rfl fun k _ => ?_
    rw [show lidx_main_v58 (ix2 r 0) k = ix2 r k from funext fun a => Fin.ext (by match a with | ⟨0, _⟩ => rfl | ⟨1, _⟩ => rfl),
      show ridx_main_v58 (ix2 r 0) k = ix2 k 0 from funext fun a => Fin.ext (by match a with | ⟨0, _⟩ => rfl | ⟨1, _⟩ => rfl), score2_at]
  · exact congrArg x15 (funext fun a => Fin.ext (by match a with | ⟨0, _⟩ => rfl))

/-! ## The average's two spellings

One side adds the ten neighbour entries one at a time onto zero and multiplies by the real 1/10; the other adds
zero and their sum and divides by the float ten. The float ten is the real 10, a quotient by a nonzero real is the product
with its inverse on every extended real, and the two orders of adding are one sum: no entry need be finite. -/

/-- The float `10.0` denotes the real `10`. -/
theorem ofBits_ten : Ideal.ofBits .f32 0x41200000#32 = ((10 : ℝ) : EReal) := by
  simp [Ideal.ofBits, Ideal.ieee, -EReal.coe_mul]; norm_num

/-- Ten terms added one at a time onto zero are their sum. -/
theorem sum_ten (a : Fin 10 → EReal) :
    ((((((((((0 + a 0) + a 1) + a 2) + a 3) + a 4) + a 5) + a 6) + a 7) + a 8) + a 9) = ∑ f : Fin 10, a f := by
  simp only [Fin.sum_univ_castSucc, Fin.sum_univ_zero]
  rfl

/-- THE AVERAGE: the ten entries added onto zero, times 1/10, is zero plus their sum divided by the float ten. -/
theorem mean_two_spellings (a : Fin 10 → EReal) :
    ((((((((((0 + a 0) + a 1) + a 2) + a 3) + a 4) + a 5) + a 6) + a 7) + a 8) + a 9) * (((1 / 10 : ℝ)) : EReal)
      = Ideal.div (0 + ∑ f : Fin 10, a f) (Ideal.ofBits .f32 0x41200000#32) := by
  rw [ofBits_ten, Ideal.div_coe (by norm_num : (10 : ℝ) ≠ 0), sum_ten, zero_add]

/-! ## The bridge

Any arrays built the other way round — the destination rows and the neighbour rows gathered first, each layer's
average taken by adding the ten neighbours one at a time onto zero and multiplying by 1/10, the scorer reading its
source and target rows straight out of the second layer — are the reference's, stage by stage: the gathered rows are
the rows the reference reads, the two averages are one (the law above), and everything else is the same formula. -/

theorem bridge (a0 : (⟨S1000000x128, .f32⟩ : BufTy).Contents (Elt Ideal)) (a1 : (⟨S1228800, .i32⟩ : BufTy).Contents (Elt Ideal))
    (a2 : (⟨S122880x10, .i32⟩ : BufTy).Contents (Elt Ideal)) (a3 : (⟨S12288x10, .i32⟩ : BufTy).Contents (Elt Ideal))
    (a4 a5 : (⟨S128x256, .f32⟩ : BufTy).Contents (Elt Ideal)) (a6 : (⟨S256, .f32⟩ : BufTy).Contents (Elt Ideal))
    (a7 a8 : (⟨S256x256, .f32⟩ : BufTy).Contents (Elt Ideal)) (a9 : (⟨S256, .f32⟩ : BufTy).Contents (Elt Ideal))
    (a10 : (⟨S256x256, .f32⟩ : BufTy).Contents (Elt Ideal)) (a11 : (⟨S256, .f32⟩ : BufTy).Contents (Elt Ideal))
    (a12 : (⟨S256x256, .f32⟩ : BufTy).Contents (Elt Ideal)) (a13 : (⟨S256, .f32⟩ : BufTy).Contents (Elt Ideal))
    (a14 : (⟨S256x1, .f32⟩ : BufTy).Contents (Elt Ideal)) (a15 : (⟨S1, .f32⟩ : BufTy).Contents (Elt Ideal))
    (X15 : S122880x128.Idx → EReal)
    (hX15 : ∀ (e : Fin 122880) (c : Fin 128), X15 (ix2 e c) = a0 (ix2 (rowOf 1000000 (by decide) 1000000#32 (a1 (ix1 ⟨e.val, Nat.lt_trans e.isLt (by decide)⟩))) c))
    (X23 : S122880x10x128.Idx → EReal)
    (hX23 : ∀ (e : Fin 122880) (f : Fin 10) (c : Fin 128), X23 (ix3 e f c) = a0 (ix2 (rowOf 1000000 (by decide) 1000000#32 (a1 (ix1 (rowOf 1228800 (by decide) 1228800#32 (a2 (ix2 e f)))))) c))
    (H0 : S122880x256.Idx → EReal)
    (hH0 : ∀ (n : Fin 122880) (j : Fin 256), H0 (ix2 n j)
      = max ((∑ k : Fin 128, X15 (ix2 n k) * a4 (ix2 k j))
          + (∑ k : Fin 128, (((((((((((0 + X23 (ix3 n 0 k)) + X23 (ix3 n 1 k)) + X23 (ix3 n 2 k)) + X23 (ix3 n 3 k)) + X23 (ix3 n 4 k)) + X23 (ix3 n 5 k)) + X23 (ix3 n 6 k)) + X23 (ix3 n 7 k)) + X23 (ix3 n 8 k)) + X23 (ix3 n 9 k))
              * (((1 / 10 : ℝ)) : EReal)) * a5 (ix2 k j))
          + a6 (ix1 j)) 0)
    (X25 : S12288x256.Idx → EReal)
    (hX25 : ∀ (e : Fin 12288) (c : Fin 256), X25 (ix2 e c) = H0 (ix2 ⟨e.val, Nat.lt_trans e.isLt (by decide)⟩ c))
    (X32 : S12288x10x256.Idx → EReal)
    (hX32 : ∀ (e : Fin 12288) (f : Fin 10) (c : Fin 256),
      X32 (ix3 e f c) = H0 (ix2 (rowOf 122880 (by decide) 122880#32 (a3 (ix2 e f))) c))
    (H1 : S12288x256.Idx → EReal)
    (hH1 : ∀ (n : Fin 12288) (j : Fin 256), H1 (ix2 n j)
      = (∑ k : Fin 256, X25 (ix2 n k) * a7 (ix2 k j))
          + (∑ k : Fin 256, (((((((((((0 + X32 (ix3 n 0 k)) + X32 (ix3 n 1 k)) + X32 (ix3 n 2 k)) + X32 (ix3 n 3 k)) + X32 (ix3 n 4 k)) + X32 (ix3 n 5 k)) + X32 (ix3 n 6 k)) + X32 (ix3 n 7 k)) + X32 (ix3 n 8 k)) + X32 (ix3 n 9 k))
              * (((1 / 10 : ℝ)) : EReal)) * a8 (ix2 k j))
          + a9 (ix1 j))
    (S : S8192x1.Idx → EReal)
    (hS : ∀ r : Fin 8192, S (ix2 r 0)
      = (∑ k : Fin 256, max ((∑ j : Fin 256, max ((∑ i : Fin 256,
            (H1 (ix2 ⟨r.val % 4096, Nat.lt_trans (Nat.mod_lt _ (by decide)) (by decide)⟩ i) * H1 (ix2 ⟨4096 + r.val, by have := r.isLt; omega⟩ i)) * a10 (ix2 i j)) + a11 (ix1 j)) 0
            * a12 (ix2 j k)) + a13 (ix1 k)) 0 * a14 (ix2 k 0)) + a15 (ix1 0)) :
    S = val_main_v61 (F := Ideal) a0 a1 a2 a3 a4 a5 a6 a7 a8 a9 a10 a11 a12 a13 a14 a15 := by
  -- the first layer
  have e0 : H0 = val_main_v24 (F := Ideal) a0 a1 a2 a4 a5 a6 := by
    funext i
    obtain ⟨n, j, rfl⟩ : ∃ (n : Fin 122880) (j : Fin 256), i = ix2 n j := ⟨i 0, i 1, eq_ix2 i⟩
    rw [hH0, h0_apply]
    refine congrArg₂ max (congrArg₂ (· + ·) (congrArg₂ (· + ·) ?_ ?_) rfl) rfl
    · exact Finset.sum_congr rfl fun k _ => by rw [hX15]
    · refine Finset.sum_congr rfl fun k _ => ?_
      simp only [hX23]
      exact congrArg (· * a5 (ix2 k j)) (mean_two_spellings (fun f => a0 (ix2 (rowOf 1000000 (by decide) 1000000#32 (a1 (ix1 (rowOf 1228800 (by decide) 1228800#32 (a2 (ix2 n f)))))) k)))
  subst e0
  -- the second layer
  have e1 : H1 = val_main_v41 (F := Ideal) a0 a1 a2 a3 a4 a5 a6 a7 a8 a9 := by
    funext i
    obtain ⟨n, j, rfl⟩ : ∃ (n : Fin 12288) (j : Fin 256), i = ix2 n j := ⟨i 0, i 1, eq_ix2 i⟩
    rw [hH1, h1_apply]
    refine congrArg₂ (· + ·) (congrArg₂ (· + ·) ?_ ?_) rfl
    · exact Finset.sum_congr rfl fun k _ => by rw [hX25]
    · refine Finset.sum_congr rfl fun k _ => ?_
      simp only [hX32]
      exact congrArg (· * a8 (ix2 k j)) (mean_two_spellings (fun f =>
        val_main_v24 (F := Ideal) a0 a1 a2 a4 a5 a6 (ix2 (rowOf 122880 (by decide) 122880#32 (a3 (ix2 n f))) k)))
  subst e1
  -- the scorer
  funext i
  obtain ⟨r, z, rfl⟩ : ∃ (r : Fin 8192) (z : Fin 1), i = ix2 r z := ⟨i 0, i 1, eq_ix2 i⟩
  obtain rfl : z = 0 := Subsingleton.elim _ _
  rw [hS, score_apply]

end Cert.Bridge.Ref

end
-- ==== Proof.KIBridge.lean ====
/-
  The kernel's result array is the reference's.

  The kernel works in five steps. The host gathers, for each destination node of the first layer, its own feature
  row and its ten neighbours' feature rows; the first region computes the first layer from them; the host takes, for
  each destination node of the second layer, its own row and its ten neighbours' rows of the first layer; the second
  region computes the second layer; the third region scores each pair of a source row and a target row of the second
  layer. No step writes an argument array, so at every step the arguments are as launched. Each gathered array is the
  rows the reference reads, each region's array is the reference's formula over what it was given, with the average
  taken by adding the ten neighbours one at a time onto zero and multiplying by one tenth; the bridge between the two
  spellings then gives the reference's term of the launch contents.
-/
import proofs.«163544_j27779848471357_2_alg».proof.Proof.KIRun
import proofs.«163544_j27779848471357_2_alg».proof.Proof.KerHost
import proofs.«163544_j27779848471357_2_alg».proof.Proof.KIValue
import proofs.«163544_j27779848471357_2_alg».proof.Proof.RefStages

set_option maxRecDepth 16384

noncomputable section

open scoped BigOperators

namespace Cert.Bridge.Join

open Idealize.ShloMosaic Idealize.ShloMosaic.TcCoe Idealize.ShloMosaic.ValueIdx Idealize.SL.Sem
open Cert.KernelIdeal Cert.KernelIdeal.Gen Cert.KernelIdeal.Hand Cert.Bridge

/-- THE RESULT. What the last region leaves in its output array is the reference's term of the launch contents of the
    sixteen argument arrays. -/
theorem result_eq (m : (ℓ : Loc nD τ sig) → Buf (Elt Ideal) ℓ) (c : Dev nD) :
    res5 m c = Cert.ReferenceIdeal.Read.val_main_v61 (F := Ideal)
      (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15)) := by
  refine Cert.Bridge.Ref.bridge _ _ _ _ _ _ _ _ _ _ _ _ _ _ _ _
    (At1 m c main_v15) ?_ (At1 m c main_v23) ?_ (At2 m c main_v24) ?_
    (At3 m c main_v25) ?_ (At3 m c main_v32) ?_ (At4 m c main_v33) ?_ (res5 m c) ?_
  · -- the destination rows of the first layer, gathered from the launch contents
    exact fun e c' => KerHost.dstRows0_apply (Wd0 m c) e c'
  · -- the neighbour rows of the first layer
    exact fun e f c' => KerHost.neighRows0_apply (Wd0 m c) e f c'
  · -- the first layer: the first region's array over what the host staged, the weights and bias as launched
    intro n j
    refine (congrFun (Wd2_arr m c 5) (ix2 n j)).trans ?_
    refine (KerValue.arr0_at (At1 m) c n j).trans ?_
    rw [show At1 m c main_arg4 = m ((c : Thread nD τ).loc main_arg4) from Wd1_main_arg4 m c,
      show At1 m c main_arg5 = m ((c : Thread nD τ).loc main_arg5) from Wd1_main_arg5 m c,
      show At1 m c main_arg6 = m ((c : Thread nD τ).loc main_arg6) from Wd1_main_arg6 m c]
    exact KerValue.entry0_eq ..
  · -- the destination rows of the second layer: a prefix of the first layer
    exact fun e c' => KerHost.dstRows1_apply (Wd2 m c) e c'
  · -- the neighbour rows of the second layer, at the neighbour words as launched
    intro e f c'
    refine (KerHost.neighRows1_apply (Wd2 m c) e f c').trans ?_
    rw [Wd2_main_arg3 m c]
  · -- the second layer
    intro n j
    refine (congrFun (Wd4_arr m c 5) (ix2 n j)).trans ?_
    refine (KerValue.arr1_at (At3 m) c n j).trans ?_
    rw [show At3 m c main_arg7 = m ((c : Thread nD τ).loc main_arg7) from Wd3_main_arg7 m c,
      show At3 m c main_arg8 = m ((c : Thread nD τ).loc main_arg8) from Wd3_main_arg8 m c,
      show At3 m c main_arg9 = m ((c : Thread nD τ).loc main_arg9) from Wd3_main_arg9 m c]
    exact KerValue.entry1_eq ..
  · -- the scores
    intro r
    refine (KerValue.arr2_at (At4 m) c r).trans ?_
    rw [show At4 m c main_arg10 = m ((c : Thread nD τ).loc main_arg10) from Wd4_main_arg10 m c,
      show At4 m c main_arg11 = m ((c : Thread nD τ).loc main_arg11) from Wd4_main_arg11 m c,
      show At4 m c main_arg12 = m ((c : Thread nD τ).loc main_arg12) from Wd4_main_arg12 m c,
      show At4 m c main_arg13 = m ((c : Thread nD τ).loc main_arg13) from Wd4_main_arg13 m c,
      show At4 m c main_arg14 = m ((c : Thread nD τ).loc main_arg14) from Wd4_main_arg14 m c,
      show At4 m c main_arg15 = m ((c : Thread nD τ).loc main_arg15) from Wd4_main_arg15 m c]
    exact KerValue.entry2_eq ..

end Cert.Bridge.Join

end
-- ==== Proof.lean ====
/-
  Two layers of neighbourhood averaging followed by a three-layer scorer of node pairs, computed by three
  pipelined kernels with gathers between them, against the same network written with plain array operations.

  Each layer takes, for every destination node, its own feature row times one weight matrix, plus the mean of
  its ten sampled neighbours' rows times another, plus a bias (the first layer then keeps the positive part).
  The kernel forms the mean as the ten rows added one after the other onto zero, times the named constant one
  tenth; the reference as their sum divided by ten: one value on the extended reals, since dividing by a nonzero
  real is multiplying by its inverse, and sums of extended reals may be regrouped freely. The kernel gathers
  feature rows by composed indices where the reference gathers twice; a negative index counts from the end and
  every index is clamped into its axis, so the two read the same rows. The scorer multiplies the source block of
  the second layer's rows with the positive and then the negative partner block, entry by entry, and applies
  three dense layers: the kernel reads the two blocks through two windows on one array where the reference
  concatenates copies. Changes of float format are the identity on the extended reals, and a matrix product into
  a zero accumulator is the plain sum over the contracted axis, as the reference's product is. No finiteness of
  the inputs is used: no factor is ever moved across a sum.

  The three programs' runs: the reference is host operations only, and its run is read off them one at a time. The
  kernel, as printed and idealized, is run segment by segment: host stretches apply their operations, and each
  region's pipeline is discharged from what its body leaves in the staging buffers at every grid point; the last
  region's two row-block windows share their array's ownership in halves. Read at the end, every argument array
  is as launched and the result array is the last region's write-backs.
-/
import proofs.«163544_j27779848471357_2_alg».proof.Defs
import proofs.«163544_j27779848471357_2_alg».proof.Proof.Gen.Kernel
import proofs.«163544_j27779848471357_2_alg».proof.Proof.Gen.KernelIdeal
import proofs.«163544_j27779848471357_2_alg».proof.Proof.Gen.ReferenceIdeal
import proofs.«163544_j27779848471357_2_alg».proof.Proof.Gen.Pre_finite_inputs
import proofs.«163544_j27779848471357_2_alg».proof.Proof.Gen.ReferenceIdeal.Read
import proofs.«163544_j27779848471357_2_alg».proof.Proof.KRun
import proofs.«163544_j27779848471357_2_alg».proof.Proof.KIRun
import proofs.«163544_j27779848471357_2_alg».proof.Proof.KIBridge
import Idealize.ShloMosaic.Adequacy
import Idealize.ShloMosaic.Init
import Idealize.ShloMosaic.PureOps.IdealRules

noncomputable section

namespace Cert.Proof

open Idealize.ShloMosaic Idealize.ShloMosaic.TcCoe Idealize.SL.Sem

/-- The kernel as printed runs to the end with its argument arrays unchanged. -/
theorem frame_k : Cert.frame_Kernel := fun m ρ _ => Cert.Kernel.Hand.frame_args (F := Bits) m ρ

/-- So does its idealization. -/
theorem frame_ki : Cert.frame_KernelIdeal := fun m ρ _ => Cert.KernelIdeal.Hand.frame_args (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization named one constant, at two sites: the word for one tenth stands for the exact 1/10. -/
theorem preserves : Cert.preserves_Kernel_KernelIdeal :=
  ⟨IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl⟩

/-- On the extended reals the two programs, run on the same arguments, end with the same scores: the kernel's
    result array is what its last region's write-backs leave, and that array is the reference's composed term. -/
theorem algebraic : Cert.algebraic_KernelIdeal_ReferenceIdeal := by
  intro m ρ m' ρ' _ hagree
  refine ⟨fun c => Cert.KernelIdeal.Hand.res5 m c, Cert.KernelIdeal.Hand.value_run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v61_eq, h0, h1, h2, h3, h4, h5, h6, h7, h8, h9, h10, h11, h12, h13, h14, h15]
  exact (Cert.Bridge.Join.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
